-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x512x512 : Shape := ⟨4, ![4, 3, 512, 512]⟩
abbrev S36x12 : Shape := ⟨2, ![36, 12]⟩
abbrev S36 : Shape := ⟨1, ![36]⟩
abbrev S_ : Shape := ⟨0, ![]⟩

class Facts : Prop where
  bcast_S_S4x3x512x512 : S_.BroadcastsInDim S4x3x512x512 (![] : Fin 0 → Fin S4x3x512x512.rank)
  reducesTo_S4x3x512x512_S_d0_1_2_3 : S4x3x512x512.ReducesTo [0, 1, 2, 3] S_
  h_S_ : 0 < S_.numel
  bcast_S_S36x12 : S_.BroadcastsInDim S36x12 (![] : Fin 0 → Fin S36x12.rank)
  reducesTo_S36x12_S_d0_1 : S36x12.ReducesTo [0, 1] S_
  bcast_S_S36 : S_.BroadcastsInDim S36 (![] : Fin 0 → Fin S36.rank)
  reducesTo_S36_S_d0 : S36.ReducesTo [0] S_

variable [Facts]

def fn {F : FTy → Type} [FloatOps F] (main_arg0 : FVec F S4x3x512x512 .f32) (main_arg1 : FVec F S36x12 .f32) (main_arg2 : FVec F S36 .f32) : IVec S_ 1 :=
  let main_v0 : FVec F S4x3x512x512 .f32 := Host.absf main_arg0
  let main_cst : FVec F S_ .f32 := constant S_ .f32 0x7F800000#32
  let main_v1 : FVec F S4x3x512x512 .f32 := broadcastInDim S4x3x512x512 ![] bcast_S_S4x3x512x512 main_cst
  let main_v2 : IVec S4x3x512x512 1 := cmpf .olt main_v0 main_v1
  let main_c : IVec S_ 1 := constantI S_ 1 1#1
  let main_v3 : IVec S_ 1 := (fun x v => Host.reduce IntOp.andi x v reducesTo_S4x3x512x512_S_d0_1_2_3 h_S_) main_v2 main_c
  let main_v4 : FVec F S36x12 .f32 := Host.absf main_arg1
  let main_cst_0 : FVec F S_ .f32 := constant S_ .f32 0x7F800000#32
  let main_v5 : FVec F S36x12 .f32 := broadcastInDim S36x12 ![] bcast_S_S36x12 main_cst_0
  let main_v6 : IVec S36x12 1 := cmpf .olt main_v4 main_v5
  let main_c_1 : IVec S_ 1 := constantI S_ 1 1#1
  let main_v7 : IVec S_ 1 := (fun x v => Host.reduce IntOp.andi x v reducesTo_S36x12_S_d0_1 h_S_) main_v6 main_c_1
  let main_v8 : IVec S_ 1 := andi main_v3 main_v7
  let main_v9 : FVec F S36 .f32 := Host.absf main_arg2
  let main_cst_2 : FVec F S_ .f32 := constant S_ .f32 0x7F800000#32
  let main_v10 : FVec F S36 .f32 := broadcastInDim S36 ![] bcast_S_S36 main_cst_2
  let main_v11 : IVec S36 1 := cmpf .olt main_v9 main_v10
  let main_c_3 : IVec S_ 1 := constantI S_ 1 1#1
  let main_v12 : IVec S_ 1 := (fun x v => Host.reduce IntOp.andi x v reducesTo_S36_S_d0 h_S_) main_v11 main_c_3
  let main_v13 : IVec S_ 1 := andi main_v8 main_v12
  main_v13
-- ==== Kernel.lean ====
abbrev S4x3x512x512 : Shape := ⟨4, ![4, 3, 512, 512]⟩
abbrev S36x12 : Shape := ⟨2, ![36, 12]⟩
abbrev S36 : Shape := ⟨1, ![36]⟩
abbrev S9x12x1x1 : Shape := ⟨4, ![9, 12, 1, 1]⟩
abbrev S_ : Shape := ⟨0, ![]⟩
abbrev S4x3x516x516 : Shape := ⟨4, ![4, 3, 516, 516]⟩
abbrev S4x3x258x2x258x2 : Shape := ⟨6, ![4, 3, 258, 2, 258, 2]⟩
abbrev S4x3x2x2x258x258 : Shape := ⟨6, ![4, 3, 2, 2, 258, 258]⟩
abbrev S4x12x258x258 : Shape := ⟨4, ![4, 12, 258, 258]⟩
abbrev S12x12 : Shape := ⟨2, ![12, 12]⟩
abbrev S12 : Shape := ⟨1, ![12]⟩
abbrev S12x1x1 : Shape := ⟨3, ![12, 1, 1]⟩
abbrev S4x12x256x256 : Shape := ⟨4, ![4, 12, 256, 256]⟩
abbrev S1x12x258x258 : Shape := ⟨4, ![1, 12, 258, 258]⟩
abbrev S1x12x256x256 : Shape := ⟨4, ![1, 12, 256, 256]⟩
abbrev S1x12x66x258 : Shape := ⟨4, ![1, 12, 66, 258]⟩
abbrev S12x66x258 : Shape := ⟨3, ![12, 66, 258]⟩
abbrev S12x64x256 : Shape := ⟨3, ![12, 64, 256]⟩
abbrev S12x1 : Shape := ⟨2, ![12, 1]⟩
abbrev S1x64x256 : Shape := ⟨3, ![1, 64, 256]⟩
abbrev S64x256 : Shape := ⟨2, ![64, 256]⟩
abbrev S1x66x258 : Shape := ⟨3, ![1, 66, 258]⟩
abbrev S66x258 : Shape := ⟨2, ![66, 258]⟩
abbrev S1x12x1x1 : Shape := ⟨4, ![1, 12, 1, 1]⟩
abbrev S1x12x64x256 : Shape := ⟨4, ![1, 12, 64, 256]⟩
abbrev S4x3x2x2x256x256 : Shape := ⟨6, ![4, 3, 2, 2, 256, 256]⟩
abbrev S4x3x256x2x256x2 : Shape := ⟨6, ![4, 3, 256, 2, 256, 2]⟩

abbrev nBuf : Space → Nat
  | .hbm => 24
  | .vmem => 11
  | .smem => 0
  | _ => 0

abbrev bufTy : (tb : Table) → Fin (tcTables nBuf tb) → BufTy
  | .hbm, ⟨0, _⟩ => ⟨S4x3x512x512, .f32⟩
  | .hbm, ⟨1, _⟩ => ⟨S36x12, .f32⟩
  | .hbm, ⟨2, _⟩ => ⟨S36, .f32⟩
  | .hbm, ⟨3, _⟩ => ⟨S9x12x1x1, .f32⟩
  | .hbm, ⟨4, _⟩ => ⟨S_, .i32⟩
  | .hbm, ⟨5, _⟩ => ⟨S_, .f32⟩
  | .hbm, ⟨6, _⟩ => ⟨S4x3x516x516, .f32⟩
  | .hbm, ⟨7, _⟩ => ⟨S4x3x258x2x258x2, .f32⟩
  | .hbm, ⟨8, _⟩ => ⟨S4x3x2x2x258x258, .f32⟩
  | .hbm, ⟨9, _⟩ => ⟨S4x12x258x258, .f32⟩
  | .hbm, ⟨10, _⟩ => ⟨S12x12, .f32⟩
  | .hbm, ⟨11, _⟩ => ⟨S12x12, .f32⟩
  | .hbm, ⟨12, _⟩ => ⟨S12x12, .f32⟩
  | .hbm, ⟨13, _⟩ => ⟨S12, .f32⟩
  | .hbm, ⟨14, _⟩ => ⟨S12x1x1, .f32⟩
  | .hbm, ⟨15, _⟩ => ⟨S12, .f32⟩
  | .hbm, ⟨16, _⟩ => ⟨S12x1x1, .f32⟩
  | .hbm, ⟨17, _⟩ => ⟨S12, .f32⟩
  | .hbm, ⟨18, _⟩ => ⟨S12x1x1, .f32⟩
  | .hbm, ⟨19, _⟩ => ⟨S4x12x256x256, .f32⟩
  | .hbm, ⟨20, _⟩ => ⟨S4x3x2x2x256x256, .f32⟩
  | .hbm, ⟨21, _⟩ => ⟨S4x3x256x2x256x2, .f32⟩
  | .hbm, ⟨22, _⟩ => ⟨S4x3x512x512, .f32⟩
  | .hbm, ⟨23, _⟩ => ⟨S4x3x512x512, .f32⟩
  | .local _ .vmem, ⟨0, _⟩ => ⟨S1x12x258x258, .f32⟩
  | .local _ .vmem, ⟨1, _⟩ => ⟨S1x12x258x258, .f32⟩
  | .local _ .vmem, ⟨2, _⟩ => ⟨S12x12, .f32⟩
  | .local _ .vmem, ⟨3, _⟩ => ⟨S12x1x1, .f32⟩
  | .local _ .vmem, ⟨4, _⟩ => ⟨S12x12, .f32⟩
  | .local _ .vmem, ⟨5, _⟩ => ⟨S12x1x1, .f32⟩
  | .local _ .vmem, ⟨6, _⟩ => ⟨S12x12, .f32⟩
  | .local _ .vmem, ⟨7, _⟩ => ⟨S12x1x1, .f32⟩
  | .local _ .vmem, ⟨8, _⟩ => ⟨S9x12x1x1, .f32⟩
  | .local _ .vmem, ⟨9, _⟩ => ⟨S1x12x256x256, .f32⟩
  | .local _ .vmem, ⟨10, _⟩ => ⟨S1x12x256x256, .f32⟩
  | _, _ => ⟨S4x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x12x258x258 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S12x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S9x12x1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x12x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  pads_S4x3x512x512_S4x3x516x516_000_000_220_220 : S4x3x512x512.Pads (![0, 0, 2, 2] : Fin 4 → Nat) ![0, 0, 2, 2] ![0, 0, 0, 0] S4x3x516x516
  h_S_ : 0 < S_.numel
  shapeCasts_S4x3x516x516_S4x3x258x2x258x2 : S4x3x516x516.ShapeCasts S4x3x258x2x258x2
  transposes_S4x3x258x2x258x2_S4x3x2x2x258x258_0_1_3_5_2_4 : S4x3x258x2x258x2.Transposes [0, 1, 3, 5, 2, 4] S4x3x2x2x258x258
  shapeCasts_S4x3x2x2x258x258_S4x12x258x258 : S4x3x2x2x258x258.ShapeCasts S4x12x258x258
  slices_S36x12_S12x12_0_0 : S36x12.Slices ![0, 0] S12x12
  slices_S36x12_S12x12_12_0 : S36x12.Slices ![12, 0] S12x12
  slices_S36x12_S12x12_24_0 : S36x12.Slices ![24, 0] S12x12
  slices_S36_S12_0 : S36.Slices ![0] S12
  shapeCasts_S12_S12x1x1 : S12.ShapeCasts S12x1x1
  slices_S36_S12_12 : S36.Slices ![12] S12
  slices_S36_S12_24 : S36.Slices ![24] S12
  inb_S1x12x258x258_S1x12x66x258_0_0_0_0 : ∀ a, (![0, 0, 0, 0] : Fin 4 → Nat) a + S1x12x66x258.size a ≤ S1x12x258x258.size a
  h_S1x12x66x258 : 0 < S1x12x66x258.numel
  shapeCasts_S1x12x66x258_S12x66x258 : S1x12x66x258.ShapeCasts S12x66x258
  slices_S12x66x258_o0_1_1_S12x64x256 : S12x66x258.Slices ![0, 1, 1] S12x64x256
  inb_S12x12_S12x12_0_0 : ∀ a, (![0, 0] : Fin 2 → Nat) a + S12x12.size a ≤ S12x12.size a
  h_S12x12 : 0 < S12x12.numel
  shapeCasts_S12x12_S12x12 : S12x12.ShapeCasts S12x12
  inb_S12x1x1_S12x1x1_0_0_0 : ∀ a, (![0, 0, 0] : Fin 3 → Nat) a + S12x1x1.size a ≤ S12x1x1.size a
  h_S12x1x1 : 0 < S12x1x1.numel
  shapeCasts_S12x1x1_S12x1x1 : S12x1x1.ShapeCasts S12x1x1
  broadcasts_S12x1x1_S12x64x256 : S12x1x1.Broadcasts S12x64x256
  slices_S12x12_o0_0_S12x1 : S12x12.Slices ![0, 0] S12x1
  shapeCasts_S12x1_S12 : S12x1.ShapeCasts S12
  slices_S12x64x256_o0_0_0_S1x64x256 : S12x64x256.Slices ![0, 0, 0] S1x64x256
  shapeCasts_S1x64x256_S64x256 : S1x64x256.ShapeCasts S64x256
  shapeCasts_S64x256_S1x64x256 : S64x256.ShapeCasts S1x64x256
  broadcasts_S1x64x256_S12x64x256 : S1x64x256.Broadcasts S12x64x256
  slices_S12x12_o0_1_S12x1 : S12x12.Slices ![0, 1] S12x1
  slices_S12x64x256_o1_0_0_S1x64x256 : S12x64x256.Slices ![1, 0, 0] S1x64x256
  slices_S12x12_o0_2_S12x1 : S12x12.Slices ![0, 2] S12x1
  slices_S12x64x256_o2_0_0_S1x64x256 : S12x64x256.Slices ![2, 0, 0] S1x64x256
  slices_S12x12_o0_3_S12x1 : S12x12.Slices ![0, 3] S12x1
  slices_S12x64x256_o3_0_0_S1x64x256 : S12x64x256.Slices ![3, 0, 0] S1x64x256
  slices_S12x12_o0_4_S12x1 : S12x12.Slices ![0, 4] S12x1
  slices_S12x64x256_o4_0_0_S1x64x256 : S12x64x256.Slices ![4, 0, 0] S1x64x256
  slices_S12x12_o0_5_S12x1 : S12x12.Slices ![0, 5] S12x1
  slices_S12x64x256_o5_0_0_S1x64x256 : S12x64x256.Slices ![5, 0, 0] S1x64x256
  slices_S12x12_o0_6_S12x1 : S12x12.Slices ![0, 6] S12x1
  slices_S12x64x256_o6_0_0_S1x64x256 : S12x64x256.Slices ![6, 0, 0] S1x64x256
  slices_S12x12_o0_7_S12x1 : S12x12.Slices ![0, 7] S12x1
  slices_S12x64x256_o7_0_0_S1x64x256 : S12x64x256.Slices ![7, 0, 0] S1x64x256
  slices_S12x12_o0_8_S12x1 : S12x12.Slices ![0, 8] S12x1
  slices_S12x64x256_o8_0_0_S1x64x256 : S12x64x256.Slices ![8, 0, 0] S1x64x256
  slices_S12x12_o0_9_S12x1 : S12x12.Slices ![0, 9] S12x1
  slices_S12x64x256_o9_0_0_S1x64x256 : S12x64x256.Slices ![9, 0, 0] S1x64x256
  slices_S12x12_o0_10_S12x1 : S12x12.Slices ![0, 10] S12x1
  slices_S12x64x256_o10_0_0_S1x64x256 : S12x64x256.Slices ![10, 0, 0] S1x64x256
  slices_S12x12_o0_11_S12x1 : S12x12.Slices ![0, 11] S12x1
  slices_S12x64x256_o11_0_0_S1x64x256 : S12x64x256.Slices ![11, 0, 0] S1x64x256
  broadcasts_S12x1x1_S12x66x258 : S12x1x1.Broadcasts S12x66x258
  slices_S12x66x258_o0_0_0_S1x66x258 : S12x66x258.Slices ![0, 0, 0] S1x66x258
  shapeCasts_S1x66x258_S66x258 : S1x66x258.ShapeCasts S66x258
  shapeCasts_S66x258_S1x66x258 : S66x258.ShapeCasts S1x66x258
  broadcasts_S1x66x258_S12x66x258 : S1x66x258.Broadcasts S12x66x258
  slices_S12x66x258_o1_0_0_S1x66x258 : S12x66x258.Slices ![1, 0, 0] S1x66x258
  slices_S12x66x258_o2_0_0_S1x66x258 : S12x66x258.Slices ![2, 0, 0] S1x66x258
  slices_S12x66x258_o3_0_0_S1x66x258 : S12x66x258.Slices ![3, 0, 0] S1x66x258
  slices_S12x66x258_o4_0_0_S1x66x258 : S12x66x258.Slices ![4, 0, 0] S1x66x258
  slices_S12x66x258_o5_0_0_S1x66x258 : S12x66x258.Slices ![5, 0, 0] S1x66x258
  slices_S12x66x258_o6_0_0_S1x66x258 : S12x66x258.Slices ![6, 0, 0] S1x66x258
  slices_S12x66x258_o7_0_0_S1x66x258 : S12x66x258.Slices ![7, 0, 0] S1x66x258
  slices_S12x66x258_o8_0_0_S1x66x258 : S12x66x258.Slices ![8, 0, 0] S1x66x258
  slices_S12x66x258_o9_0_0_S1x66x258 : S12x66x258.Slices ![9, 0, 0] S1x66x258
  slices_S12x66x258_o10_0_0_S1x66x258 : S12x66x258.Slices ![10, 0, 0] S1x66x258
  slices_S12x66x258_o11_0_0_S1x66x258 : S12x66x258.Slices ![11, 0, 0] S1x66x258
  slices_S12x66x258_o0_0_0_S12x64x256 : S12x66x258.Slices ![0, 0, 0] S12x64x256
  inb_S9x12x1x1_S1x12x1x1_0_0_0_0 : ∀ a, (![0, 0, 0, 0] : Fin 4 → Nat) a + S1x12x1x1.size a ≤ S9x12x1x1.size a
  h_S1x12x1x1 : 0 < S1x12x1x1.numel
  shapeCasts_S1x12x1x1_S12x1x1 : S1x12x1x1.ShapeCasts S12x1x1
  slices_S12x66x258_o0_0_1_S12x64x256 : S12x66x258.Slices ![0, 0, 1] S12x64x256
  inb_S9x12x1x1_S1x12x1x1_1_0_0_0 : ∀ a, (![1, 0, 0, 0] : Fin 4 → Nat) a + S1x12x1x1.size a ≤ S9x12x1x1.size a
  slices_S12x66x258_o0_0_2_S12x64x256 : S12x66x258.Slices ![0, 0, 2] S12x64x256
  inb_S9x12x1x1_S1x12x1x1_2_0_0_0 : ∀ a, (![2, 0, 0, 0] : Fin 4 → Nat) a + S1x12x1x1.size a ≤ S9x12x1x1.size a
  slices_S12x66x258_o0_1_0_S12x64x256 : S12x66x258.Slices ![0, 1, 0] S12x64x256
  inb_S9x12x1x1_S1x12x1x1_3_0_0_0 : ∀ a, (![3, 0, 0, 0] : Fin 4 → Nat) a + S1x12x1x1.size a ≤ S9x12x1x1.size a
  inb_S9x12x1x1_S1x12x1x1_4_0_0_0 : ∀ a, (![4, 0, 0, 0] : Fin 4 → Nat) a + S1x12x1x1.size a ≤ S9x12x1x1.size a
  slices_S12x66x258_o0_1_2_S12x64x256 : S12x66x258.Slices ![0, 1, 2] S12x64x256
  inb_S9x12x1x1_S1x12x1x1_5_0_0_0 : ∀ a, (![5, 0, 0, 0] : Fin 4 → Nat) a + S1x12x1x1.size a ≤ S9x12x1x1.size a
  slices_S12x66x258_o0_2_0_S12x64x256 : S12x66x258.Slices ![0, 2, 0] S12x64x256
  inb_S9x12x1x1_S1x12x1x1_6_0_0_0 : ∀ a, (![6, 0, 0, 0] : Fin 4 → Nat) a + S1x12x1x1.size a ≤ S9x12x1x1.size a
  slices_S12x66x258_o0_2_1_S12x64x256 : S12x66x258.Slices ![0, 2, 1] S12x64x256
  inb_S9x12x1x1_S1x12x1x1_7_0_0_0 : ∀ a, (![7, 0, 0, 0] : Fin 4 → Nat) a + S1x12x1x1.size a ≤ S9x12x1x1.size a
  slices_S12x66x258_o0_2_2_S12x64x256 : S12x66x258.Slices ![0, 2, 2] S12x64x256
  inb_S9x12x1x1_S1x12x1x1_8_0_0_0 : ∀ a, (![8, 0, 0, 0] : Fin 4 → Nat) a + S1x12x1x1.size a ≤ S9x12x1x1.size a
  inb_S1x12x256x256_S1x12x64x256_0_0_0_0 : ∀ a, (![0, 0, 0, 0] : Fin 4 → Nat) a + S1x12x64x256.size a ≤ S1x12x256x256.size a
  h_S1x12x64x256 : 0 < S1x12x64x256.numel
  shapeCasts_S1x12x64x256_S12x64x256 : S1x12x64x256.ShapeCasts S12x64x256
  shapeCasts_S12x64x256_S1x12x64x256 : S12x64x256.ShapeCasts S1x12x64x256
  inb_S1x12x258x258_S1x12x66x258_0_0_64_0 : ∀ a, (![0, 0, 64, 0] : Fin 4 → Nat) a + S1x12x66x258.size a ≤ S1x12x258x258.size a
  inb_S1x12x256x256_S1x12x64x256_0_0_64_0 : ∀ a, (![0, 0, 64, 0] : Fin 4 → Nat) a + S1x12x64x256.size a ≤ S1x12x256x256.size a
  inb_S1x12x258x258_S1x12x66x258_0_0_128_0 : ∀ a, (![0, 0, 128, 0] : Fin 4 → Nat) a + S1x12x66x258.size a ≤ S1x12x258x258.size a
  inb_S1x12x256x256_S1x12x64x256_0_0_128_0 : ∀ a, (![0, 0, 128, 0] : Fin 4 → Nat) a + S1x12x64x256.size a ≤ S1x12x256x256.size a
  inb_S1x12x258x258_S1x12x66x258_0_0_192_0 : ∀ a, (![0, 0, 192, 0] : Fin 4 → Nat) a + S1x12x66x258.size a ≤ S1x12x258x258.size a
  inb_S1x12x256x256_S1x12x64x256_0_0_192_0 : ∀ a, (![0, 0, 192, 0] : Fin 4 → Nat) a + S1x12x64x256.size a ≤ S1x12x256x256.size a
  shapeCasts_S4x12x256x256_S4x3x2x2x256x256 : S4x12x256x256.ShapeCasts S4x3x2x2x256x256
  transposes_S4x3x2x2x256x256_S4x3x256x2x256x2_0_1_4_2_5_3 : S4x3x2x2x256x256.Transposes [0, 1, 4, 2, 5, 3] S4x3x256x2x256x2
  shapeCasts_S4x3x256x2x256x2_S4x3x512x512 : S4x3x256x2x256x2.ShapeCasts S4x3x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x12x258x258.size a ≤ S4x12x258x258.size a
  hwx0_0 : ∀ i : grid0.Coords, EltTy.bits .f32 = 32 ∨ (Rect.block (s := S4x12x258x258) S1x12x258x258.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x12.size a ≤ S12x12.size a
  hwx0_1 : ∀ i : grid0.Coords, EltTy.bits .f32 = 32 ∨ (Rect.block (s := S12x12) S12x12.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x1x1.size a ≤ S12x1x1.size a
  hwx0_2 : ∀ i : grid0.Coords, EltTy.bits .f32 = 32 ∨ (Rect.block (s := S12x1x1) S12x1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S12x12.size a ≤ S12x12.size a
  hwx0_3 : ∀ i : grid0.Coords, EltTy.bits .f32 = 32 ∨ (Rect.block (s := S12x12) S12x12.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12x1x1.size a ≤ S12x1x1.size a
  hwx0_4 : ∀ i : grid0.Coords, EltTy.bits .f32 = 32 ∨ (Rect.block (s := S12x1x1) S12x1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S12x12.size a ≤ S12x12.size a
  hwx0_5 : ∀ i : grid0.Coords, EltTy.bits .f32 = 32 ∨ (Rect.block (s := S12x12) S12x12.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S12x1x1.size a ≤ S12x1x1.size a
  hwx0_6 : ∀ i : grid0.Coords, EltTy.bits .f32 = 32 ∨ (Rect.block (s := S12x1x1) S12x1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S9x12x1x1.size a ≤ S9x12x1x1.size a
  hwx0_7 : ∀ i : grid0.Coords, EltTy.bits .f32 = 32 ∨ (Rect.block (s := S9x12x1x1) S9x12x1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x12x256x256.size a ≤ S4x12x256x256.size a
  hwx0_8 : ∀ i : grid0.Coords, EltTy.bits .f32 = 32 ∨ (Rect.block (s := S4x12x256x256) S1x12x256x256.size (cc0_transform_8 i) (hinb0_8 i)).WholeWords (EltTy.packing .f32)

variable [Facts₀]

abbrev win0_0 : Pipeline.Window sig grid0 :=
  Pipeline.Window.ofSpec (Memref.whole main_v3) S1x12x258x258.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S12x12.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S12x1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S12x12.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S12x1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S12x12.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S12x1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_cst) S9x12x1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x12x256x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x3x512x512 : Shape := ⟨4, ![4, 3, 512, 512]⟩
abbrev S36x12 : Shape := ⟨2, ![36, 12]⟩
abbrev S36 : Shape := ⟨1, ![36]⟩
abbrev S9x2x2 : Shape := ⟨3, ![9, 2, 2]⟩
abbrev S_ : Shape := ⟨0, ![]⟩
abbrev S4x3x516x516 : Shape := ⟨4, ![4, 3, 516, 516]⟩
abbrev S4x3x258x2x258x2 : Shape := ⟨6, ![4, 3, 258, 2, 258, 2]⟩
abbrev S4x258x258x3x2x2 : Shape := ⟨6, ![4, 258, 258, 3, 2, 2]⟩
abbrev S4x256x256x3x2x2 : Shape := ⟨6, ![4, 256, 256, 3, 2, 2]⟩
abbrev S4x256x256x1x3x2x2 : Shape := ⟨7, ![4, 256, 256, 1, 3, 2, 2]⟩
abbrev S4x256x256x9x3x2x2 : Shape := ⟨7, ![4, 256, 256, 9, 3, 2, 2]⟩
abbrev S4x256x256x9x12 : Shape := ⟨5, ![4, 256, 256, 9, 12]⟩
abbrev S4x256x256x9x36 : Shape := ⟨5, ![4, 256, 256, 9, 36]⟩
abbrev S1x1x1x1x36 : Shape := ⟨5, ![1, 1, 1, 1, 36]⟩
abbrev S4x256x256x9x3x3x2x2 : Shape := ⟨8, ![4, 256, 256, 9, 3, 3, 2, 2]⟩
abbrev S4x256x256x9x1x3x2x2 : Shape := ⟨8, ![4, 256, 256, 9, 1, 3, 2, 2]⟩
abbrev S9x1x2x2 : Shape := ⟨4, ![9, 1, 2, 2]⟩
abbrev S1x1x1x9x1x2x2 : Shape := ⟨7, ![1, 1, 1, 9, 1, 2, 2]⟩
abbrev S4x3x256x2x256x2 : Shape := ⟨6, ![4, 3, 256, 2, 256, 2]⟩

abbrev nBuf : Space → Nat
  | .hbm => 58
  | .vmem => 0
  | .smem => 0
  | _ => 0

abbrev bufTy : (tb : Table) → Fin (tcTables nBuf tb) → BufTy
  | .hbm, ⟨0, _⟩ => ⟨S4x3x512x512, .f32⟩
  | .hbm, ⟨1, _⟩ => ⟨S36x12, .f32⟩
  | .hbm, ⟨2, _⟩ => ⟨S36, .f32⟩
  | .hbm, ⟨3, _⟩ => ⟨S9x2x2, .f32⟩
  | .hbm, ⟨4, _⟩ => ⟨S_, .i32⟩
  | .hbm, ⟨5, _⟩ => ⟨S_, .f32⟩
  | .hbm, ⟨6, _⟩ => ⟨S4x3x516x516, .f32⟩
  | .hbm, ⟨7, _⟩ => ⟨S4x3x258x2x258x2, .f32⟩
  | .hbm, ⟨8, _⟩ => ⟨S4x258x258x3x2x2, .f32⟩
  | .hbm, ⟨9, _⟩ => ⟨S4x256x256x3x2x2, .f32⟩
  | .hbm, ⟨10, _⟩ => ⟨S4x256x256x3x2x2, .f32⟩
  | .hbm, ⟨11, _⟩ => ⟨S4x256x256x3x2x2, .f32⟩
  | .hbm, ⟨12, _⟩ => ⟨S4x256x256x3x2x2, .f32⟩
  | .hbm, ⟨13, _⟩ => ⟨S4x256x256x3x2x2, .f32⟩
  | .hbm, ⟨14, _⟩ => ⟨S4x256x256x3x2x2, .f32⟩
  | .hbm, ⟨15, _⟩ => ⟨S4x256x256x3x2x2, .f32⟩
  | .hbm, ⟨16, _⟩ => ⟨S4x256x256x3x2x2, .f32⟩
  | .hbm, ⟨17, _⟩ => ⟨S4x256x256x3x2x2, .f32⟩
  | .hbm, ⟨18, _⟩ => ⟨S4x256x256x1x3x2x2, .f32⟩
  | .hbm, ⟨19, _⟩ => ⟨S4x256x256x1x3x2x2, .f32⟩
  | .hbm, ⟨20, _⟩ => ⟨S4x256x256x1x3x2x2, .f32⟩
  | .hbm, ⟨21, _⟩ => ⟨S4x256x256x1x3x2x2, .f32⟩
  | .hbm, ⟨22, _⟩ => ⟨S4x256x256x1x3x2x2, .f32⟩
  | .hbm, ⟨23, _⟩ => ⟨S4x256x256x1x3x2x2, .f32⟩
  | .hbm, ⟨24, _⟩ => ⟨S4x256x256x1x3x2x2, .f32⟩
  | .hbm, ⟨25, _⟩ => ⟨S4x256x256x1x3x2x2, .f32⟩
  | .hbm, ⟨26, _⟩ => ⟨S4x256x256x1x3x2x2, .f32⟩
  | .hbm, ⟨27, _⟩ => ⟨S4x256x256x9x3x2x2, .f32⟩
  | .hbm, ⟨28, _⟩ => ⟨S4x256x256x9x12, .f32⟩
  | .hbm, ⟨29, _⟩ => ⟨S4x256x256x9x36, .f32⟩
  | .hbm, ⟨30, _⟩ => ⟨S1x1x1x1x36, .f32⟩
  | .hbm, ⟨31, _⟩ => ⟨S4x256x256x9x36, .f32⟩
  | .hbm, ⟨32, _⟩ => ⟨S4x256x256x9x36, .f32⟩
  | .hbm, ⟨33, _⟩ => ⟨S4x256x256x9x3x3x2x2, .f32⟩
  | .hbm, ⟨34, _⟩ => ⟨S4x256x256x9x1x3x2x2, .f32⟩
  | .hbm, ⟨35, _⟩ => ⟨S4x256x256x9x3x2x2, .f32⟩
  | .hbm, ⟨36, _⟩ => ⟨S4x256x256x9x1x3x2x2, .f32⟩
  | .hbm, ⟨37, _⟩ => ⟨S4x256x256x9x3x2x2, .f32⟩
  | .hbm, ⟨38, _⟩ => ⟨S4x256x256x9x1x3x2x2, .f32⟩
  | .hbm, ⟨39, _⟩ => ⟨S4x256x256x9x3x2x2, .f32⟩
  | .hbm, ⟨40, _⟩ => ⟨S4x256x256x1x3x2x2, .f32⟩
  | .hbm, ⟨41, _⟩ => ⟨S4x256x256x3x2x2, .f32⟩
  | .hbm, ⟨42, _⟩ => ⟨S_, .f32⟩
  | .hbm, ⟨43, _⟩ => ⟨S4x256x256x3x2x2, .f32⟩
  | .hbm, ⟨44, _⟩ => ⟨S4x256x256x3x2x2, .f32⟩
  | .hbm, ⟨45, _⟩ => ⟨S4x256x256x1x3x2x2, .f32⟩
  | .hbm, ⟨46, _⟩ => ⟨S4x256x256x9x3x2x2, .f32⟩
  | .hbm, ⟨47, _⟩ => ⟨S4x256x256x9x3x2x2, .f32⟩
  | .hbm, ⟨48, _⟩ => ⟨S9x1x2x2, .f32⟩
  | .hbm, ⟨49, _⟩ => ⟨S1x1x1x9x1x2x2, .f32⟩
  | .hbm, ⟨50, _⟩ => ⟨S4x256x256x9x3x2x2, .f32⟩
  | .hbm, ⟨51, _⟩ => ⟨S4x256x256x9x3x2x2, .f32⟩
  | .hbm, ⟨52, _⟩ => ⟨S4x256x256x9x3x2x2, .f32⟩
  | .hbm, ⟨53, _⟩ => ⟨S_, .f32⟩
  | .hbm, ⟨54, _⟩ => ⟨S4x256x256x3x2x2, .f32⟩
  | .hbm, ⟨55, _⟩ => ⟨S4x3x256x2x256x2, .f32⟩
  | .hbm, ⟨56, _⟩ => ⟨S4x3x512x512, .f32⟩
  | .hbm, ⟨57, _⟩ => ⟨S4x3x512x512, .f32⟩
  | _, _ => ⟨S4x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_0 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_1 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩

abbrev nD : Nat := 1
abbrev τ : Topo := Topo.v7x

variable {F : FTy → Type} [FloatOps F]

class Facts₀ : Prop where
  pads_S4x3x512x512_S4x3x516x516_000_000_220_220 : S4x3x512x512.Pads (![0, 0, 2, 2] : Fin 4 → Nat) ![0, 0, 2, 2] ![0, 0, 0, 0] S4x3x516x516
  h_S_ : 0 < S_.numel
  shapeCasts_S4x3x516x516_S4x3x258x2x258x2 : S4x3x516x516.ShapeCasts S4x3x258x2x258x2
  transposes_S4x3x258x2x258x2_S4x258x258x3x2x2_0_2_4_1_3_5 : S4x3x258x2x258x2.Transposes [0, 2, 4, 1, 3, 5] S4x258x258x3x2x2
  slices_S4x258x258x3x2x2_S4x256x256x3x2x2_0_0_0_0_0_0 : S4x258x258x3x2x2.Slices ![0, 0, 0, 0, 0, 0] S4x256x256x3x2x2
  slices_S4x258x258x3x2x2_S4x256x256x3x2x2_0_0_1_0_0_0 : S4x258x258x3x2x2.Slices ![0, 0, 1, 0, 0, 0] S4x256x256x3x2x2
  slices_S4x258x258x3x2x2_S4x256x256x3x2x2_0_0_2_0_0_0 : S4x258x258x3x2x2.Slices ![0, 0, 2, 0, 0, 0] S4x256x256x3x2x2
  slices_S4x258x258x3x2x2_S4x256x256x3x2x2_0_1_0_0_0_0 : S4x258x258x3x2x2.Slices ![0, 1, 0, 0, 0, 0] S4x256x256x3x2x2
  slices_S4x258x258x3x2x2_S4x256x256x3x2x2_0_1_1_0_0_0 : S4x258x258x3x2x2.Slices ![0, 1, 1, 0, 0, 0] S4x256x256x3x2x2
  slices_S4x258x258x3x2x2_S4x256x256x3x2x2_0_1_2_0_0_0 : S4x258x258x3x2x2.Slices ![0, 1, 2, 0, 0, 0] S4x256x256x3x2x2
  slices_S4x258x258x3x2x2_S4x256x256x3x2x2_0_2_0_0_0_0 : S4x258x258x3x2x2.Slices ![0, 2, 0, 0, 0, 0] S4x256x256x3x2x2
  slices_S4x258x258x3x2x2_S4x256x256x3x2x2_0_2_1_0_0_0 : S4x258x258x3x2x2.Slices ![0, 2, 1, 0, 0, 0] S4x256x256x3x2x2
  slices_S4x258x258x3x2x2_S4x256x256x3x2x2_0_2_2_0_0_0 : S4x258x258x3x2x2.Slices ![0, 2, 2, 0, 0, 0] S4x256x256x3x2x2
  bcast_S4x256x256x3x2x2_S4x256x256x1x3x2x2_0_1_2_4_5_6 : S4x256x256x3x2x2.BroadcastsInDim S4x256x256x1x3x2x2 (![0, 1, 2, 4, 5, 6] : Fin 6 → Fin S4x256x256x1x3x2x2.rank)
  concatenates_S4x256x256x1x3x2x2_S4x256x256x1x3x2x2_S4x256x256x1x3x2x2_S4x256x256x1x3x2x2_S4x256x256x1x3x2x2_S4x256x256x1x3x2x2_S4x256x256x1x3x2x2_S4x256x256x1x3x2x2_S4x256x256x1x3x2x2_S4x256x256x9x3x2x2_d3 : Shape.Concatenates [S4x256x256x1x3x2x2, S4x256x256x1x3x2x2, S4x256x256x1x3x2x2, S4x256x256x1x3x2x2, S4x256x256x1x3x2x2, S4x256x256x1x3x2x2, S4x256x256x1x3x2x2, S4x256x256x1x3x2x2, S4x256x256x1x3x2x2] S4x256x256x9x3x2x2 3
  shapeCasts_S4x256x256x9x3x2x2_S4x256x256x9x12 : S4x256x256x9x3x2x2.ShapeCasts S4x256x256x9x12
  bcast_S36_S1x1x1x1x36_4 : S36.BroadcastsInDim S1x1x1x1x36 (![4] : Fin 1 → Fin S1x1x1x1x36.rank)
  bcast_S1x1x1x1x36_S4x256x256x9x36_0_1_2_3_4 : S1x1x1x1x36.BroadcastsInDim S4x256x256x9x36 (![0, 1, 2, 3, 4] : Fin 5 → Fin S4x256x256x9x36.rank)
  shapeCasts_S4x256x256x9x36_S4x256x256x9x3x3x2x2 : S4x256x256x9x36.ShapeCasts S4x256x256x9x3x3x2x2
  slices_S4x256x256x9x3x3x2x2_S4x256x256x9x1x3x2x2_0_0_0_0_0_0_0_0 : S4x256x256x9x3x3x2x2.Slices ![0, 0, 0, 0, 0, 0, 0, 0] S4x256x256x9x1x3x2x2
  shapeCasts_S4x256x256x9x1x3x2x2_S4x256x256x9x3x2x2 : S4x256x256x9x1x3x2x2.ShapeCasts S4x256x256x9x3x2x2
  slices_S4x256x256x9x3x3x2x2_S4x256x256x9x1x3x2x2_0_0_0_0_1_0_0_0 : S4x256x256x9x3x3x2x2.Slices ![0, 0, 0, 0, 1, 0, 0, 0] S4x256x256x9x1x3x2x2
  slices_S4x256x256x9x3x3x2x2_S4x256x256x9x1x3x2x2_0_0_0_0_2_0_0_0 : S4x256x256x9x3x3x2x2.Slices ![0, 0, 0, 0, 2, 0, 0, 0] S4x256x256x9x1x3x2x2
  slices_S4x256x256x9x3x2x2_S4x256x256x1x3x2x2_0_0_0_4_0_0_0 : S4x256x256x9x3x2x2.Slices ![0, 0, 0, 4, 0, 0, 0] S4x256x256x1x3x2x2
  shapeCasts_S4x256x256x1x3x2x2_S4x256x256x3x2x2 : S4x256x256x1x3x2x2.ShapeCasts S4x256x256x3x2x2
  bcast_S_S4x256x256x3x2x2 : S_.BroadcastsInDim S4x256x256x3x2x2 (![] : Fin 0 → Fin S4x256x256x3x2x2.rank)
  bcast_S4x256x256x1x3x2x2_S4x256x256x9x3x2x2_0_1_2_3_4_5_6 : S4x256x256x1x3x2x2.BroadcastsInDim S4x256x256x9x3x2x2 (![0, 1, 2, 3, 4, 5, 6] : Fin 7 → Fin S4x256x256x9x3x2x2.rank)
  bcast_S9x2x2_S9x1x2x2_0_2_3 : S9x2x2.BroadcastsInDim S9x1x2x2 (![0, 2, 3] : Fin 3 → Fin S9x1x2x2.rank)
  bcast_S9x1x2x2_S1x1x1x9x1x2x2_3_4_5_6 : S9x1x2x2.BroadcastsInDim S1x1x1x9x1x2x2 (![3, 4, 5, 6] : Fin 4 → Fin S1x1x1x9x1x2x2.rank)
  bcast_S1x1x1x9x1x2x2_S4x256x256x9x3x2x2_0_1_2_3_4_5_6 : S1x1x1x9x1x2x2.BroadcastsInDim S4x256x256x9x3x2x2 (![0, 1, 2, 3, 4, 5, 6] : Fin 7 → Fin S4x256x256x9x3x2x2.rank)
  reducesTo_S4x256x256x9x3x2x2_S4x256x256x3x2x2_d3 : S4x256x256x9x3x2x2.ReducesTo [3] S4x256x256x3x2x2
  transposes_S4x256x256x3x2x2_S4x3x256x2x256x2_0_3_1_4_2_5 : S4x256x256x3x2x2.Transposes [0, 3, 1, 4, 2, 5] S4x3x256x2x256x2
  shapeCasts_S4x3x256x2x256x2_S4x3x512x512 : S4x3x256x2x256x2.ShapeCasts S4x3x512x512
  dot_S4x256x256x9x12_S36x12_S4x256x256x9x36_4_1_0123_0_n_n_wf : DotDims.WF S4x256x256x9x12 S36x12 S4x256x256x9x36 [4] [1] [0, 1, 2, 3] [0] [] []

variable [Facts₀]

def dot_S4x256x256x9x12_S36x12_S4x256x256x9x36_4_1_0123_0_n_n : DotDims S4x256x256x9x12 S36x12 S4x256x256x9x36 where
  lhsContracting := [4]
  rhsContracting := [1]
  lhsNonContracting := [0, 1, 2, 3]
  rhsNonContracting := [0]
  lhsBatch := []
  rhsBatch := []
  wf := dot_S4x256x256x9x12_S36x12_S4x256x256x9x36_4_1_0123_0_n_n_wf

class Facts : Prop extends Facts₀ where

variable [Facts]
-- ==== Proof.KChunkTerm.lean ====
/-
  One row chunk of the kernel body as ONE structured term of what the body loads: the chunk's 66 padded rows of the
  twelve channel planes, the three matrices and offsets, and the nine neighbours' weights. The query is the affine map of
  the inner 64 × 256 positions times the unit scale; key and value are the affine maps of all 66 × 258 positions; the
  result starts from the zero word and adds, neighbour by neighbour, query · key(shifted) · weight · value(shifted).
  The body's four stores are this term at the four chunks' loads.
-/
import proofs.«114282_j52390011076755_2_alg».proof.Proof.Gen.KernelIdeal.Frame

noncomputable section

namespace Cert.KernelIdeal.Chunk

open Cert.KernelIdeal Cert.KernelIdeal.Gen Idealize.ShloMosaic

variable {F : FTy → Type} [FloatOps F]

/-- One summand of the affine map: a column of the matrix against a channel plane, both spread over the block. -/
def termQ (Wc : FVec F S12x1 .f32) (Xr : FVec F S1x64x256 .f32) : FVec F S12x64x256 .f32 :=
  mulf (broadcastTo S12x64x256 (shapeCast S12x1x1 (shapeCast S12 Wc shapeCasts_S12x1_S12) shapeCasts_S12_S12x1x1) broadcasts_S12x1x1_S12x64x256)
    (broadcastTo S12x64x256 (shapeCast S1x64x256 (shapeCast S64x256 Xr shapeCasts_S1x64x256_S64x256) shapeCasts_S64x256_S1x64x256) broadcasts_S1x64x256_S12x64x256)

/-- The affine map of the twelve channel planes of a block: the offset, then the twelve summands in channel order. -/
def linQ (W : FVec F S12x12 .f32) (b : FVec F S12x1x1 .f32) (X : FVec F S12x64x256 .f32) : FVec F S12x64x256 .f32 :=
  (addf (addf (addf (addf (addf (addf (addf (addf (addf (addf (addf (addf (broadcastTo S12x64x256 b broadcasts_S12x1x1_S12x64x256)
      (termQ (extractStridedSlice S12x1 ![0, 0] W slices_S12x12_o0_0_S12x1) (extractStridedSlice S1x64x256 ![0, 0, 0] X slices_S12x64x256_o0_0_0_S1x64x256)))
      (termQ (extractStridedSlice S12x1 ![0, 1] W slices_S12x12_o0_1_S12x1) (extractStridedSlice S1x64x256 ![1, 0, 0] X slices_S12x64x256_o1_0_0_S1x64x256)))
      (termQ (extractStridedSlice S12x1 ![0, 2] W slices_S12x12_o0_2_S12x1) (extractStridedSlice S1x64x256 ![2, 0, 0] X slices_S12x64x256_o2_0_0_S1x64x256)))
      (termQ (extractStridedSlice S12x1 ![0, 3] W slices_S12x12_o0_3_S12x1) (extractStridedSlice S1x64x256 ![3, 0, 0] X slices_S12x64x256_o3_0_0_S1x64x256)))
      (termQ (extractStridedSlice S12x1 ![0, 4] W slices_S12x12_o0_4_S12x1) (extractStridedSlice S1x64x256 ![4, 0, 0] X slices_S12x64x256_o4_0_0_S1x64x256)))
      (termQ (extractStridedSlice S12x1 ![0, 5] W slices_S12x12_o0_5_S12x1) (extractStridedSlice S1x64x256 ![5, 0, 0] X slices_S12x64x256_o5_0_0_S1x64x256)))
      (termQ (extractStridedSlice S12x1 ![0, 6] W slices_S12x12_o0_6_S12x1) (extractStridedSlice S1x64x256 ![6, 0, 0] X slices_S12x64x256_o6_0_0_S1x64x256)))
      (termQ (extractStridedSlice S12x1 ![0, 7] W slices_S12x12_o0_7_S12x1) (extractStridedSlice S1x64x256 ![7, 0, 0] X slices_S12x64x256_o7_0_0_S1x64x256)))
      (termQ (extractStridedSlice S12x1 ![0, 8] W slices_S12x12_o0_8_S12x1) (extractStridedSlice S1x64x256 ![8, 0, 0] X slices_S12x64x256_o8_0_0_S1x64x256)))
      (termQ (extractStridedSlice S12x1 ![0, 9] W slices_S12x12_o0_9_S12x1) (extractStridedSlice S1x64x256 ![9, 0, 0] X slices_S12x64x256_o9_0_0_S1x64x256)))
      (termQ (extractStridedSlice S12x1 ![0, 10] W slices_S12x12_o0_10_S12x1) (extractStridedSlice S1x64x256 ![10, 0, 0] X slices_S12x64x256_o10_0_0_S1x64x256)))
      (termQ (extractStridedSlice S12x1 ![0, 11] W slices_S12x12_o0_11_S12x1) (extractStridedSlice S1x64x256 ![11, 0, 0] X slices_S12x64x256_o11_0_0_S1x64x256)))

/-- One summand of the affine map: a column of the matrix against a channel plane, both spread over the block. -/
def termK (Wc : FVec F S12x1 .f32) (Xr : FVec F S1x66x258 .f32) : FVec F S12x66x258 .f32 :=
  mulf (broadcastTo S12x66x258 (shapeCast S12x1x1 (shapeCast S12 Wc shapeCasts_S12x1_S12) shapeCasts_S12_S12x1x1) broadcasts_S12x1x1_S12x66x258)
    (broadcastTo S12x66x258 (shapeCast S1x66x258 (shapeCast S66x258 Xr shapeCasts_S1x66x258_S66x258) shapeCasts_S66x258_S1x66x258) broadcasts_S1x66x258_S12x66x258)

/-- The affine map of the twelve channel planes of a block: the offset, then the twelve summands in channel order. -/
def linK (W : FVec F S12x12 .f32) (b : FVec F S12x1x1 .f32) (X : FVec F S12x66x258 .f32) : FVec F S12x66x258 .f32 :=
  (addf (addf (addf (addf (addf (addf (addf (addf (addf (addf (addf (addf (broadcastTo S12x66x258 b broadcasts_S12x1x1_S12x66x258)
      (termK (extractStridedSlice S12x1 ![0, 0] W slices_S12x12_o0_0_S12x1) (extractStridedSlice S1x66x258 ![0, 0, 0] X slices_S12x66x258_o0_0_0_S1x66x258)))
      (termK (extractStridedSlice S12x1 ![0, 1] W slices_S12x12_o0_1_S12x1) (extractStridedSlice S1x66x258 ![1, 0, 0] X slices_S12x66x258_o1_0_0_S1x66x258)))
      (termK (extractStridedSlice S12x1 ![0, 2] W slices_S12x12_o0_2_S12x1) (extractStridedSlice S1x66x258 ![2, 0, 0] X slices_S12x66x258_o2_0_0_S1x66x258)))
      (termK (extractStridedSlice S12x1 ![0, 3] W slices_S12x12_o0_3_S12x1) (extractStridedSlice S1x66x258 ![3, 0, 0] X slices_S12x66x258_o3_0_0_S1x66x258)))
      (termK (extractStridedSlice S12x1 ![0, 4] W slices_S12x12_o0_4_S12x1) (extractStridedSlice S1x66x258 ![4, 0, 0] X slices_S12x66x258_o4_0_0_S1x66x258)))
      (termK (extractStridedSlice S12x1 ![0, 5] W slices_S12x12_o0_5_S12x1) (extractStridedSlice S1x66x258 ![5, 0, 0] X slices_S12x66x258_o5_0_0_S1x66x258)))
      (termK (extractStridedSlice S12x1 ![0, 6] W slices_S12x12_o0_6_S12x1) (extractStridedSlice S1x66x258 ![6, 0, 0] X slices_S12x66x258_o6_0_0_S1x66x258)))
      (termK (extractStridedSlice S12x1 ![0, 7] W slices_S12x12_o0_7_S12x1) (extractStridedSlice S1x66x258 ![7, 0, 0] X slices_S12x66x258_o7_0_0_S1x66x258)))
      (termK (extractStridedSlice S12x1 ![0, 8] W slices_S12x12_o0_8_S12x1) (extractStridedSlice S1x66x258 ![8, 0, 0] X slices_S12x66x258_o8_0_0_S1x66x258)))
      (termK (extractStridedSlice S12x1 ![0, 9] W slices_S12x12_o0_9_S12x1) (extractStridedSlice S1x66x258 ![9, 0, 0] X slices_S12x66x258_o9_0_0_S1x66x258)))
      (termK (extractStridedSlice S12x1 ![0, 10] W slices_S12x12_o0_10_S12x1) (extractStridedSlice S1x66x258 ![10, 0, 0] X slices_S12x66x258_o10_0_0_S1x66x258)))
      (termK (extractStridedSlice S12x1 ![0, 11] W slices_S12x12_o0_11_S12x1) (extractStridedSlice S1x66x258 ![11, 0, 0] X slices_S12x66x258_o11_0_0_S1x66x258)))

/-- The neighbourhood sum over the chunk from its query, key and value blocks and the nine weights. -/
def attV (Qv : FVec F S12x64x256 .f32) (Kv Vv : FVec F S12x66x258 .f32) (w0 : Vec F S1x12x1x1 .f32) (w1 : Vec F S1x12x1x1 .f32) (w2 : Vec F S1x12x1x1 .f32) (w3 : Vec F S1x12x1x1 .f32) (w4 : Vec F S1x12x1x1 .f32) (w5 : Vec F S1x12x1x1 .f32) (w6 : Vec F S1x12x1x1 .f32) (w7 : Vec F S1x12x1x1 .f32) (w8 : Vec F S1x12x1x1 .f32) : FVec F S12x64x256 .f32 :=
  (addf (addf (addf (addf (addf (addf (addf (addf (addf (broadcast S12x64x256 (Scalar.ofBits (F := F) .f32 0x00000000#32))
      (mulf (mulf (mulf Qv (extractStridedSlice S12x64x256 ![0, 0, 0] Kv slices_S12x66x258_o0_0_0_S12x64x256))
          (broadcastTo S12x64x256 (shapeCast S12x1x1 w0 shapeCasts_S1x12x1x1_S12x1x1) broadcasts_S12x1x1_S12x64x256))
        (extractStridedSlice S12x64x256 ![0, 0, 0] Vv slices_S12x66x258_o0_0_0_S12x64x256)))
      (mulf (mulf (mulf Qv (extractStridedSlice S12x64x256 ![0, 0, 1] Kv slices_S12x66x258_o0_0_1_S12x64x256))
          (broadcastTo S12x64x256 (shapeCast S12x1x1 w1 shapeCasts_S1x12x1x1_S12x1x1) broadcasts_S12x1x1_S12x64x256))
        (extractStridedSlice S12x64x256 ![0, 0, 1] Vv slices_S12x66x258_o0_0_1_S12x64x256)))
      (mulf (mulf (mulf Qv (extractStridedSlice S12x64x256 ![0, 0, 2] Kv slices_S12x66x258_o0_0_2_S12x64x256))
          (broadcastTo S12x64x256 (shapeCast S12x1x1 w2 shapeCasts_S1x12x1x1_S12x1x1) broadcasts_S12x1x1_S12x64x256))
        (extractStridedSlice S12x64x256 ![0, 0, 2] Vv slices_S12x66x258_o0_0_2_S12x64x256)))
      (mulf (mulf (mulf Qv (extractStridedSlice S12x64x256 ![0, 1, 0] Kv slices_S12x66x258_o0_1_0_S12x64x256))
          (broadcastTo S12x64x256 (shapeCast S12x1x1 w3 shapeCasts_S1x12x1x1_S12x1x1) broadcasts_S12x1x1_S12x64x256))
        (extractStridedSlice S12x64x256 ![0, 1, 0] Vv slices_S12x66x258_o0_1_0_S12x64x256)))
      (mulf (mulf (mulf Qv (extractStridedSlice S12x64x256 ![0, 1, 1] Kv slices_S12x66x258_o0_1_1_S12x64x256))
          (broadcastTo S12x64x256 (shapeCast S12x1x1 w4 shapeCasts_S1x12x1x1_S12x1x1) broadcasts_S12x1x1_S12x64x256))
        (extractStridedSlice S12x64x256 ![0, 1, 1] Vv slices_S12x66x258_o0_1_1_S12x64x256)))
      (mulf (mulf (mulf Qv (extractStridedSlice S12x64x256 ![0, 1, 2] Kv slices_S12x66x258_o0_1_2_S12x64x256))
          (broadcastTo S12x64x256 (shapeCast S12x1x1 w5 shapeCasts_S1x12x1x1_S12x1x1) broadcasts_S12x1x1_S12x64x256))
        (extractStridedSlice S12x64x256 ![0, 1, 2] Vv slices_S12x66x258_o0_1_2_S12x64x256)))
      (mulf (mulf (mulf Qv (extractStridedSlice S12x64x256 ![0, 2, 0] Kv slices_S12x66x258_o0_2_0_S12x64x256))
          (broadcastTo S12x64x256 (shapeCast S12x1x1 w6 shapeCasts_S1x12x1x1_S12x1x1) broadcasts_S12x1x1_S12x64x256))
        (extractStridedSlice S12x64x256 ![0, 2, 0] Vv slices_S12x66x258_o0_2_0_S12x64x256)))
      (mulf (mulf (mulf Qv (extractStridedSlice S12x64x256 ![0, 2, 1] Kv slices_S12x66x258_o0_2_1_S12x64x256))
          (broadcastTo S12x64x256 (shapeCast S12x1x1 w7 shapeCasts_S1x12x1x1_S12x1x1) broadcasts_S12x1x1_S12x64x256))
        (extractStridedSlice S12x64x256 ![0, 2, 1] Vv slices_S12x66x258_o0_2_1_S12x64x256)))
      (mulf (mulf (mulf Qv (extractStridedSlice S12x64x256 ![0, 2, 2] Kv slices_S12x66x258_o0_2_2_S12x64x256))
          (broadcastTo S12x64x256 (shapeCast S12x1x1 w8 shapeCasts_S1x12x1x1_S12x1x1) broadcasts_S12x1x1_S12x64x256))
        (extractStridedSlice S12x64x256 ![0, 2, 2] Vv slices_S12x66x258_o0_2_2_S12x64x256)))

/-- What the body stores for one chunk, from what it loads. -/
def chunkV (xl : Vec F S1x12x66x258 .f32) (wq : Vec F S12x12 .f32) (bq : Vec F S12x1x1 .f32) (wk : Vec F S12x12 .f32) (bk : Vec F S12x1x1 .f32)
    (wv : Vec F S12x12 .f32) (bv : Vec F S12x1x1 .f32) (w0 : Vec F S1x12x1x1 .f32) (w1 : Vec F S1x12x1x1 .f32) (w2 : Vec F S1x12x1x1 .f32) (w3 : Vec F S1x12x1x1 .f32) (w4 : Vec F S1x12x1x1 .f32) (w5 : Vec F S1x12x1x1 .f32) (w6 : Vec F S1x12x1x1 .f32) (w7 : Vec F S1x12x1x1 .f32) (w8 : Vec F S1x12x1x1 .f32) : FVec F S1x12x64x256 .f32 :=
  shapeCast S1x12x64x256
    (attV
      (mulf (linQ (shapeCast S12x12 wq shapeCasts_S12x12_S12x12) (shapeCast S12x1x1 (shapeCast S12x1x1 bq shapeCasts_S12x1x1_S12x1x1) shapeCasts_S12x1x1_S12x1x1)
          (extractStridedSlice S12x64x256 ![0, 1, 1] (shapeCast S12x66x258 xl shapeCasts_S1x12x66x258_S12x66x258) slices_S12x66x258_o0_1_1_S12x64x256))
        (broadcast S12x64x256 (Scalar.ofBits (F := F) .f32 0x3F800000#32)))
      (linK (shapeCast S12x12 wk shapeCasts_S12x12_S12x12) (shapeCast S12x1x1 (shapeCast S12x1x1 bk shapeCasts_S12x1x1_S12x1x1) shapeCasts_S12x1x1_S12x1x1)
        (shapeCast S12x66x258 xl shapeCasts_S1x12x66x258_S12x66x258))
      (linK (shapeCast S12x12 wv shapeCasts_S12x12_S12x12) (shapeCast S12x1x1 (shapeCast S12x1x1 bv shapeCasts_S12x1x1_S12x1x1) shapeCasts_S12x1x1_S12x1x1)
        (shapeCast S12x66x258 xl shapeCasts_S1x12x66x258_S12x66x258))
      w0 w1 w2 w3 w4 w5 w6 w7 w8)
    shapeCasts_S12x64x256_S1x12x64x256

end Cert.KernelIdeal.Chunk

end
-- ==== Proof.KChunkEq.lean ====
/-
  The four values the kernel body stores (rows 0–63, 64–127, 128–191, 192–255 of the output block) are the one chunk
  term at the four chunks' loads: the body's operations, read in order, ARE that term.
-/
import proofs.«114282_j52390011076755_2_alg».proof.Proof.KChunkTerm

set_option maxRecDepth 65536

noncomputable section

namespace Cert.KernelIdeal.Chunk

open Cert.KernelIdeal Cert.KernelIdeal.Gen Idealize.ShloMosaic

variable {F : FTy → Type} [FloatOps F]

theorem piece192_eq (xl : Vec F S1x12x66x258 .f32) (wq : Vec F S12x12 .f32) (bq : Vec F S12x1x1 .f32) (wk : Vec F S12x12 .f32) (bk : Vec F S12x1x1 .f32)
    (wv : Vec F S12x12 .f32) (bv : Vec F S12x1x1 .f32) (w0 : Vec F S1x12x1x1 .f32) (w1 : Vec F S1x12x1x1 .f32) (w2 : Vec F S1x12x1x1 .f32) (w3 : Vec F S1x12x1x1 .f32) (w4 : Vec F S1x12x1x1 .f32) (w5 : Vec F S1x12x1x1 .f32) (w6 : Vec F S1x12x1x1 .f32) (w7 : Vec F S1x12x1x1 .f32) (w8 : Vec F S1x12x1x1 .f32) :
    k0_pay1 (k0_pay104 (k0_pay98 xl) (k0_pay99 wq) (k0_pay102 (k0_pay98 xl) (k0_pay99 wq) (k0_pay100 xl wq bq) (k0_pay101 wq)) (k0_pay103 (k0_pay99 wq))) (k0_pay112 (k0_pay109 (k0_pay97 xl) (k0_pay105 wk) (k0_pay106 (k0_pay97 xl) (k0_pay105 wk) bk) (k0_pay107 (k0_pay97 xl)) (k0_pay108 (k0_pay105 wk))) (k0_pay110 (k0_pay97 xl)) (k0_pay111 (k0_pay105 wk))) (k0_pay120 (k0_pay97 xl) (k0_pay113 wv) (k0_pay117 (k0_pay97 xl) (k0_pay113 wv) (k0_pay114 (k0_pay97 xl) wv bv) (k0_pay115 wv) (k0_pay116 (k0_pay97 xl))) (k0_pay118 (k0_pay113 wv)) (k0_pay119 (k0_pay97 xl))) (k0_pay124 (k0_pay104 (k0_pay98 xl) (k0_pay99 wq) (k0_pay102 (k0_pay98 xl) (k0_pay99 wq) (k0_pay100 xl wq bq) (k0_pay101 wq)) (k0_pay103 (k0_pay99 wq))) (k0_pay112 (k0_pay109 (k0_pay97 xl) (k0_pay105 wk) (k0_pay106 (k0_pay97 xl) (k0_pay105 wk) bk) (k0_pay107 (k0_pay97 xl)) (k0_pay108 (k0_pay105 wk))) (k0_pay110 (k0_pay97 xl)) (k0_pay111 (k0_pay105 wk))) (k0_pay120 (k0_pay97 xl) (k0_pay113 wv) (k0_pay117 (k0_pay97 xl) (k0_pay113 wv) (k0_pay114 (k0_pay97 xl) wv bv) (k0_pay115 wv) (k0_pay116 (k0_pay97 xl))) (k0_pay118 (k0_pay113 wv)) (k0_pay119 (k0_pay97 xl))) (k0_pay121 (k0_pay97 xl) (k0_pay104 (k0_pay98 xl) (k0_pay99 wq) (k0_pay102 (k0_pay98 xl) (k0_pay99 wq) (k0_pay100 xl wq bq) (k0_pay101 wq)) (k0_pay103 (k0_pay99 wq))) (k0_pay112 (k0_pay109 (k0_pay97 xl) (k0_pay105 wk) (k0_pay106 (k0_pay97 xl) (k0_pay105 wk) bk) (k0_pay107 (k0_pay97 xl)) (k0_pay108 (k0_pay105 wk))) (k0_pay110 (k0_pay97 xl)) (k0_pay111 (k0_pay105 wk))) (k0_pay113 wv) (k0_pay117 (k0_pay97 xl) (k0_pay113 wv) (k0_pay114 (k0_pay97 xl) wv bv) (k0_pay115 wv) (k0_pay116 (k0_pay97 xl))) (k0_pay118 (k0_pay113 wv)) (k0_pay119 (k0_pay97 xl)) w0 w1 w2) (k0_pay122 (k0_pay112 (k0_pay109 (k0_pay97 xl) (k0_pay105 wk) (k0_pay106 (k0_pay97 xl) (k0_pay105 wk) bk) (k0_pay107 (k0_pay97 xl)) (k0_pay108 (k0_pay105 wk))) (k0_pay110 (k0_pay97 xl)) (k0_pay111 (k0_pay105 wk)))) (k0_pay123 (k0_pay97 xl) (k0_pay113 wv) (k0_pay117 (k0_pay97 xl) (k0_pay113 wv) (k0_pay114 (k0_pay97 xl) wv bv) (k0_pay115 wv) (k0_pay116 (k0_pay97 xl))) (k0_pay118 (k0_pay113 wv)) (k0_pay119 (k0_pay97 xl))) w3 w4 w5 w6 w7) w8
      = chunkV xl wq bq wk bk wv bv w0 w1 w2 w3 w4 w5 w6 w7 w8 := rfl

theorem piece128_eq (xl : Vec F S1x12x66x258 .f32) (wq : Vec F S12x12 .f32) (bq : Vec F S12x1x1 .f32) (wk : Vec F S12x12 .f32) (bk : Vec F S12x1x1 .f32)
    (wv : Vec F S12x12 .f32) (bv : Vec F S12x1x1 .f32) (w0 : Vec F S1x12x1x1 .f32) (w1 : Vec F S1x12x1x1 .f32) (w2 : Vec F S1x12x1x1 .f32) (w3 : Vec F S1x12x1x1 .f32) (w4 : Vec F S1x12x1x1 .f32) (w5 : Vec F S1x12x1x1 .f32) (w6 : Vec F S1x12x1x1 .f32) (w7 : Vec F S1x12x1x1 .f32) (w8 : Vec F S1x12x1x1 .f32) :
    k0_pay96 (k0_pay72 (k0_pay71 (k0_pay65 xl) (k0_pay66 wq) (k0_pay69 (k0_pay65 xl) (k0_pay66 wq) (k0_pay67 bq) (k0_pay68 wq)) (k0_pay70 (k0_pay66 wq))) (Scalar.ofBits .f32 0x3F800000#32)) (k0_pay80 (k0_pay64 xl) (k0_pay73 wk) (k0_pay77 (k0_pay64 xl) (k0_pay73 wk) (k0_pay74 (k0_pay64 xl) wk bk) (k0_pay75 (k0_pay64 xl)) (k0_pay76 wk)) (k0_pay78 (k0_pay64 xl)) (k0_pay79 (k0_pay73 wk))) (k0_pay88 (k0_pay64 xl) (k0_pay81 wv) (k0_pay85 (k0_pay64 xl) (k0_pay81 wv) (k0_pay82 (k0_pay64 xl) wv bv) (k0_pay83 wv) (k0_pay84 (k0_pay64 xl))) (k0_pay86 (k0_pay81 wv)) (k0_pay87 (k0_pay64 xl))) (k0_pay93 (k0_pay72 (k0_pay71 (k0_pay65 xl) (k0_pay66 wq) (k0_pay69 (k0_pay65 xl) (k0_pay66 wq) (k0_pay67 bq) (k0_pay68 wq)) (k0_pay70 (k0_pay66 wq))) (Scalar.ofBits .f32 0x3F800000#32)) (k0_pay80 (k0_pay64 xl) (k0_pay73 wk) (k0_pay77 (k0_pay64 xl) (k0_pay73 wk) (k0_pay74 (k0_pay64 xl) wk bk) (k0_pay75 (k0_pay64 xl)) (k0_pay76 wk)) (k0_pay78 (k0_pay64 xl)) (k0_pay79 (k0_pay73 wk))) (k0_pay88 (k0_pay64 xl) (k0_pay81 wv) (k0_pay85 (k0_pay64 xl) (k0_pay81 wv) (k0_pay82 (k0_pay64 xl) wv bv) (k0_pay83 wv) (k0_pay84 (k0_pay64 xl))) (k0_pay86 (k0_pay81 wv)) (k0_pay87 (k0_pay64 xl))) (k0_pay89 (k0_pay64 xl) (k0_pay72 (k0_pay71 (k0_pay65 xl) (k0_pay66 wq) (k0_pay69 (k0_pay65 xl) (k0_pay66 wq) (k0_pay67 bq) (k0_pay68 wq)) (k0_pay70 (k0_pay66 wq))) (Scalar.ofBits .f32 0x3F800000#32)) (k0_pay80 (k0_pay64 xl) (k0_pay73 wk) (k0_pay77 (k0_pay64 xl) (k0_pay73 wk) (k0_pay74 (k0_pay64 xl) wk bk) (k0_pay75 (k0_pay64 xl)) (k0_pay76 wk)) (k0_pay78 (k0_pay64 xl)) (k0_pay79 (k0_pay73 wk))) (k0_pay81 wv) (k0_pay85 (k0_pay64 xl) (k0_pay81 wv) (k0_pay82 (k0_pay64 xl) wv bv) (k0_pay83 wv) (k0_pay84 (k0_pay64 xl))) (k0_pay86 (k0_pay81 wv)) (k0_pay87 (k0_pay64 xl)) w0 w1) (k0_pay90 (k0_pay80 (k0_pay64 xl) (k0_pay73 wk) (k0_pay77 (k0_pay64 xl) (k0_pay73 wk) (k0_pay74 (k0_pay64 xl) wk bk) (k0_pay75 (k0_pay64 xl)) (k0_pay76 wk)) (k0_pay78 (k0_pay64 xl)) (k0_pay79 (k0_pay73 wk)))) (k0_pay91 (k0_pay64 xl) (k0_pay81 wv) (k0_pay85 (k0_pay64 xl) (k0_pay81 wv) (k0_pay82 (k0_pay64 xl) wv bv) (k0_pay83 wv) (k0_pay84 (k0_pay64 xl))) (k0_pay86 (k0_pay81 wv)) (k0_pay87 (k0_pay64 xl))) (k0_pay92 w2) w3 w4 w5 w6) (k0_pay94 (k0_pay80 (k0_pay64 xl) (k0_pay73 wk) (k0_pay77 (k0_pay64 xl) (k0_pay73 wk) (k0_pay74 (k0_pay64 xl) wk bk) (k0_pay75 (k0_pay64 xl)) (k0_pay76 wk)) (k0_pay78 (k0_pay64 xl)) (k0_pay79 (k0_pay73 wk)))) (k0_pay95 (k0_pay88 (k0_pay64 xl) (k0_pay81 wv) (k0_pay85 (k0_pay64 xl) (k0_pay81 wv) (k0_pay82 (k0_pay64 xl) wv bv) (k0_pay83 wv) (k0_pay84 (k0_pay64 xl))) (k0_pay86 (k0_pay81 wv)) (k0_pay87 (k0_pay64 xl)))) w7 w8
      = chunkV xl wq bq wk bk wv bv w0 w1 w2 w3 w4 w5 w6 w7 w8 := rfl

theorem piece64_eq (xl : Vec F S1x12x66x258 .f32) (wq : Vec F S12x12 .f32) (bq : Vec F S12x1x1 .f32) (wk : Vec F S12x12 .f32) (bk : Vec F S12x1x1 .f32)
    (wv : Vec F S12x12 .f32) (bv : Vec F S12x1x1 .f32) (w0 : Vec F S1x12x1x1 .f32) (w1 : Vec F S1x12x1x1 .f32) (w2 : Vec F S1x12x1x1 .f32) (w3 : Vec F S1x12x1x1 .f32) (w4 : Vec F S1x12x1x1 .f32) (w5 : Vec F S1x12x1x1 .f32) (w6 : Vec F S1x12x1x1 .f32) (w7 : Vec F S1x12x1x1 .f32) (w8 : Vec F S1x12x1x1 .f32) :
    k0_pay63 (k0_pay40 (k0_pay34 xl) (k0_pay38 (k0_pay34 xl) (k0_pay35 wq) (k0_pay36 (k0_pay34 xl) wq bq) (k0_pay37 wq)) (k0_pay39 (k0_pay35 wq))) (k0_pay48 (k0_pay33 xl) (k0_pay41 wk) (k0_pay45 (k0_pay33 xl) (k0_pay41 wk) (k0_pay42 (k0_pay33 xl) wk bk) (k0_pay43 (k0_pay33 xl)) (k0_pay44 wk)) (k0_pay46 (k0_pay33 xl)) (k0_pay47 (k0_pay41 wk))) (k0_pay56 (k0_pay33 xl) (k0_pay49 wv) (k0_pay53 (k0_pay33 xl) (k0_pay49 wv) (k0_pay50 (k0_pay33 xl) wv bv) (k0_pay51 wv) (k0_pay52 (k0_pay33 xl))) (k0_pay54 (k0_pay49 wv)) (k0_pay55 (k0_pay33 xl))) (k0_pay60 (k0_pay40 (k0_pay34 xl) (k0_pay38 (k0_pay34 xl) (k0_pay35 wq) (k0_pay36 (k0_pay34 xl) wq bq) (k0_pay37 wq)) (k0_pay39 (k0_pay35 wq))) (k0_pay48 (k0_pay33 xl) (k0_pay41 wk) (k0_pay45 (k0_pay33 xl) (k0_pay41 wk) (k0_pay42 (k0_pay33 xl) wk bk) (k0_pay43 (k0_pay33 xl)) (k0_pay44 wk)) (k0_pay46 (k0_pay33 xl)) (k0_pay47 (k0_pay41 wk))) (k0_pay56 (k0_pay33 xl) (k0_pay49 wv) (k0_pay53 (k0_pay33 xl) (k0_pay49 wv) (k0_pay50 (k0_pay33 xl) wv bv) (k0_pay51 wv) (k0_pay52 (k0_pay33 xl))) (k0_pay54 (k0_pay49 wv)) (k0_pay55 (k0_pay33 xl))) (k0_pay57 (k0_pay33 xl) (k0_pay40 (k0_pay34 xl) (k0_pay38 (k0_pay34 xl) (k0_pay35 wq) (k0_pay36 (k0_pay34 xl) wq bq) (k0_pay37 wq)) (k0_pay39 (k0_pay35 wq))) (k0_pay48 (k0_pay33 xl) (k0_pay41 wk) (k0_pay45 (k0_pay33 xl) (k0_pay41 wk) (k0_pay42 (k0_pay33 xl) wk bk) (k0_pay43 (k0_pay33 xl)) (k0_pay44 wk)) (k0_pay46 (k0_pay33 xl)) (k0_pay47 (k0_pay41 wk))) (k0_pay49 wv) (k0_pay53 (k0_pay33 xl) (k0_pay49 wv) (k0_pay50 (k0_pay33 xl) wv bv) (k0_pay51 wv) (k0_pay52 (k0_pay33 xl))) (k0_pay54 (k0_pay49 wv)) (k0_pay55 (k0_pay33 xl)) w0) (k0_pay58 (k0_pay33 xl) (k0_pay49 wv) (k0_pay53 (k0_pay33 xl) (k0_pay49 wv) (k0_pay50 (k0_pay33 xl) wv bv) (k0_pay51 wv) (k0_pay52 (k0_pay33 xl))) (k0_pay54 (k0_pay49 wv)) (k0_pay55 (k0_pay33 xl))) (k0_pay59 (k0_pay40 (k0_pay34 xl) (k0_pay38 (k0_pay34 xl) (k0_pay35 wq) (k0_pay36 (k0_pay34 xl) wq bq) (k0_pay37 wq)) (k0_pay39 (k0_pay35 wq))) (k0_pay48 (k0_pay33 xl) (k0_pay41 wk) (k0_pay45 (k0_pay33 xl) (k0_pay41 wk) (k0_pay42 (k0_pay33 xl) wk bk) (k0_pay43 (k0_pay33 xl)) (k0_pay44 wk)) (k0_pay46 (k0_pay33 xl)) (k0_pay47 (k0_pay41 wk))) w1) w2 w3 w4 w5) (k0_pay61 (k0_pay48 (k0_pay33 xl) (k0_pay41 wk) (k0_pay45 (k0_pay33 xl) (k0_pay41 wk) (k0_pay42 (k0_pay33 xl) wk bk) (k0_pay43 (k0_pay33 xl)) (k0_pay44 wk)) (k0_pay46 (k0_pay33 xl)) (k0_pay47 (k0_pay41 wk)))) (k0_pay62 (k0_pay56 (k0_pay33 xl) (k0_pay49 wv) (k0_pay53 (k0_pay33 xl) (k0_pay49 wv) (k0_pay50 (k0_pay33 xl) wv bv) (k0_pay51 wv) (k0_pay52 (k0_pay33 xl))) (k0_pay54 (k0_pay49 wv)) (k0_pay55 (k0_pay33 xl)))) w6 w7 w8
      = chunkV xl wq bq wk bk wv bv w0 w1 w2 w3 w4 w5 w6 w7 w8 := rfl

theorem piece0_eq (xl : Vec F S1x12x66x258 .f32) (wq : Vec F S12x12 .f32) (bq : Vec F S12x1x1 .f32) (wk : Vec F S12x12 .f32) (bk : Vec F S12x1x1 .f32)
    (wv : Vec F S12x12 .f32) (bv : Vec F S12x1x1 .f32) (w0 : Vec F S1x12x1x1 .f32) (w1 : Vec F S1x12x1x1 .f32) (w2 : Vec F S1x12x1x1 .f32) (w3 : Vec F S1x12x1x1 .f32) (w4 : Vec F S1x12x1x1 .f32) (w5 : Vec F S1x12x1x1 .f32) (w6 : Vec F S1x12x1x1 .f32) (w7 : Vec F S1x12x1x1 .f32) (w8 : Vec F S1x12x1x1 .f32) :
    k0_pay32 (k0_pay9 (k0_pay3 xl) (k0_pay4 wq) (k0_pay7 (k0_pay3 xl) (k0_pay4 wq) (k0_pay5 xl wq bq) (k0_pay6 wq)) (k0_pay8 (k0_pay4 wq))) (k0_pay17 (k0_pay2 xl) (k0_pay10 wk) (k0_pay14 (k0_pay2 xl) (k0_pay10 wk) (k0_pay11 (k0_pay2 xl) wk bk) (k0_pay12 (k0_pay2 xl)) (k0_pay13 wk)) (k0_pay15 (k0_pay2 xl)) (k0_pay16 (k0_pay10 wk))) (k0_pay25 (k0_pay2 xl) (k0_pay18 wv) (k0_pay22 (k0_pay2 xl) (k0_pay18 wv) (k0_pay19 (k0_pay2 xl) wv bv) (k0_pay20 wv) (k0_pay21 (k0_pay2 xl))) (k0_pay23 (k0_pay18 wv)) (k0_pay24 (k0_pay2 xl))) (k0_pay28 (k0_pay9 (k0_pay3 xl) (k0_pay4 wq) (k0_pay7 (k0_pay3 xl) (k0_pay4 wq) (k0_pay5 xl wq bq) (k0_pay6 wq)) (k0_pay8 (k0_pay4 wq))) (k0_pay17 (k0_pay2 xl) (k0_pay10 wk) (k0_pay14 (k0_pay2 xl) (k0_pay10 wk) (k0_pay11 (k0_pay2 xl) wk bk) (k0_pay12 (k0_pay2 xl)) (k0_pay13 wk)) (k0_pay15 (k0_pay2 xl)) (k0_pay16 (k0_pay10 wk))) (k0_pay25 (k0_pay2 xl) (k0_pay18 wv) (k0_pay22 (k0_pay2 xl) (k0_pay18 wv) (k0_pay19 (k0_pay2 xl) wv bv) (k0_pay20 wv) (k0_pay21 (k0_pay2 xl))) (k0_pay23 (k0_pay18 wv)) (k0_pay24 (k0_pay2 xl))) (k0_pay26 (k0_pay2 xl) (k0_pay9 (k0_pay3 xl) (k0_pay4 wq) (k0_pay7 (k0_pay3 xl) (k0_pay4 wq) (k0_pay5 xl wq bq) (k0_pay6 wq)) (k0_pay8 (k0_pay4 wq))) (k0_pay17 (k0_pay2 xl) (k0_pay10 wk) (k0_pay14 (k0_pay2 xl) (k0_pay10 wk) (k0_pay11 (k0_pay2 xl) wk bk) (k0_pay12 (k0_pay2 xl)) (k0_pay13 wk)) (k0_pay15 (k0_pay2 xl)) (k0_pay16 (k0_pay10 wk))) (k0_pay18 wv) (k0_pay22 (k0_pay2 xl) (k0_pay18 wv) (k0_pay19 (k0_pay2 xl) wv bv) (k0_pay20 wv) (k0_pay21 (k0_pay2 xl))) (k0_pay23 (k0_pay18 wv)) (k0_pay24 (k0_pay2 xl)) w0) (k0_pay27 (k0_pay17 (k0_pay2 xl) (k0_pay10 wk) (k0_pay14 (k0_pay2 xl) (k0_pay10 wk) (k0_pay11 (k0_pay2 xl) wk bk) (k0_pay12 (k0_pay2 xl)) (k0_pay13 wk)) (k0_pay15 (k0_pay2 xl)) (k0_pay16 (k0_pay10 wk)))) w1 w2 w3 w4) (k0_pay29 (k0_pay25 (k0_pay2 xl) (k0_pay18 wv) (k0_pay22 (k0_pay2 xl) (k0_pay18 wv) (k0_pay19 (k0_pay2 xl) wv bv) (k0_pay20 wv) (k0_pay21 (k0_pay2 xl))) (k0_pay23 (k0_pay18 wv)) (k0_pay24 (k0_pay2 xl)))) (k0_pay30 w5) (k0_pay31 (k0_pay9 (k0_pay3 xl) (k0_pay4 wq) (k0_pay7 (k0_pay3 xl) (k0_pay4 wq) (k0_pay5 xl wq bq) (k0_pay6 wq)) (k0_pay8 (k0_pay4 wq))) (k0_pay17 (k0_pay2 xl) (k0_pay10 wk) (k0_pay14 (k0_pay2 xl) (k0_pay10 wk) (k0_pay11 (k0_pay2 xl) wk bk) (k0_pay12 (k0_pay2 xl)) (k0_pay13 wk)) (k0_pay15 (k0_pay2 xl)) (k0_pay16 (k0_pay10 wk)))) w6 w7 w8
      = chunkV xl wq bq wk bk wv bv w0 w1 w2 w3 w4 w5 w6 w7 w8 := rfl

/-- The output block after the body: its four row chunks, each the chunk term at that chunk's loads. -/
theorem out0_8_eq (x0 : Vec F S1x12x258x258 .f32) (x1 : Vec F S12x12 .f32) (x2 : Vec F S12x1x1 .f32) (x3 : Vec F S12x12 .f32) (x4 : Vec F S12x1x1 .f32) (x5 : Vec F S12x12 .f32) (x6 : Vec F S12x1x1 .f32) (x7 : Vec F S9x12x1x1 .f32) :
    out0_8 x0 x1 x2 x3 x4 x5 x6 x7
      = View.canon [⟨r0_18, chunkV (View.ld x0 r0_17) (View.ld x1 r0_1) (View.ld x2 r0_2) (View.ld x3 r0_1) (View.ld x4 r0_2) (View.ld x5 r0_1) (View.ld x6 r0_2) (View.ld x7 r0_3) (View.ld x7 r0_4) (View.ld x7 r0_5) (View.ld x7 r0_6) (View.ld x7 r0_7) (View.ld x7 r0_8) (View.ld x7 r0_9) (View.ld x7 r0_10) (View.ld x7 r0_11)⟩,
          ⟨r0_16, chunkV (View.ld x0 r0_15) (View.ld x1 r0_1) (View.ld x2 r0_2) (View.ld x3 r0_1) (View.ld x4 r0_2) (View.ld x5 r0_1) (View.ld x6 r0_2) (View.ld x7 r0_3) (View.ld x7 r0_4) (View.ld x7 r0_5) (View.ld x7 r0_6) (View.ld x7 r0_7) (View.ld x7 r0_8) (View.ld x7 r0_9) (View.ld x7 r0_10) (View.ld x7 r0_11)⟩,
          ⟨r0_14, chunkV (View.ld x0 r0_13) (View.ld x1 r0_1) (View.ld x2 r0_2) (View.ld x3 r0_1) (View.ld x4 r0_2) (View.ld x5 r0_1) (View.ld x6 r0_2) (View.ld x7 r0_3) (View.ld x7 r0_4) (View.ld x7 r0_5) (View.ld x7 r0_6) (View.ld x7 r0_7) (View.ld x7 r0_8) (View.ld x7 r0_9) (View.ld x7 r0_10) (View.ld x7 r0_11)⟩,
          ⟨r0_12, chunkV (View.ld x0 r0_0) (View.ld x1 r0_1) (View.ld x2 r0_2) (View.ld x3 r0_1) (View.ld x4 r0_2) (View.ld x5 r0_1) (View.ld x6 r0_2) (View.ld x7 r0_3) (View.ld x7 r0_4) (View.ld x7 r0_5) (View.ld x7 r0_6) (View.ld x7 r0_7) (View.ld x7 r0_8) (View.ld x7 r0_9) (View.ld x7 r0_10) (View.ld x7 r0_11)⟩] := rfl

end Cert.KernelIdeal.Chunk

end
-- ==== Proof.KChunkRead.lean ====
/-
  The chunk term read at a position, over the extended reals: every layout operation moves an index, every
  arithmetic operation acts entry by entry.
-/
import proofs.«114282_j52390011076755_2_alg».proof.Proof.KChunkTerm
import Idealize.ShloMosaic.Lib.ValueIdx
import Idealize.ShloMosaic.Lib.ValueLayout
import Idealize.ShloMosaic.Lib.Pipeline.Value

noncomputable section

namespace Cert.KernelIdeal.Chunk

open Cert.KernelIdeal Cert.KernelIdeal.Gen Idealize.ShloMosaic Idealize.ShloMosaic.ValueIdx

/-- Column `dd` of a 12 × 12 matrix, as a 12 × 1 block. -/
theorem sliceW_apply (dd : ℕ) (hdd : dd < 12) (W : FVec Ideal S12x12 .f32) (h : S12x12.Slices ![0, dd] S12x1) (o : Fin 12) :
    extractStridedSlice S12x1 ![0, dd] W h (ix2 o 0) = W (ix2 o ⟨dd, hdd⟩) :=
  extractStridedSlice_apply _ _ _ _ _ (fun a => by
    fin_cases a
    · show o.val = 0 + o.val; omega
    · show dd = dd + 0; omega)

/-- A summand at a position: the matrix entry of that output channel times the plane's entry there. -/
theorem termQ_apply (Wc : FVec Ideal S12x1 .f32) (Xr : FVec Ideal S1x64x256 .f32) (o : Fin 12) (r : Fin 64) (w : Fin 256) :
    termQ Wc Xr (ix3 o r w) = Wc (ix2 o 0) * Xr (ix3 0 r w) := by
  unfold termQ
  rw [mulf_apply]
  congr 1
  · refine (broadcastTo_apply _ _ (ix3 o r w) (ix3 o 0 0) (fun a => by fin_cases a <;> rfl)).trans ?_
    refine (shapeCast_apply _ _ (ix3 o 0 0) (ix1 o) ?_).trans ?_
    · rw [Shape.rowMajor_val_one, Shape.rowMajor_val_three]; show o.val = (o.val * 1 + 0) * 1 + 0; omega
    refine shapeCast_apply _ _ (ix1 o) (ix2 o 0) ?_
    rw [Shape.rowMajor_val_one, Shape.rowMajor_val_two]; show o.val * 1 + 0 = o.val; omega
  · refine (broadcastTo_apply _ _ (ix3 o r w) (ix3 0 r w) (fun a => by fin_cases a <;> rfl)).trans ?_
    refine (shapeCast_ab_1ab_apply _ _ 0 r w).trans ?_
    exact shapeCast_1ab_ab_apply _ _ r w

/-- Plane `dd` of a block of twelve planes. -/
theorem sliceQ_apply (dd : ℕ) (hdd : dd < 12) (X : FVec Ideal S12x64x256 .f32) (h : S12x64x256.Slices ![dd, 0, 0] S1x64x256) (r : Fin 64) (w : Fin 256) :
    extractStridedSlice S1x64x256 ![dd, 0, 0] X h (ix3 0 r w) = X (ix3 ⟨dd, hdd⟩ r w) :=
  extractStridedSlice_apply _ _ _ _ _ (fun a => by
    fin_cases a
    · show dd = dd + 0; omega
    · show r.val = 0 + r.val; omega
    · show w.val = 0 + w.val; omega)

/-- The affine map at a position: the offset plus the twelve products, in channel order. -/
theorem linQ_apply (W : FVec Ideal S12x12 .f32) (b : FVec Ideal S12x1x1 .f32) (X : FVec Ideal S12x64x256 .f32) (o : Fin 12) (r : Fin 64) (w : Fin 256) :
    linQ W b X (ix3 o r w)
      = ((((((((((((b (ix3 o 0 0) + W (ix2 o 0) * X (ix3 0 r w)) + W (ix2 o 1) * X (ix3 1 r w)) + W (ix2 o 2) * X (ix3 2 r w)) + W (ix2 o 3) * X (ix3 3 r w)) + W (ix2 o 4) * X (ix3 4 r w)) + W (ix2 o 5) * X (ix3 5 r w)) + W (ix2 o 6) * X (ix3 6 r w)) + W (ix2 o 7) * X (ix3 7 r w)) + W (ix2 o 8) * X (ix3 8 r w)) + W (ix2 o 9) * X (ix3 9 r w)) + W (ix2 o 10) * X (ix3 10 r w)) + W (ix2 o 11) * X (ix3 11 r w)) := by
  unfold linQ
  simp only [addf_apply]
  rw [termQ_apply, sliceW_apply 0 (by decide), sliceQ_apply 0 (by decide),
    termQ_apply, sliceW_apply 1 (by decide), sliceQ_apply 1 (by decide),
    termQ_apply, sliceW_apply 2 (by decide), sliceQ_apply 2 (by decide),
    termQ_apply, sliceW_apply 3 (by decide), sliceQ_apply 3 (by decide),
    termQ_apply, sliceW_apply 4 (by decide), sliceQ_apply 4 (by decide),
    termQ_apply, sliceW_apply 5 (by decide), sliceQ_apply 5 (by decide),
    termQ_apply, sliceW_apply 6 (by decide), sliceQ_apply 6 (by decide),
    termQ_apply, sliceW_apply 7 (by decide), sliceQ_apply 7 (by decide),
    termQ_apply, sliceW_apply 8 (by decide), sliceQ_apply 8 (by decide),
    termQ_apply, sliceW_apply 9 (by decide), sliceQ_apply 9 (by decide),
    termQ_apply, sliceW_apply 10 (by decide), sliceQ_apply 10 (by decide),
    termQ_apply, sliceW_apply 11 (by decide), sliceQ_apply 11 (by decide)]
  rw [broadcastTo_apply b _ (ix3 o r w) (ix3 o 0 0) (fun a => by fin_cases a <;> rfl)]
  rfl

/-- A summand at a position: the matrix entry of that output channel times the plane's entry there. -/
theorem termK_apply (Wc : FVec Ideal S12x1 .f32) (Xr : FVec Ideal S1x66x258 .f32) (o : Fin 12) (r : Fin 66) (w : Fin 258) :
    termK Wc Xr (ix3 o r w) = Wc (ix2 o 0) * Xr (ix3 0 r w) := by
  unfold termK
  rw [mulf_apply]
  congr 1
  · refine (broadcastTo_apply _ _ (ix3 o r w) (ix3 o 0 0) (fun a => by fin_cases a <;> rfl)).trans ?_
    refine (shapeCast_apply _ _ (ix3 o 0 0) (ix1 o) ?_).trans ?_
    · rw [Shape.rowMajor_val_one, Shape.rowMajor_val_three]; show o.val = (o.val * 1 + 0) * 1 + 0; omega
    refine shapeCast_apply _ _ (ix1 o) (ix2 o 0) ?_
    rw [Shape.rowMajor_val_one, Shape.rowMajor_val_two]; show o.val * 1 + 0 = o.val; omega
  · refine (broadcastTo_apply _ _ (ix3 o r w) (ix3 0 r w) (fun a => by fin_cases a <;> rfl)).trans ?_
    refine (shapeCast_ab_1ab_apply _ _ 0 r w).trans ?_
    exact shapeCast_1ab_ab_apply _ _ r w

/-- Plane `dd` of a block of twelve planes. -/
theorem sliceK_apply (dd : ℕ) (hdd : dd < 12) (X : FVec Ideal S12x66x258 .f32) (h : S12x66x258.Slices ![dd, 0, 0] S1x66x258) (r : Fin 66) (w : Fin 258) :
    extractStridedSlice S1x66x258 ![dd, 0, 0] X h (ix3 0 r w) = X (ix3 ⟨dd, hdd⟩ r w) :=
  extractStridedSlice_apply _ _ _ _ _ (fun a => by
    fin_cases a
    · show dd = dd + 0; omega
    · show r.val = 0 + r.val; omega
    · show w.val = 0 + w.val; omega)

/-- The affine map at a position: the offset plus the twelve products, in channel order. -/
theorem linK_apply (W : FVec Ideal S12x12 .f32) (b : FVec Ideal S12x1x1 .f32) (X : FVec Ideal S12x66x258 .f32) (o : Fin 12) (r : Fin 66) (w : Fin 258) :
    linK W b X (ix3 o r w)
      = ((((((((((((b (ix3 o 0 0) + W (ix2 o 0) * X (ix3 0 r w)) + W (ix2 o 1) * X (ix3 1 r w)) + W (ix2 o 2) * X (ix3 2 r w)) + W (ix2 o 3) * X (ix3 3 r w)) + W (ix2 o 4) * X (ix3 4 r w)) + W (ix2 o 5) * X (ix3 5 r w)) + W (ix2 o 6) * X (ix3 6 r w)) + W (ix2 o 7) * X (ix3 7 r w)) + W (ix2 o 8) * X (ix3 8 r w)) + W (ix2 o 9) * X (ix3 9 r w)) + W (ix2 o 10) * X (ix3 10 r w)) + W (ix2 o 11) * X (ix3 11 r w)) := by
  unfold linK
  simp only [addf_apply]
  rw [termK_apply, sliceW_apply 0 (by decide), sliceK_apply 0 (by decide),
    termK_apply, sliceW_apply 1 (by decide), sliceK_apply 1 (by decide),
    termK_apply, sliceW_apply 2 (by decide), sliceK_apply 2 (by decide),
    termK_apply, sliceW_apply 3 (by decide), sliceK_apply 3 (by decide),
    termK_apply, sliceW_apply 4 (by decide), sliceK_apply 4 (by decide),
    termK_apply, sliceW_apply 5 (by decide), sliceK_apply 5 (by decide),
    termK_apply, sliceW_apply 6 (by decide), sliceK_apply 6 (by decide),
    termK_apply, sliceW_apply 7 (by decide), sliceK_apply 7 (by decide),
    termK_apply, sliceW_apply 8 (by decide), sliceK_apply 8 (by decide),
    termK_apply, sliceW_apply 9 (by decide), sliceK_apply 9 (by decide),
    termK_apply, sliceW_apply 10 (by decide), sliceK_apply 10 (by decide),
    termK_apply, sliceW_apply 11 (by decide), sliceK_apply 11 (by decide)]
  rw [broadcastTo_apply b _ (ix3 o r w) (ix3 o 0 0) (fun a => by fin_cases a <;> rfl)]
  rfl

end Cert.KernelIdeal.Chunk

end
-- ==== Proof.KChunkRead2.lean ====
/-
  The chunk term at a position in terms of what the body loads: the neighbourhood sum of query · key · weight · value,
  each an affine map of the twelve loaded channel entries at that position or at a neighbour's.
-/
import proofs.«114282_j52390011076755_2_alg».proof.Proof.KChunkRead

noncomputable section

namespace Cert.KernelIdeal.Chunk

open Cert.KernelIdeal Cert.KernelIdeal.Gen Idealize.ShloMosaic Idealize.ShloMosaic.ValueIdx

/-- The affine map of twelve entries `X`, in the order the body adds it: the offset, then the products in channel order. -/
def linS (W : FVec Ideal S12x12 .f32) (b : FVec Ideal S12x1x1 .f32) (X : Fin 12 → EReal) (o : Fin 12) : EReal :=
  ((((((((((((b (ix3 o 0 0) + W (ix2 o 0) * X 0) + W (ix2 o 1) * X 1) + W (ix2 o 2) * X 2) + W (ix2 o 3) * X 3) + W (ix2 o 4) * X 4) + W (ix2 o 5) * X 5) + W (ix2 o 6) * X 6) + W (ix2 o 7) * X 7) + W (ix2 o 8) * X 8) + W (ix2 o 9) * X 9) + W (ix2 o 10) * X 10) + W (ix2 o 11) * X 11)

/-- A block of 66 × 258 positions shifted by (`di`, `dj`) and cut to 64 × 256. -/
theorem sliceNb_apply (di dj : ℕ) (hdi : di < 3) (hdj : dj < 3) (Kv : FVec Ideal S12x66x258 .f32) (h : S12x66x258.Slices ![0, di, dj] S12x64x256)
    (o : Fin 12) (r : Fin 64) (w : Fin 256) :
    extractStridedSlice S12x64x256 ![0, di, dj] Kv h (ix3 o r w) = Kv (ix3 o ⟨di + r.val, by omega⟩ ⟨dj + w.val, by omega⟩) :=
  extractStridedSlice_apply _ _ _ _ _ (fun a => by
    fin_cases a
    · show o.val = 0 + o.val; omega
    · rfl
    · rfl)

/-- A neighbour's twelve weights spread over the block. -/
theorem wt_apply (wp : Vec Ideal S1x12x1x1 .f32) (h1 : S1x12x1x1.ShapeCasts S12x1x1) (h2 : S12x1x1.Broadcasts S12x64x256) (o : Fin 12) (r : Fin 64) (w : Fin 256) :
    broadcastTo S12x64x256 (shapeCast S12x1x1 wp h1) h2 (ix3 o r w) = wp (ix4 0 o 0 0) :=
  (broadcastTo_apply _ _ (ix3 o r w) (ix3 o 0 0) (fun a => by fin_cases a <;> rfl)).trans (shapeCast_1abc_abc_apply wp h1 o 0 0)

/-- The neighbourhood sum at a position. -/
theorem attV_apply (Qv : FVec Ideal S12x64x256 .f32) (Kv Vv : FVec Ideal S12x66x258 .f32) (w0 : Vec Ideal S1x12x1x1 .f32) (w1 : Vec Ideal S1x12x1x1 .f32) (w2 : Vec Ideal S1x12x1x1 .f32) (w3 : Vec Ideal S1x12x1x1 .f32) (w4 : Vec Ideal S1x12x1x1 .f32) (w5 : Vec Ideal S1x12x1x1 .f32) (w6 : Vec Ideal S1x12x1x1 .f32) (w7 : Vec Ideal S1x12x1x1 .f32) (w8 : Vec Ideal S1x12x1x1 .f32) (o : Fin 12) (r : Fin 64) (w : Fin 256) :
    attV Qv Kv Vv w0 w1 w2 w3 w4 w5 w6 w7 w8 (ix3 o r w)
      = (((((((((Scalar.ofBits (F := Ideal) .f32 0x00000000#32 + ((Qv (ix3 o r w) * Kv (ix3 o ⟨0 + r.val, by omega⟩ ⟨0 + w.val, by omega⟩)) * w0 (ix4 0 o 0 0)) * Vv (ix3 o ⟨0 + r.val, by omega⟩ ⟨0 + w.val, by omega⟩)) + ((Qv (ix3 o r w) * Kv (ix3 o ⟨0 + r.val, by omega⟩ ⟨1 + w.val, by omega⟩)) * w1 (ix4 0 o 0 0)) * Vv (ix3 o ⟨0 + r.val, by omega⟩ ⟨1 + w.val, by omega⟩)) + ((Qv (ix3 o r w) * Kv (ix3 o ⟨0 + r.val, by omega⟩ ⟨2 + w.val, by omega⟩)) * w2 (ix4 0 o 0 0)) * Vv (ix3 o ⟨0 + r.val, by omega⟩ ⟨2 + w.val, by omega⟩)) + ((Qv (ix3 o r w) * Kv (ix3 o ⟨1 + r.val, by omega⟩ ⟨0 + w.val, by omega⟩)) * w3 (ix4 0 o 0 0)) * Vv (ix3 o ⟨1 + r.val, by omega⟩ ⟨0 + w.val, by omega⟩)) + ((Qv (ix3 o r w) * Kv (ix3 o ⟨1 + r.val, by omega⟩ ⟨1 + w.val, by omega⟩)) * w4 (ix4 0 o 0 0)) * Vv (ix3 o ⟨1 + r.val, by omega⟩ ⟨1 + w.val, by omega⟩)) + ((Qv (ix3 o r w) * Kv (ix3 o ⟨1 + r.val, by omega⟩ ⟨2 + w.val, by omega⟩)) * w5 (ix4 0 o 0 0)) * Vv (ix3 o ⟨1 + r.val, by omega⟩ ⟨2 + w.val, by omega⟩)) + ((Qv (ix3 o r w) * Kv (ix3 o ⟨2 + r.val, by omega⟩ ⟨0 + w.val, by omega⟩)) * w6 (ix4 0 o 0 0)) * Vv (ix3 o ⟨2 + r.val, by omega⟩ ⟨0 + w.val, by omega⟩)) + ((Qv (ix3 o r w) * Kv (ix3 o ⟨2 + r.val, by omega⟩ ⟨1 + w.val, by omega⟩)) * w7 (ix4 0 o 0 0)) * Vv (ix3 o ⟨2 + r.val, by omega⟩ ⟨1 + w.val, by omega⟩)) + ((Qv (ix3 o r w) * Kv (ix3 o ⟨2 + r.val, by omega⟩ ⟨2 + w.val, by omega⟩)) * w8 (ix4 0 o 0 0)) * Vv (ix3 o ⟨2 + r.val, by omega⟩ ⟨2 + w.val, by omega⟩)) := by
  unfold attV
  simp only [addf_apply, mulf_apply, broadcast_apply]
  rw [wt_apply w0 _ _ o r w, wt_apply w1 _ _ o r w, wt_apply w2 _ _ o r w, wt_apply w3 _ _ o r w, wt_apply w4 _ _ o r w, wt_apply w5 _ _ o r w, wt_apply w6 _ _ o r w, wt_apply w7 _ _ o r w, wt_apply w8 _ _ o r w]
  rw [sliceNb_apply 0 0 (by decide) (by decide) Kv, sliceNb_apply 0 0 (by decide) (by decide) Vv,
    sliceNb_apply 0 1 (by decide) (by decide) Kv, sliceNb_apply 0 1 (by decide) (by decide) Vv,
    sliceNb_apply 0 2 (by decide) (by decide) Kv, sliceNb_apply 0 2 (by decide) (by decide) Vv,
    sliceNb_apply 1 0 (by decide) (by decide) Kv, sliceNb_apply 1 0 (by decide) (by decide) Vv,
    sliceNb_apply 1 1 (by decide) (by decide) Kv, sliceNb_apply 1 1 (by decide) (by decide) Vv,
    sliceNb_apply 1 2 (by decide) (by decide) Kv, sliceNb_apply 1 2 (by decide) (by decide) Vv,
    sliceNb_apply 2 0 (by decide) (by decide) Kv, sliceNb_apply 2 0 (by decide) (by decide) Vv,
    sliceNb_apply 2 1 (by decide) (by decide) Kv, sliceNb_apply 2 1 (by decide) (by decide) Vv,
    sliceNb_apply 2 2 (by decide) (by decide) Kv, sliceNb_apply 2 2 (by decide) (by decide) Vv]

/-- The loaded chunk without its leading unit axis. -/
theorem castX_apply (xl : Vec Ideal S1x12x66x258 .f32) (h : S1x12x66x258.ShapeCasts S12x66x258) (k : Fin 12) (r : Fin 66) (w : Fin 258) :
    shapeCast S12x66x258 xl h (ix3 k r w) = xl (ix4 0 k r w) := shapeCast_1abc_abc_apply xl h k r w

/-- Key and value: the affine map of the loaded chunk at any of its 66 × 258 positions. -/
theorem linK_xl (W : FVec Ideal S12x12 .f32) (b : FVec Ideal S12x1x1 .f32) (xl : Vec Ideal S1x12x66x258 .f32) (h : S1x12x66x258.ShapeCasts S12x66x258)
    (o : Fin 12) (r : Fin 66) (w : Fin 258) :
    linK W b (shapeCast S12x66x258 xl h) (ix3 o r w) = linS W b (fun k => xl (ix4 0 k r w)) o := by
  rw [linK_apply]
  rw [castX_apply xl h 0, castX_apply xl h 1, castX_apply xl h 2, castX_apply xl h 3, castX_apply xl h 4, castX_apply xl h 5, castX_apply xl h 6, castX_apply xl h 7, castX_apply xl h 8, castX_apply xl h 9, castX_apply xl h 10, castX_apply xl h 11]
  rfl

/-- Query: the affine map at the inner positions, one row and one column in. -/
theorem linQ_xl (W : FVec Ideal S12x12 .f32) (b : FVec Ideal S12x1x1 .f32) (xl : Vec Ideal S1x12x66x258 .f32) (h : S1x12x66x258.ShapeCasts S12x66x258)
    (h' : S12x66x258.Slices ![0, 1, 1] S12x64x256) (o : Fin 12) (r : Fin 64) (w : Fin 256) :
    linQ W b (extractStridedSlice S12x64x256 ![0, 1, 1] (shapeCast S12x66x258 xl h) h') (ix3 o r w)
      = linS W b (fun k => xl (ix4 0 k ⟨1 + r.val, by omega⟩ ⟨1 + w.val, by omega⟩)) o := by
  rw [linQ_apply]
  rw [sliceNb_apply 1 1 (by decide) (by decide) _ h' 0 r w, sliceNb_apply 1 1 (by decide) (by decide) _ h' 1 r w, sliceNb_apply 1 1 (by decide) (by decide) _ h' 2 r w, sliceNb_apply 1 1 (by decide) (by decide) _ h' 3 r w, sliceNb_apply 1 1 (by decide) (by decide) _ h' 4 r w, sliceNb_apply 1 1 (by decide) (by decide) _ h' 5 r w, sliceNb_apply 1 1 (by decide) (by decide) _ h' 6 r w, sliceNb_apply 1 1 (by decide) (by decide) _ h' 7 r w, sliceNb_apply 1 1 (by decide) (by decide) _ h' 8 r w, sliceNb_apply 1 1 (by decide) (by decide) _ h' 9 r w, sliceNb_apply 1 1 (by decide) (by decide) _ h' 10 r w, sliceNb_apply 1 1 (by decide) (by decide) _ h' 11 r w]
  rw [castX_apply xl h 0, castX_apply xl h 1, castX_apply xl h 2, castX_apply xl h 3, castX_apply xl h 4, castX_apply xl h 5, castX_apply xl h 6, castX_apply xl h 7, castX_apply xl h 8, castX_apply xl h 9, castX_apply xl h 10, castX_apply xl h 11]
  rfl

/-- What one chunk stores at a position, from its loads. -/
def chunkS (xl : Vec Ideal S1x12x66x258 .f32) (wq : Vec Ideal S12x12 .f32) (bq : Vec Ideal S12x1x1 .f32) (wk : Vec Ideal S12x12 .f32) (bk : Vec Ideal S12x1x1 .f32)
    (wv : Vec Ideal S12x12 .f32) (bv : Vec Ideal S12x1x1 .f32) (w0 : Vec Ideal S1x12x1x1 .f32) (w1 : Vec Ideal S1x12x1x1 .f32) (w2 : Vec Ideal S1x12x1x1 .f32) (w3 : Vec Ideal S1x12x1x1 .f32) (w4 : Vec Ideal S1x12x1x1 .f32) (w5 : Vec Ideal S1x12x1x1 .f32) (w6 : Vec Ideal S1x12x1x1 .f32) (w7 : Vec Ideal S1x12x1x1 .f32) (w8 : Vec Ideal S1x12x1x1 .f32) (o : Fin 12) (r : Fin 64) (w : Fin 256) : EReal :=
  (((((((((Scalar.ofBits (F := Ideal) .f32 0x00000000#32
      + (((linS wq bq (fun k => xl (ix4 0 k ⟨1 + r.val, by omega⟩ ⟨1 + w.val, by omega⟩)) o * Scalar.ofBits (F := Ideal) .f32 0x3F800000#32)
            * linS wk bk (fun k => xl (ix4 0 k ⟨0 + r.val, by omega⟩ ⟨0 + w.val, by omega⟩)) o) * w0 (ix4 0 o 0 0))
          * linS wv bv (fun k => xl (ix4 0 k ⟨0 + r.val, by omega⟩ ⟨0 + w.val, by omega⟩)) o)
      + (((linS wq bq (fun k => xl (ix4 0 k ⟨1 + r.val, by omega⟩ ⟨1 + w.val, by omega⟩)) o * Scalar.ofBits (F := Ideal) .f32 0x3F800000#32)
            * linS wk bk (fun k => xl (ix4 0 k ⟨0 + r.val, by omega⟩ ⟨1 + w.val, by omega⟩)) o) * w1 (ix4 0 o 0 0))
          * linS wv bv (fun k => xl (ix4 0 k ⟨0 + r.val, by omega⟩ ⟨1 + w.val, by omega⟩)) o)
      + (((linS wq bq (fun k => xl (ix4 0 k ⟨1 + r.val, by omega⟩ ⟨1 + w.val, by omega⟩)) o * Scalar.ofBits (F := Ideal) .f32 0x3F800000#32)
            * linS wk bk (fun k => xl (ix4 0 k ⟨0 + r.val, by omega⟩ ⟨2 + w.val, by omega⟩)) o) * w2 (ix4 0 o 0 0))
          * linS wv bv (fun k => xl (ix4 0 k ⟨0 + r.val, by omega⟩ ⟨2 + w.val, by omega⟩)) o)
      + (((linS wq bq (fun k => xl (ix4 0 k ⟨1 + r.val, by omega⟩ ⟨1 + w.val, by omega⟩)) o * Scalar.ofBits (F := Ideal) .f32 0x3F800000#32)
            * linS wk bk (fun k => xl (ix4 0 k ⟨1 + r.val, by omega⟩ ⟨0 + w.val, by omega⟩)) o) * w3 (ix4 0 o 0 0))
          * linS wv bv (fun k => xl (ix4 0 k ⟨1 + r.val, by omega⟩ ⟨0 + w.val, by omega⟩)) o)
      + (((linS wq bq (fun k => xl (ix4 0 k ⟨1 + r.val, by omega⟩ ⟨1 + w.val, by omega⟩)) o * Scalar.ofBits (F := Ideal) .f32 0x3F800000#32)
            * linS wk bk (fun k => xl (ix4 0 k ⟨1 + r.val, by omega⟩ ⟨1 + w.val, by omega⟩)) o) * w4 (ix4 0 o 0 0))
          * linS wv bv (fun k => xl (ix4 0 k ⟨1 + r.val, by omega⟩ ⟨1 + w.val, by omega⟩)) o)
      + (((linS wq bq (fun k => xl (ix4 0 k ⟨1 + r.val, by omega⟩ ⟨1 + w.val, by omega⟩)) o * Scalar.ofBits (F := Ideal) .f32 0x3F800000#32)
            * linS wk bk (fun k => xl (ix4 0 k ⟨1 + r.val, by omega⟩ ⟨2 + w.val, by omega⟩)) o) * w5 (ix4 0 o 0 0))
          * linS wv bv (fun k => xl (ix4 0 k ⟨1 + r.val, by omega⟩ ⟨2 + w.val, by omega⟩)) o)
      + (((linS wq bq (fun k => xl (ix4 0 k ⟨1 + r.val, by omega⟩ ⟨1 + w.val, by omega⟩)) o * Scalar.ofBits (F := Ideal) .f32 0x3F800000#32)
            * linS wk bk (fun k => xl (ix4 0 k ⟨2 + r.val, by omega⟩ ⟨0 + w.val, by omega⟩)) o) * w6 (ix4 0 o 0 0))
          * linS wv bv (fun k => xl (ix4 0 k ⟨2 + r.val, by omega⟩ ⟨0 + w.val, by omega⟩)) o)
      + (((linS wq bq (fun k => xl (ix4 0 k ⟨1 + r.val, by omega⟩ ⟨1 + w.val, by omega⟩)) o * Scalar.ofBits (F := Ideal) .f32 0x3F800000#32)
            * linS wk bk (fun k => xl (ix4 0 k ⟨2 + r.val, by omega⟩ ⟨1 + w.val, by omega⟩)) o) * w7 (ix4 0 o 0 0))
          * linS wv bv (fun k => xl (ix4 0 k ⟨2 + r.val, by omega⟩ ⟨1 + w.val, by omega⟩)) o)
      + (((linS wq bq (fun k => xl (ix4 0 k ⟨1 + r.val, by omega⟩ ⟨1 + w.val, by omega⟩)) o * Scalar.ofBits (F := Ideal) .f32 0x3F800000#32)
            * linS wk bk (fun k => xl (ix4 0 k ⟨2 + r.val, by omega⟩ ⟨2 + w.val, by omega⟩)) o) * w8 (ix4 0 o 0 0))
          * linS wv bv (fun k => xl (ix4 0 k ⟨2 + r.val, by omega⟩ ⟨2 + w.val, by omega⟩)) o)

theorem chunkV_apply (xl : Vec Ideal S1x12x66x258 .f32) (wq : Vec Ideal S12x12 .f32) (bq : Vec Ideal S12x1x1 .f32) (wk : Vec Ideal S12x12 .f32) (bk : Vec Ideal S12x1x1 .f32)
    (wv : Vec Ideal S12x12 .f32) (bv : Vec Ideal S12x1x1 .f32) (w0 : Vec Ideal S1x12x1x1 .f32) (w1 : Vec Ideal S1x12x1x1 .f32) (w2 : Vec Ideal S1x12x1x1 .f32) (w3 : Vec Ideal S1x12x1x1 .f32) (w4 : Vec Ideal S1x12x1x1 .f32) (w5 : Vec Ideal S1x12x1x1 .f32) (w6 : Vec Ideal S1x12x1x1 .f32) (w7 : Vec Ideal S1x12x1x1 .f32) (w8 : Vec Ideal S1x12x1x1 .f32) (u : Fin 1) (o : Fin 12) (r : Fin 64) (w : Fin 256) :
    chunkV xl wq bq wk bk wv bv w0 w1 w2 w3 w4 w5 w6 w7 w8 (ix4 u o r w) = chunkS xl wq bq wk bk wv bv w0 w1 w2 w3 w4 w5 w6 w7 w8 o r w := by
  unfold chunkV
  rw [shapeCast_abc_1abc_apply, attV_apply]
  simp only [shapeCast_self, mulf_apply, linK_xl, linQ_xl, broadcast_apply]
  rfl

end Cert.KernelIdeal.Chunk

end
-- ==== Proof.LibSums.lean ====
/-
  Finite sums over `Fin 9` and `Fin 12` written out term by term, in any commutative additive monoid, and the affine
  form "offset plus products in order" against "sum of products, then the offset" over the extended reals (only
  commutativity and associativity of + and commutativity of · are used: no distributivity, so infinities are harmless).
-/
import Mathlib.Algebra.BigOperators.Fin
import Mathlib.Data.EReal.Inv

namespace Cert.LibSums

/-- Nine terms added one after the other onto `z` are `z` plus their sum. -/
theorem sum9 {M : Type*} [AddCommMonoid M] (f : Fin 9 → M) (z : M) :
    (((((((((z + f 0) + f 1) + f 2) + f 3) + f 4) + f 5) + f 6) + f 7) + f 8) = z + ∑ p : Fin 9, f p := by
  simp only [Fin.sum_univ_succ, Fin.sum_univ_zero, add_zero, ← add_assoc]
  rfl

/-- A sum over twelve indices, written out left to right. -/
theorem sum12 {M : Type*} [AddCommMonoid M] (g : Fin 12 → M) :
    ∑ k : Fin 12, g k = (((((((((((g 0 + g 1) + g 2) + g 3) + g 4) + g 5) + g 6) + g 7) + g 8) + g 9) + g 10) + g 11) := by
  simp only [Fin.sum_univ_succ, Fin.sum_univ_zero, add_zero, ← add_assoc]
  rfl

/-- The offset followed by twelve products `a k · x k` is the sum of the products `x k · a k` followed by the offset. -/
theorem affine12 (a x : Fin 12 → EReal) (b : EReal) :
    ((((((((((((b + a 0 * x 0) + a 1 * x 1) + a 2 * x 2) + a 3 * x 3) + a 4 * x 4) + a 5 * x 5) + a 6 * x 6) + a 7 * x 7) + a 8 * x 8) + a 9 * x 9) + a 10 * x 10) + a 11 * x 11) = (∑ k : Fin 12, x k * a k) + b := by
  rw [sum12]
  simp only [mul_comm (x _) (a _)]
  ac_rfl

end Cert.LibSums
-- ==== Proof.KBody.lean ====
/-
  The output block after the body, position by position: at channel `o` and position (`h`, `w`) it holds the zero word
  plus the sum over the nine neighbours of query · one · key · weight · value, each of query, key, value the affine map
  (sum of the twelve channel entries times a matrix row, plus an offset) of the input block at the position one in, or at
  the neighbour's position. The four row chunks the body stores are this one function on rows 0–63, …, 192–255; within a
  chunk the body adds the offset first and the products after, and the neighbours one after the other: only the order of
  the additions and of the two factors differs, and + and · on the extended reals are commutative and associative.
-/
import proofs.«114282_j52390011076755_2_alg».proof.Proof.KChunkEq
import proofs.«114282_j52390011076755_2_alg».proof.Proof.KChunkRead2
import proofs.«114282_j52390011076755_2_alg».proof.Proof.LibSums

noncomputable section

namespace Cert.KernelIdeal.Chunk

open Cert.KernelIdeal Cert.KernelIdeal.Gen Idealize.ShloMosaic Idealize.ShloMosaic.ValueIdx

/-- The affine map of the twelve channel entries of the input block at position (`gh`, `gw`), output channel `o`. -/
def linB (X : Vec Ideal S1x12x258x258 .f32) (Wm : Vec Ideal S12x12 .f32) (bm : Vec Ideal S12x1x1 .f32) (gh gw : Fin 258) (o : Fin 12) : EReal :=
  (∑ k : Fin 12, X (ix4 0 k gh gw) * Wm (ix2 o k)) + bm (ix3 o 0 0)

/-- Neighbour `p`'s summand at (`h`, `w`). -/
def bodyT (x0 : Vec Ideal S1x12x258x258 .f32) (x1 : Vec Ideal S12x12 .f32) (x2 : Vec Ideal S12x1x1 .f32) (x3 : Vec Ideal S12x12 .f32) (x4 : Vec Ideal S12x1x1 .f32) (x5 : Vec Ideal S12x12 .f32) (x6 : Vec Ideal S12x1x1 .f32) (x7 : Vec Ideal S9x12x1x1 .f32) (o : Fin 12) (h w : Fin 256) (p : Fin 9) : EReal :=
  (((linB x0 x1 x2 ⟨h.val + 1, by omega⟩ ⟨w.val + 1, by omega⟩ o * Ideal.ofBits .f32 0x3F800000#32)
      * linB x0 x3 x4 ⟨h.val + p.val / 3, by omega⟩ ⟨w.val + p.val % 3, by omega⟩ o) * x7 (ix4 p o 0 0))
    * linB x0 x5 x6 ⟨h.val + p.val / 3, by omega⟩ ⟨w.val + p.val % 3, by omega⟩ o

/-- The output block's entry at channel `o`, position (`h`, `w`). -/
def bodyS (x0 : Vec Ideal S1x12x258x258 .f32) (x1 : Vec Ideal S12x12 .f32) (x2 : Vec Ideal S12x1x1 .f32) (x3 : Vec Ideal S12x12 .f32) (x4 : Vec Ideal S12x1x1 .f32) (x5 : Vec Ideal S12x12 .f32) (x6 : Vec Ideal S12x1x1 .f32) (x7 : Vec Ideal S9x12x1x1 .f32) (o : Fin 12) (h w : Fin 256) : EReal :=
  Ideal.ofBits .f32 0x00000000#32 + ∑ p : Fin 9, bodyT x0 x1 x2 x3 x4 x5 x6 x7 o h w p

theorem add_congr {a a' b b' : EReal} (h1 : a = a') (h2 : b = b') : a + b = a' + b' := by rw [h1, h2]

/-- The body's order of additions against the sum. -/
theorem linS_linB (X : Vec Ideal S1x12x258x258 .f32) (Wm : Vec Ideal S12x12 .f32) (bm : Vec Ideal S12x1x1 .f32) (gh gw : Fin 258) (o : Fin 12) :
    linS Wm bm (fun k => X (ix4 0 k gh gw)) o = linB X Wm bm gh gw o := by
  unfold linS linB
  exact Cert.LibSums.affine12 (fun k => Wm (ix2 o k)) (fun k => X (ix4 0 k gh gw)) (bm (ix3 o 0 0))

/-- The chunk's 66 rows of the input block, as loaded. -/
theorem ld_x (x0 : Vec Ideal S1x12x258x258 .f32) (c0 : ℕ) (hc : c0 + 66 ≤ 258)
    (inb : ∀ a, (![0, 0, c0, 0] : Fin 4 → ℕ) a + S1x12x66x258.size a ≤ S1x12x258x258.size a) (gh : Fin 66) (gw : Fin 258) :
    (fun k : Fin 12 => View.ld x0 (Rect.unit (s := S1x12x258x258) ![0, 0, c0, 0] S1x12x66x258.size inb) (ix4 0 k gh gw))
      = fun k => x0 (ix4 0 k ⟨c0 + gh.val, by omega⟩ gw) := by
  funext k
  show x0 _ = x0 _
  congr 1
  funext a
  apply Fin.ext
  fin_cases a
  · show 0 + 1 * 0 = 0; rfl
  · show 0 + 1 * k.val = k.val; omega
  · show c0 + 1 * gh.val = c0 + gh.val; omega
  · show 0 + 1 * gw.val = gw.val; omega

/-- One neighbour's twelve weights, as loaded. -/
theorem ld_w (x7 : Vec Ideal S9x12x1x1 .f32) (p : ℕ) (hp : p < 9)
    (inb : ∀ a, (![p, 0, 0, 0] : Fin 4 → ℕ) a + S1x12x1x1.size a ≤ S9x12x1x1.size a) (o : Fin 12) :
    View.ld x7 (Rect.unit (s := S9x12x1x1) ![p, 0, 0, 0] S1x12x1x1.size inb) (ix4 0 o 0 0) = x7 (ix4 ⟨p, hp⟩ o 0 0) := by
  show x7 _ = x7 _
  congr 1
  funext a
  apply Fin.ext
  fin_cases a
  · show p + 1 * 0 = p; omega
  · show 0 + 1 * o.val = o.val; omega
  · show 0 + 1 * 0 = 0; rfl
  · show 0 + 1 * 0 = 0; rfl

theorem hz2 : (![0, 0] : Fin 2 → Nat) = fun _ => 0 := funext fun a => by fin_cases a <;> rfl
theorem hz3 : (![0, 0, 0] : Fin 3 → Nat) = fun _ => 0 := funext fun a => by fin_cases a <;> rfl

/-- A neighbour's summand with the positions spelt as the body's slices spell them. -/
theorem bodyT_at (x0 : Vec Ideal S1x12x258x258 .f32) (x1 : Vec Ideal S12x12 .f32) (x2 : Vec Ideal S12x1x1 .f32) (x3 : Vec Ideal S12x12 .f32) (x4 : Vec Ideal S12x1x1 .f32) (x5 : Vec Ideal S12x12 .f32) (x6 : Vec Ideal S12x1x1 .f32) (x7 : Vec Ideal S9x12x1x1 .f32) (c0 : ℕ) (hc : c0 + 66 ≤ 258) (o : Fin 12) (r : Fin 64) (w : Fin 256) (p : ℕ) (hp : p < 9) :
    bodyT x0 x1 x2 x3 x4 x5 x6 x7 o ⟨c0 + r.val, by omega⟩ w ⟨p, hp⟩
      = (((linB x0 x1 x2 ⟨c0 + (1 + r.val), by omega⟩ ⟨1 + w.val, by omega⟩ o * Scalar.ofBits (F := Ideal) .f32 0x3F800000#32)
          * linB x0 x3 x4 ⟨c0 + (p / 3 + r.val), by omega⟩ ⟨p % 3 + w.val, by omega⟩ o) * x7 (ix4 ⟨p, hp⟩ o 0 0))
        * linB x0 x5 x6 ⟨c0 + (p / 3 + r.val), by omega⟩ ⟨p % 3 + w.val, by omega⟩ o := by
  unfold bodyT
  have e1 : (⟨(⟨c0 + r.val, by omega⟩ : Fin 256).val + 1, by simp; omega⟩ : Fin 258) = ⟨c0 + (1 + r.val), by omega⟩ := by rw [Fin.mk.injEq]; (try dsimp only); omega
  have e2 : (⟨w.val + 1, by omega⟩ : Fin 258) = ⟨1 + w.val, by omega⟩ := by rw [Fin.mk.injEq]; (try dsimp only); omega
  have e3 : (⟨(⟨c0 + r.val, by omega⟩ : Fin 256).val + (⟨p, hp⟩ : Fin 9).val / 3, by simp; omega⟩ : Fin 258) = ⟨c0 + (p / 3 + r.val), by omega⟩ := by rw [Fin.mk.injEq]; (try dsimp only); omega
  have e4 : (⟨w.val + (⟨p, hp⟩ : Fin 9).val % 3, by simp; omega⟩ : Fin 258) = ⟨p % 3 + w.val, by omega⟩ := by rw [Fin.mk.injEq]; (try dsimp only); omega
  rw [e1, e2, e3, e4]
  rfl

/-- One chunk: what the body stores at a position of the chunk is the output block's function 64-row chunk `c0` down. -/
theorem chunk_at (x0 : Vec Ideal S1x12x258x258 .f32) (x1 : Vec Ideal S12x12 .f32) (x2 : Vec Ideal S12x1x1 .f32) (x3 : Vec Ideal S12x12 .f32) (x4 : Vec Ideal S12x1x1 .f32) (x5 : Vec Ideal S12x12 .f32) (x6 : Vec Ideal S12x1x1 .f32) (x7 : Vec Ideal S9x12x1x1 .f32) (c0 : ℕ) (hc : c0 + 66 ≤ 258)
    (inb : ∀ a, (![0, 0, c0, 0] : Fin 4 → ℕ) a + S1x12x66x258.size a ≤ S1x12x258x258.size a) (o : Fin 12) (r : Fin 64) (w : Fin 256) :
    chunkS (View.ld x0 (Rect.unit (s := S1x12x258x258) ![0, 0, c0, 0] S1x12x66x258.size inb)) (View.ld x1 r0_1) (View.ld x2 r0_2) (View.ld x3 r0_1) (View.ld x4 r0_2)
        (View.ld x5 r0_1) (View.ld x6 r0_2) (View.ld x7 r0_3) (View.ld x7 r0_4) (View.ld x7 r0_5) (View.ld x7 r0_6) (View.ld x7 r0_7) (View.ld x7 r0_8) (View.ld x7 r0_9) (View.ld x7 r0_10) (View.ld x7 r0_11) o r w
      = bodyS x0 x1 x2 x3 x4 x5 x6 x7 o ⟨c0 + r.val, by omega⟩ w := by
  unfold chunkS
  rw [View.ld_unit_zero (S := S12x12) hz2 _ x1, View.ld_unit_zero (S := S12x12) hz2 _ x3, View.ld_unit_zero (S := S12x12) hz2 _ x5,
    View.ld_unit_zero (S := S12x1x1) hz3 _ x2, View.ld_unit_zero (S := S12x1x1) hz3 _ x4, View.ld_unit_zero (S := S12x1x1) hz3 _ x6]
  rw [ld_x x0 c0 hc inb ⟨0 + r.val, by omega⟩ ⟨0 + w.val, by omega⟩,
    ld_x x0 c0 hc inb ⟨0 + r.val, by omega⟩ ⟨1 + w.val, by omega⟩,
    ld_x x0 c0 hc inb ⟨0 + r.val, by omega⟩ ⟨2 + w.val, by omega⟩,
    ld_x x0 c0 hc inb ⟨1 + r.val, by omega⟩ ⟨0 + w.val, by omega⟩,
    ld_x x0 c0 hc inb ⟨1 + r.val, by omega⟩ ⟨1 + w.val, by omega⟩,
    ld_x x0 c0 hc inb ⟨1 + r.val, by omega⟩ ⟨2 + w.val, by omega⟩,
    ld_x x0 c0 hc inb ⟨2 + r.val, by omega⟩ ⟨0 + w.val, by omega⟩,
    ld_x x0 c0 hc inb ⟨2 + r.val, by omega⟩ ⟨1 + w.val, by omega⟩,
    ld_x x0 c0 hc inb ⟨2 + r.val, by omega⟩ ⟨2 + w.val, by omega⟩]
  simp only [linS_linB]
  rw [ld_w x7 0 (by omega) _ o, ld_w x7 1 (by omega) _ o, ld_w x7 2 (by omega) _ o, ld_w x7 3 (by omega) _ o, ld_w x7 4 (by omega) _ o, ld_w x7 5 (by omega) _ o, ld_w x7 6 (by omega) _ o, ld_w x7 7 (by omega) _ o, ld_w x7 8 (by omega) _ o]
  unfold bodyS
  refine Eq.trans ?_ (Cert.LibSums.sum9 (fun p => bodyT x0 x1 x2 x3 x4 x5 x6 x7 o ⟨c0 + r.val, by omega⟩ w p) (Ideal.ofBits .f32 0x00000000#32))
  exact (add_congr (add_congr (add_congr (add_congr (add_congr (add_congr (add_congr (add_congr (add_congr rfl (bodyT_at x0 x1 x2 x3 x4 x5 x6 x7 c0 hc o r w 0 (by omega)).symm) (bodyT_at x0 x1 x2 x3 x4 x5 x6 x7 c0 hc o r w 1 (by omega)).symm) (bodyT_at x0 x1 x2 x3 x4 x5 x6 x7 c0 hc o r w 2 (by omega)).symm) (bodyT_at x0 x1 x2 x3 x4 x5 x6 x7 c0 hc o r w 3 (by omega)).symm) (bodyT_at x0 x1 x2 x3 x4 x5 x6 x7 c0 hc o r w 4 (by omega)).symm) (bodyT_at x0 x1 x2 x3 x4 x5 x6 x7 c0 hc o r w 5 (by omega)).symm) (bodyT_at x0 x1 x2 x3 x4 x5 x6 x7 c0 hc o r w 6 (by omega)).symm) (bodyT_at x0 x1 x2 x3 x4 x5 x6 x7 c0 hc o r w 7 (by omega)).symm) (bodyT_at x0 x1 x2 x3 x4 x5 x6 x7 c0 hc o r w 8 (by omega)).symm)

end Cert.KernelIdeal.Chunk

end
-- ==== Proof.KBlock.lean ====
/-
  The whole output block after the body as ONE function of its index: whichever of the four row chunks covers a
  position, the chunk's store holds the output block's function there.
-/
import proofs.«114282_j52390011076755_2_alg».proof.Proof.KBody

noncomputable section

namespace Cert.KernelIdeal.Chunk

open Cert.KernelIdeal Cert.KernelIdeal.Gen Idealize.ShloMosaic Idealize.ShloMosaic.ValueIdx

/-- A chunk's store, read at any of its positions, is the output block's function at the position the chunk's rectangle puts it. -/
theorem piece_at (x0 : Vec Ideal S1x12x258x258 .f32) (x1 : Vec Ideal S12x12 .f32) (x2 : Vec Ideal S12x1x1 .f32) (x3 : Vec Ideal S12x12 .f32) (x4 : Vec Ideal S12x1x1 .f32) (x5 : Vec Ideal S12x12 .f32) (x6 : Vec Ideal S12x1x1 .f32) (x7 : Vec Ideal S9x12x1x1 .f32) (c0 : ℕ) (hc : c0 + 66 ≤ 258) (hc' : c0 + 64 ≤ 256)
    (inbX : ∀ a, (![0, 0, c0, 0] : Fin 4 → ℕ) a + S1x12x66x258.size a ≤ S1x12x258x258.size a)
    (inbO : ∀ a, (![0, 0, c0, 0] : Fin 4 → ℕ) a + S1x12x64x256.size a ≤ S1x12x256x256.size a) (x : S1x12x64x256.Idx) :
    chunkV (View.ld x0 (Rect.unit (s := S1x12x258x258) ![0, 0, c0, 0] S1x12x66x258.size inbX)) (View.ld x1 r0_1) (View.ld x2 r0_2) (View.ld x3 r0_1) (View.ld x4 r0_2)
        (View.ld x5 r0_1) (View.ld x6 r0_2) (View.ld x7 r0_3) (View.ld x7 r0_4) (View.ld x7 r0_5) (View.ld x7 r0_6) (View.ld x7 r0_7) (View.ld x7 r0_8) (View.ld x7 r0_9) (View.ld x7 r0_10) (View.ld x7 r0_11) x
      = bodyS x0 x1 x2 x3 x4 x5 x6 x7 ((Rect.unit (s := S1x12x256x256) ![0, 0, c0, 0] S1x12x64x256.size inbO).emb x 1)
          ((Rect.unit (s := S1x12x256x256) ![0, 0, c0, 0] S1x12x64x256.size inbO).emb x 2)
          ((Rect.unit (s := S1x12x256x256) ![0, 0, c0, 0] S1x12x64x256.size inbO).emb x 3) := by
  obtain ⟨u, o, r, w, rfl⟩ : ∃ (u : Fin 1) (o : Fin 12) (r : Fin 64) (w : Fin 256), x = ix4 u o r w := ⟨x 0, x 1, x 2, x 3, eq_ix4 x⟩
  rw [chunkV_apply]
  refine (chunk_at x0 x1 x2 x3 x4 x5 x6 x7 c0 hc inbX o r w).trans ?_
  have e1 : ((Rect.unit (s := S1x12x256x256) ![0, 0, c0, 0] S1x12x64x256.size inbO).emb (ix4 u o r w) 1 : Fin 12) = o :=
    Fin.ext (by show 0 + 1 * o.val = o.val; omega)
  have e2 : ((Rect.unit (s := S1x12x256x256) ![0, 0, c0, 0] S1x12x64x256.size inbO).emb (ix4 u o r w) 2 : Fin 256) = (⟨c0 + r.val, by omega⟩ : Fin 256) :=
    Fin.ext (by show c0 + 1 * r.val = c0 + r.val; omega)
  have e3 : ((Rect.unit (s := S1x12x256x256) ![0, 0, c0, 0] S1x12x64x256.size inbO).emb (ix4 u o r w) 3 : Fin 256) = w :=
    Fin.ext (by show 0 + 1 * w.val = w.val; omega)
  rw [e1, e2, e3]

/-- The output block after the body, at every index. -/
theorem out0_8_apply (x0 : Vec Ideal S1x12x258x258 .f32) (x1 : Vec Ideal S12x12 .f32) (x2 : Vec Ideal S12x1x1 .f32) (x3 : Vec Ideal S12x12 .f32) (x4 : Vec Ideal S12x1x1 .f32) (x5 : Vec Ideal S12x12 .f32) (x6 : Vec Ideal S12x1x1 .f32) (x7 : Vec Ideal S9x12x1x1 .f32) (y : S1x12x256x256.Idx) :
    out0_8 x0 x1 x2 x3 x4 x5 x6 x7 y = bodyS x0 x1 x2 x3 x4 x5 x6 x7 (y 1) (y 2) (y 3) := by
  rw [out0_8_eq]
  refine View.canon_apply_of_pieces (Val := Elt Ideal) (S := S1x12x256x256) (e := .f32) (fun y => bodyS x0 x1 x2 x3 x4 x5 x6 x7 (y 1) (y 2) (y 3)) _ ?_ y (cover0_8 _ _ _ _ y)
  intro p hp x
  rcases List.mem_cons.mp hp with rfl | hp
  · exact piece_at x0 x1 x2 x3 x4 x5 x6 x7 192 (by omega) (by omega) inb_S1x12x258x258_S1x12x66x258_0_0_192_0 inb_S1x12x256x256_S1x12x64x256_0_0_192_0 x
  rcases List.mem_cons.mp hp with rfl | hp
  · exact piece_at x0 x1 x2 x3 x4 x5 x6 x7 128 (by omega) (by omega) inb_S1x12x258x258_S1x12x66x258_0_0_128_0 inb_S1x12x256x256_S1x12x64x256_0_0_128_0 x
  rcases List.mem_cons.mp hp with rfl | hp
  · exact piece_at x0 x1 x2 x3 x4 x5 x6 x7 64 (by omega) (by omega) inb_S1x12x258x258_S1x12x66x258_0_0_64_0 inb_S1x12x256x256_S1x12x64x256_0_0_64_0 x
  rcases List.mem_cons.mp hp with rfl | hp
  · exact piece_at x0 x1 x2 x3 x4 x5 x6 x7 0 (by omega) (by omega) inb_S1x12x258x258_S1x12x66x258_0_0_0_0 inb_S1x12x256x256_S1x12x64x256_0_0_0_0 x
  · exact absurd hp List.not_mem_nil

end Cert.KernelIdeal.Chunk

end
-- ==== Proof.Spec.lean ====
/-
  The mathematics both programs compute, stated once, index by index, over the extended reals.

  The image `x` (4 × 3 × 512 × 512) is zero-padded by two pixels on each side and cut into 2 × 2 patches: the padded
  image in patch coordinates is `Y` (4 × 3 × 258 × 2 × 258 × 2). A patch's twelve entries (channel, row in the patch,
  column in the patch) are one channel axis of extent 12 (`chan`). At every patch position three affine maps of those
  twelve entries are taken (rows 0–11, 12–23, 24–35 of `W`, with the matching entries of `B`): a query, a key, a value
  (`lin`). The result at an inner patch position is the sum over its 3 × 3 neighbourhood of
  query(centre) · one · key(neighbour) · weight(neighbour, place in the patch) · value(neighbour), entry by entry, started from
  the zero word (`att`); it is laid back out as an image and added to `x` (`result`).
-/
import Idealize.ShloMosaic.PureOps.Ideal
import Idealize.ShloMosaic.Lib.ValueIdx
import Idealize.ShloMosaic.Lib.ValueIdxRank6

noncomputable section

namespace Cert.Attn

open Idealize.ShloMosaic Idealize.ShloMosaic.ValueIdx

abbrev SX : Shape := ⟨4, ![4, 3, 512, 512]⟩
abbrev SY : Shape := ⟨6, ![4, 3, 258, 2, 258, 2]⟩
abbrev SW : Shape := ⟨2, ![36, 12]⟩
abbrev SB : Shape := ⟨1, ![36]⟩
abbrev SO : Shape := ⟨6, ![4, 3, 256, 2, 256, 2]⟩

/-- The folded channel of (image channel, row in the patch, column in the patch). -/
def chan (c : Fin 3) (i j : Fin 2) : Fin 12 := ⟨c.val * 4 + i.val * 2 + j.val, by omega⟩
/-- Its three components back. -/
def chanC (k : Fin 12) : Fin 3 := ⟨k.val / 4, by omega⟩
def chanI (k : Fin 12) : Fin 2 := ⟨k.val / 2 % 2, by omega⟩
def chanJ (k : Fin 12) : Fin 2 := ⟨k.val % 2, by omega⟩
/-- Row `o` of the `s`-th of the three stacked maps (query, key, value). -/
def row (s : Fin 3) (o : Fin 12) : Fin 36 := ⟨s.val * 12 + o.val, by omega⟩

/-- The nine neighbours' weights at the four places of a patch, as words: e⁻², e⁻¹ and 1 rounded to single precision. -/
abbrev biasLit : Fin 36 → BitVec 32 := fun
  | 0 => 0x3E0A9555#32 | 1 => 0x3EBC5AB2#32 | 2 => 0x3EBC5AB2#32 | 3 => 0x3F800000#32 | 4 => 0x3EBC5AB2#32 | 5 => 0x3EBC5AB2#32 | 6 => 0x3F800000#32 | 7 => 0x3F800000#32
  | 8 => 0x3EBC5AB2#32 | 9 => 0x3E0A9555#32 | 10 => 0x3F800000#32 | 11 => 0x3EBC5AB2#32 | 12 => 0x3EBC5AB2#32 | 13 => 0x3F800000#32 | 14 => 0x3EBC5AB2#32 | 15 => 0x3F800000#32
  | 16 => 0x3F800000#32 | 17 => 0x3F800000#32 | 18 => 0x3F800000#32 | 19 => 0x3F800000#32 | 20 => 0x3F800000#32 | 21 => 0x3EBC5AB2#32 | 22 => 0x3F800000#32 | 23 => 0x3EBC5AB2#32
  | 24 => 0x3EBC5AB2#32 | 25 => 0x3F800000#32 | 26 => 0x3E0A9555#32 | 27 => 0x3EBC5AB2#32 | 28 => 0x3F800000#32 | 29 => 0x3F800000#32 | 30 => 0x3EBC5AB2#32 | 31 => 0x3EBC5AB2#32
  | 32 => 0x3F800000#32 | 33 => 0x3EBC5AB2#32 | 34 => 0x3EBC5AB2#32 | 35 => 0x3E0A9555#32
  | _ => 0#32

/-- Neighbour `p`'s weight on folded channel `o`: it depends on the place in the patch only (`o % 4`). -/
def bias (p : Fin 9) (o : Fin 12) : EReal := Ideal.ofBits .f32 (biasLit ⟨p.val * 4 + o.val % 4, by omega⟩)

/-- The `s`-th affine map of the patch at (`gh`, `gw`) of image `b`, output channel `o`. -/
def lin (Y : SY.Idx → EReal) (W : SW.Idx → EReal) (B : SB.Idx → EReal) (s : Fin 3) (b : Fin 4) (gh gw : Fin 258) (o : Fin 12) : EReal :=
  (∑ k : Fin 12, Y (ix6 b (chanC k) gh (chanI k) gw (chanJ k)) * W (ix2 (row s o) k)) + B (ix1 (row s o))

/-- The windowed product sum at inner patch (`h`, `w`): neighbour `p` sits `p / 3` rows and `p % 3` columns from the window's corner,
    the centre is neighbour 4. -/
def att (Y : SY.Idx → EReal) (W : SW.Idx → EReal) (B : SB.Idx → EReal) (b : Fin 4) (h w : Fin 256) (o : Fin 12) : EReal :=
  Ideal.ofBits .f32 0x00000000#32 + ∑ p : Fin 9,
    (((lin Y W B 0 b ⟨h.val + 1, by omega⟩ ⟨w.val + 1, by omega⟩ o * Ideal.ofBits .f32 0x3F800000#32)
        * lin Y W B 1 b ⟨h.val + p.val / 3, by omega⟩ ⟨w.val + p.val % 3, by omega⟩ o) * bias p o)
      * lin Y W B 2 b ⟨h.val + p.val / 3, by omega⟩ ⟨w.val + p.val % 3, by omega⟩ o

/-- The same, laid out by (image, channel, patch row, row in the patch, patch column, column in the patch). -/
def out6 (Y : SY.Idx → EReal) (W : SW.Idx → EReal) (B : SB.Idx → EReal) : SO.Idx → EReal :=
  fun j => att Y W B (j 0) (j 2) (j 4) (chan (j 1) (j 3) (j 5))

theorem out6_apply (Y : SY.Idx → EReal) (W : SW.Idx → EReal) (B : SB.Idx → EReal) (b : Fin 4) (c : Fin 3) (h : Fin 256) (i : Fin 2) (w : Fin 256) (j : Fin 2) :
    out6 Y W B (ix6 b c h i w j) = att Y W B b h w (chan c i j) := rfl

end Cert.Attn

end
-- ==== Proof.KHost.lean ====
/-
  The kernel program's host side at the ideal instance: what the arrays staged by the one region hold when the region
  is entered, read index by index over the launched arguments. The image arrives zero-padded by two pixels, cut into
  2 × 2 patches and with a patch's (channel, row, column) folded into one channel axis of extent 12; the three blocks of
  twelve rows of the stacked weights and offsets arrive as separate arrays; the neighbours' weights are a constant.
-/
import proofs.«114282_j52390011076755_2_alg».proof.Proof.Gen.KernelIdeal.Frame
import proofs.«114282_j52390011076755_2_alg».proof.Proof.Spec
import Idealize.ShloMosaic.Lib.Pipeline.Value
import Idealize.ShloMosaic.Lib.ValueIdx
import Idealize.ShloMosaic.Lib.ValueIdxRank6
import Idealize.ShloMosaic.Lib.StableHlo.Run

noncomputable section

namespace Cert.KernelIdeal.KHost

open Cert.KernelIdeal Cert.KernelIdeal.Gen Cert.Attn Idealize.ShloMosaic Idealize.ShloMosaic.ValueIdx
open Idealize.ShloMosaic.StableHlo

variable (m : (ℓ : Loc nD τ sig) → Buf (Elt Ideal) ℓ) (c : Dev nD)

abbrev X0 := m ((c.tc : Thread nD τ).loc main_arg0)
abbrev W0 := m ((c.tc : Thread nD τ).loc main_arg1)
abbrev B0 := m ((c.tc : Thread nD τ).loc main_arg2)

/-- the zero-padded image in patch coordinates, the kernel program's own spelling of it -/
def ypadK (x : FVec Ideal S4x3x512x512 .f32) : FVec Ideal S4x3x258x2x258x2 .f32 :=
  shapeCast S4x3x258x2x258x2 (pad S4x3x516x516 ![0, 0, 2, 2] ![0, 0, 2, 2] ![0, 0, 0, 0] x (sitofp (F := Ideal) .f32 (constantI S_ 32 0#32)) pads_S4x3x512x512_S4x3x516x516_000_000_220_220 h_S_) shapeCasts_S4x3x516x516_S4x3x258x2x258x2

/-! ## What the arrays hold when the region is entered, as terms over the launched arguments -/

local macro "host_read" : tactic =>
  `(tactic| (dsimp only [Gen.V, Gen.V0]
             simp only [Gen.hostOps0, Gen.hostOps0_1, Gen.hostOps0_2, List.flatten_cons, List.flatten_nil, List.append_nil,
               List.cons_append, List.nil_append]
             after_results
             try rfl))

theorem V_x_eq : (V m c main_v3 : S4x12x258x258.Idx → EReal)
    = fun i => shapeCast S4x12x258x258 (transpose S4x3x2x2x258x258 [0, 1, 3, 5, 2, 4] (fun i' => ypadK (X0 m c) i')
        transposes_S4x3x258x2x258x2_S4x3x2x2x258x258_0_1_3_5_2_4) shapeCasts_S4x3x2x2x258x258_S4x12x258x258 i := by
  host_read

theorem V_wq_eq : (V m c main_v4 : S12x12.Idx → EReal) = extractStridedSlice S12x12 ![0, 0] (W0 m c) slices_S36x12_S12x12_0_0 := by
  host_read
theorem V_wk_eq : (V m c main_v5 : S12x12.Idx → EReal) = extractStridedSlice S12x12 ![12, 0] (W0 m c) slices_S36x12_S12x12_12_0 := by
  host_read
theorem V_wv_eq : (V m c main_v6 : S12x12.Idx → EReal) = extractStridedSlice S12x12 ![24, 0] (W0 m c) slices_S36x12_S12x12_24_0 := by
  host_read
theorem V_bq_eq : (V m c main_v8 : S12x1x1.Idx → EReal)
    = shapeCast S12x1x1 (extractStridedSlice S12 ![0] (B0 m c) slices_S36_S12_0) shapeCasts_S12_S12x1x1 := by
  host_read
theorem V_bk_eq : (V m c main_v10 : S12x1x1.Idx → EReal)
    = shapeCast S12x1x1 (extractStridedSlice S12 ![12] (B0 m c) slices_S36_S12_12) shapeCasts_S12_S12x1x1 := by
  host_read
theorem V_bv_eq : (V m c main_v12 : S12x1x1.Idx → EReal)
    = shapeCast S12x1x1 (extractStridedSlice S12 ![24] (B0 m c) slices_S36_S12_24) shapeCasts_S12_S12x1x1 := by
  host_read
theorem V_bias_eq : (V m c main_cst : S9x12x1x1.Idx → EReal)
    = fun i => Ideal.ofBits .f32 (lit0 (S9x12x1x1.rowMajor i)) := by
  host_read

/-! ## The same, index by index -/

/-- The image as the region finds it: the padded image in patch coordinates, the patch's three coordinates folded
    into one channel. The reshape reads the index with the same row-major position, the transpose moves the two
    in-patch coordinates in front of the two patch coordinates. -/
theorem V_x (b : Fin 4) (k : Fin 12) (gh gw : Fin 258) :
    (V m c main_v3 : S4x12x258x258.Idx → EReal) (ix4 b k gh gw) = ypadK (X0 m c) (ix6 b (chanC k) gh (chanI k) gw (chanJ k)) := by
  refine (congrFun (V_x_eq m c) _).trans ?_
  refine (shapeCast_apply _ _ (ix4 b k gh gw) (ix6 b (chanC k) (chanI k) (chanJ k) gh gw) ?_).trans ?_
  · rw [Shape.rowMajor_val_six, Shape.rowMajor_val_four]
    show ((((b.val * 3 + k.val / 4) * 2 + k.val / 2 % 2) * 2 + k.val % 2) * 258 + gh.val) * 258 + gw.val
      = ((b.val * 12 + k.val) * 258 + gh.val) * 258 + gw.val
    omega
  · exact transpose_apply _ _ _ (ix6 b (chanC k) (chanI k) (chanJ k) gh gw) (ix6 b (chanC k) gh (chanI k) gw (chanJ k))
      (fun a => match a with
        | ⟨0, _⟩ => rfl | ⟨1, _⟩ => rfl | ⟨2, _⟩ => rfl | ⟨3, _⟩ => rfl | ⟨4, _⟩ => rfl | ⟨5, _⟩ => rfl)

/-- A block of twelve rows of the stacked weights. -/
theorem V_wq (o k : Fin 12) : (V m c main_v4 : S12x12.Idx → EReal) (ix2 o k) = W0 m c (ix2 (row 0 o) k) := by
  refine (congrFun (V_wq_eq m c) _).trans ?_
  exact extractStridedSlice_apply _ _ _ (ix2 o k) (ix2 (row 0 o) k)
    (fun a => match a with
      | ⟨0, _⟩ => by show 0 * 12 + o.val = 0 + o.val; omega
      | ⟨1, _⟩ => by show k.val = 0 + k.val; omega)
theorem V_wk (o k : Fin 12) : (V m c main_v5 : S12x12.Idx → EReal) (ix2 o k) = W0 m c (ix2 (row 1 o) k) := by
  refine (congrFun (V_wk_eq m c) _).trans ?_
  exact extractStridedSlice_apply _ _ _ (ix2 o k) (ix2 (row 1 o) k)
    (fun a => match a with
      | ⟨0, _⟩ => by show 1 * 12 + o.val = 12 + o.val; omega
      | ⟨1, _⟩ => by show k.val = 0 + k.val; omega)
theorem V_wv (o k : Fin 12) : (V m c main_v6 : S12x12.Idx → EReal) (ix2 o k) = W0 m c (ix2 (row 2 o) k) := by
  refine (congrFun (V_wv_eq m c) _).trans ?_
  exact extractStridedSlice_apply _ _ _ (ix2 o k) (ix2 (row 2 o) k)
    (fun a => match a with
      | ⟨0, _⟩ => by show 2 * 12 + o.val = 24 + o.val; omega
      | ⟨1, _⟩ => by show k.val = 0 + k.val; omega)

/-- Twelve entries of the stacked offsets, as a column. -/
theorem V_bq (o : Fin 12) : (V m c main_v8 : S12x1x1.Idx → EReal) (ix3 o 0 0) = B0 m c (ix1 (row 0 o)) := by
  refine (congrFun (V_bq_eq m c) _).trans ?_
  refine (shapeCast_apply _ _ (ix3 o 0 0) (ix1 o) ?_).trans ?_
  · rw [Shape.rowMajor_val_one, Shape.rowMajor_val_three]
    show o.val = (o.val * 1 + 0) * 1 + 0
    omega
  · exact extractStridedSlice_apply _ _ _ (ix1 o) (ix1 (row 0 o))
      (fun a => match a with | ⟨0, _⟩ => by show 0 * 12 + o.val = 0 + o.val; omega)
theorem V_bk (o : Fin 12) : (V m c main_v10 : S12x1x1.Idx → EReal) (ix3 o 0 0) = B0 m c (ix1 (row 1 o)) := by
  refine (congrFun (V_bk_eq m c) _).trans ?_
  refine (shapeCast_apply _ _ (ix3 o 0 0) (ix1 o) ?_).trans ?_
  · rw [Shape.rowMajor_val_one, Shape.rowMajor_val_three]
    show o.val = (o.val * 1 + 0) * 1 + 0
    omega
  · exact extractStridedSlice_apply _ _ _ (ix1 o) (ix1 (row 1 o))
      (fun a => match a with | ⟨0, _⟩ => by show 1 * 12 + o.val = 12 + o.val; omega)
theorem V_bv (o : Fin 12) : (V m c main_v12 : S12x1x1.Idx → EReal) (ix3 o 0 0) = B0 m c (ix1 (row 2 o)) := by
  refine (congrFun (V_bv_eq m c) _).trans ?_
  refine (shapeCast_apply _ _ (ix3 o 0 0) (ix1 o) ?_).trans ?_
  · rw [Shape.rowMajor_val_one, Shape.rowMajor_val_three]
    show o.val = (o.val * 1 + 0) * 1 + 0
    omega
  · exact extractStridedSlice_apply _ _ _ (ix1 o) (ix1 (row 2 o))
      (fun a => match a with | ⟨0, _⟩ => by show 2 * 12 + o.val = 24 + o.val; omega)

/-- The constant's 108 words, nine neighbours by twelve channels, repeat with period four along the channel. -/
theorem lit0_eq_biasLit : ∀ (p : Fin 9) (o : Fin 12),
    lit0 ⟨p.val * 12 + o.val, by omega⟩ = biasLit ⟨p.val * 4 + o.val % 4, by omega⟩ := by
  decide

/-- The neighbours' weights as the region finds them. -/
theorem V_bias (p : Fin 9) (o : Fin 12) : (V m c main_cst : S9x12x1x1.Idx → EReal) (ix4 p o 0 0) = bias p o := by
  refine (congrFun (V_bias_eq m c) _).trans ?_
  have hlt : p.val * 12 + o.val < 108 := by omega
  have e : S9x12x1x1.rowMajor (ix4 p o 0 0) = (⟨p.val * 12 + o.val, hlt⟩ : Fin 108) := by
    apply Fin.ext
    rw [Shape.rowMajor_val_four]
    show ((p.val * 12 + o.val) * 1 + 0) * 1 + 0 = p.val * 12 + o.val
    omega
  exact (congrArg (fun x => Ideal.ofBits .f32 (lit0 x)) e).trans (congrArg (Ideal.ofBits .f32) (lit0_eq_biasLit p o))

end Cert.KernelIdeal.KHost

end
-- ==== Proof.KFlush.lean ====
/-
  From the body's blocks to the region's output array: at grid point `t` the body's output block is image `t` of one
  function of the whole output index, and the four blocks cover the array.
-/
import proofs.«114282_j52390011076755_2_alg».proof.Proof.KBlock
import proofs.«114282_j52390011076755_2_alg».proof.Proof.Spec
import proofs.«114282_j52390011076755_2_alg».proof.Proof.KHost
import Idealize.ShloMosaic.Lib.Pipeline.Value

noncomputable section

namespace Cert.KernelIdeal.KValue

open Cert.KernelIdeal Cert.KernelIdeal.Gen Cert.KernelIdeal.Chunk Cert.KernelIdeal.KHost Cert.Attn
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The output array of the region as one function of its index: image, folded channel, patch row, patch column. -/
def G8 (Y : SY.Idx → EReal) (W : SW.Idx → EReal) (B : SB.Idx → EReal) : S4x12x256x256.Idx → EReal :=
  fun i => att Y W B (i 0) (i 2) (i 3) (i 1)

/-- The grid point as an image number. -/
def img (t : Fin cfg0.N) : Fin 4 := Fin.cast (show cfg0.N = 4 from N_0) t

/-- The index maps, decided over the four grid points: the image block and the output block move with the point along the
    first axis; every other block is the whole array. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 3) = 0 ∧ win0_6.index t (1 : Fin 3) = 0 ∧ win0_6.index t (2 : Fin 3) = 0)
    ∧ (win0_7.index t (0 : Fin 4) = 0 ∧ win0_7.index t (1 : Fin 4) = 0 ∧ win0_7.index t (2 : Fin 4) = 0 ∧ win0_7.index t (3 : Fin 4) = 0)
    ∧ (win0_8.index t (0 : Fin 4) = t.val ∧ win0_8.index t (1 : Fin 4) = 0 ∧ win0_8.index t (2 : Fin 4) = 0 ∧ win0_8.index t (3 : Fin 4) = 0) :=
  (by decide +kernel : ∀ t : Fin grid0.N, _)

/-- Block reads: at point `t` the image window's block is image `t`; every other input window's block is its whole array. -/
theorem read0 (A : S4x12x258x258.Idx → EReal) (t : Fin cfg0.N) (k : Fin 12) (gh gw : Fin 258) :
    ((cfg0.win 0).blk t).view.read (Elt Ideal) A (ix4 0 k gh gw) = A (ix4 (img t) k gh gw) := by
  obtain ⟨⟨e0, e1, e2, e3⟩, -⟩ := idx_facts t
  have hemb : ((cfg0.win 0).blk t).view.emb (ix4 0 k gh gw) = (ix4 (img t) k gh gw : S4x12x258x258.Idx) := by
    funext a; apply Fin.ext
    match a with
    | ⟨0, _⟩ => show win0_0.index t (0 : Fin 4) * 1 + 1 * 0 = t.val; omega
    | ⟨1, _⟩ => show win0_0.index t (1 : Fin 4) * 12 + 1 * k.val = k.val; omega
    | ⟨2, _⟩ => show win0_0.index t (2 : Fin 4) * 258 + 1 * gh.val = gh.val; omega
    | ⟨3, _⟩ => show win0_0.index t (3 : Fin 4) * 258 + 1 * gw.val = gw.val; omega
  show A (((cfg0.win 0).blk t).view.emb (ix4 0 k gh gw)) = _
  rw [hemb]

theorem read1 (A : S12x12.Idx → EReal) (t : Fin cfg0.N) (o k : Fin 12) :
    ((cfg0.win 1).blk t).view.read (Elt Ideal) A (ix2 o k) = A (ix2 o k) := by
  obtain ⟨-, ⟨e0, e1⟩, -⟩ := idx_facts t
  have hemb : ((cfg0.win 1).blk t).view.emb (ix2 o k) = (ix2 o k : S12x12.Idx) := by
    funext a; apply Fin.ext
    match a with
    | ⟨0, _⟩ => show win0_1.index t (0 : Fin 2) * 12 + 1 * o.val = o.val; omega
    | ⟨1, _⟩ => show win0_1.index t (1 : Fin 2) * 12 + 1 * k.val = k.val; omega
  show A (((cfg0.win 1).blk t).view.emb (ix2 o k)) = _
  rw [hemb]

theorem read3 (A : S12x12.Idx → EReal) (t : Fin cfg0.N) (o k : Fin 12) :
    ((cfg0.win 3).blk t).view.read (Elt Ideal) A (ix2 o k) = A (ix2 o k) := by
  obtain ⟨-, -, -, ⟨e0, e1⟩, -⟩ := idx_facts t
  have hemb : ((cfg0.win 3).blk t).view.emb (ix2 o k) = (ix2 o k : S12x12.Idx) := by
    funext a; apply Fin.ext
    match a with
    | ⟨0, _⟩ => show win0_3.index t (0 : Fin 2) * 12 + 1 * o.val = o.val; omega
    | ⟨1, _⟩ => show win0_3.index t (1 : Fin 2) * 12 + 1 * k.val = k.val; omega
  show A (((cfg0.win 3).blk t).view.emb (ix2 o k)) = _
  rw [hemb]

theorem read5 (A : S12x12.Idx → EReal) (t : Fin cfg0.N) (o k : Fin 12) :
    ((cfg0.win 5).blk t).view.read (Elt Ideal) A (ix2 o k) = A (ix2 o k) := by
  obtain ⟨-, -, -, -, -, ⟨e0, e1⟩, -⟩ := idx_facts t
  have hemb : ((cfg0.win 5).blk t).view.emb (ix2 o k) = (ix2 o k : S12x12.Idx) := by
    funext a; apply Fin.ext
    match a with
    | ⟨0, _⟩ => show win0_5.index t (0 : Fin 2) * 12 + 1 * o.val = o.val; omega
    | ⟨1, _⟩ => show win0_5.index t (1 : Fin 2) * 12 + 1 * k.val = k.val; omega
  show A (((cfg0.win 5).blk t).view.emb (ix2 o k)) = _
  rw [hemb]

theorem read2 (A : S12x1x1.Idx → EReal) (t : Fin cfg0.N) (o : Fin 12) :
    ((cfg0.win 2).blk t).view.read (Elt Ideal) A (ix3 o 0 0) = A (ix3 o 0 0) := by
  obtain ⟨-, -, ⟨e0, e1, e2⟩, -⟩ := idx_facts t
  have hemb : ((cfg0.win 2).blk t).view.emb (ix3 o 0 0) = (ix3 o 0 0 : S12x1x1.Idx) := by
    funext a; apply Fin.ext
    match a with
    | ⟨0, _⟩ => show win0_2.index t (0 : Fin 3) * 12 + 1 * o.val = o.val; omega
    | ⟨1, _⟩ => show win0_2.index t (1 : Fin 3) * 1 + 1 * 0 = 0; omega
    | ⟨2, _⟩ => show win0_2.index t (2 : Fin 3) * 1 + 1 * 0 = 0; omega
  show A (((cfg0.win 2).blk t).view.emb (ix3 o 0 0)) = _
  rw [hemb]

theorem read4 (A : S12x1x1.Idx → EReal) (t : Fin cfg0.N) (o : Fin 12) :
    ((cfg0.win 4).blk t).view.read (Elt Ideal) A (ix3 o 0 0) = A (ix3 o 0 0) := by
  obtain ⟨-, -, -, -, ⟨e0, e1, e2⟩, -⟩ := idx_facts t
  have hemb : ((cfg0.win 4).blk t).view.emb (ix3 o 0 0) = (ix3 o 0 0 : S12x1x1.Idx) := by
    funext a; apply Fin.ext
    match a with
    | ⟨0, _⟩ => show win0_4.index t (0 : Fin 3) * 12 + 1 * o.val = o.val; omega
    | ⟨1, _⟩ => show win0_4.index t (1 : Fin 3) * 1 + 1 * 0 = 0; omega
    | ⟨2, _⟩ => show win0_4.index t (2 : Fin 3) * 1 + 1 * 0 = 0; omega
  show A (((cfg0.win 4).blk t).view.emb (ix3 o 0 0)) = _
  rw [hemb]

theorem read6 (A : S12x1x1.Idx → EReal) (t : Fin cfg0.N) (o : Fin 12) :
    ((cfg0.win 6).blk t).view.read (Elt Ideal) A (ix3 o 0 0) = A (ix3 o 0 0) := by
  obtain ⟨-, -, -, -, -, -, ⟨e0, e1, e2⟩, -⟩ := idx_facts t
  have hemb : ((cfg0.win 6).blk t).view.emb (ix3 o 0 0) = (ix3 o 0 0 : S12x1x1.Idx) := by
    funext a; apply Fin.ext
    match a with
    | ⟨0, _⟩ => show win0_6.index t (0 : Fin 3) * 12 + 1 * o.val = o.val; omega
    | ⟨1, _⟩ => show win0_6.index t (1 : Fin 3) * 1 + 1 * 0 = 0; omega
    | ⟨2, _⟩ => show win0_6.index t (2 : Fin 3) * 1 + 1 * 0 = 0; omega
  show A (((cfg0.win 6).blk t).view.emb (ix3 o 0 0)) = _
  rw [hemb]

theorem read7 (A : S9x12x1x1.Idx → EReal) (t : Fin cfg0.N) (p : Fin 9) (o : Fin 12) :
    ((cfg0.win 7).blk t).view.read (Elt Ideal) A (ix4 p o 0 0) = A (ix4 p o 0 0) := by
  obtain ⟨-, -, -, -, -, -, -, ⟨e0, e1, e2, e3⟩, -⟩ := idx_facts t
  have hemb : ((cfg0.win 7).blk t).view.emb (ix4 p o 0 0) = (ix4 p o 0 0 : S9x12x1x1.Idx) := by
    funext a; apply Fin.ext
    match a with
    | ⟨0, _⟩ => show win0_7.index t (0 : Fin 4) * 9 + 1 * p.val = p.val; omega
    | ⟨1, _⟩ => show win0_7.index t (1 : Fin 4) * 12 + 1 * o.val = o.val; omega
    | ⟨2, _⟩ => show win0_7.index t (2 : Fin 4) * 1 + 1 * 0 = 0; omega
    | ⟨3, _⟩ => show win0_7.index t (3 : Fin 4) * 1 + 1 * 0 = 0; omega
  show A (((cfg0.win 7).blk t).view.emb (ix4 p o 0 0)) = _
  rw [hemb]

theorem iblk0_apply (c : Dev nD) (t : Fin cfg0.N) (k : Fin 12) (gh gw : Fin 258) :
    iblk m c 0 t (ix4 0 k gh gw) = (V m c main_v3 : S4x12x258x258.Idx → EReal) (ix4 (img t) k gh gw) := read0 (V m c main_v3) t k gh gw
theorem iblk7_apply (c : Dev nD) (t : Fin cfg0.N) (p : Fin 9) (o : Fin 12) :
    iblk m c 7 t (ix4 p o 0 0) = (V m c main_cst : S9x12x1x1.Idx → EReal) (ix4 p o 0 0) := read7 (V m c main_cst) t p o
theorem iblk1_apply (c : Dev nD) (t : Fin cfg0.N) (o k : Fin 12) :
    iblk m c 1 t (ix2 o k) = (V m c main_v4 : S12x12.Idx → EReal) (ix2 o k) := read1 (V m c main_v4) t o k
theorem iblk3_apply (c : Dev nD) (t : Fin cfg0.N) (o k : Fin 12) :
    iblk m c 3 t (ix2 o k) = (V m c main_v5 : S12x12.Idx → EReal) (ix2 o k) := read3 (V m c main_v5) t o k
theorem iblk5_apply (c : Dev nD) (t : Fin cfg0.N) (o k : Fin 12) :
    iblk m c 5 t (ix2 o k) = (V m c main_v6 : S12x12.Idx → EReal) (ix2 o k) := read5 (V m c main_v6) t o k
theorem iblk2_apply (c : Dev nD) (t : Fin cfg0.N) (o : Fin 12) :
    iblk m c 2 t (ix3 o 0 0) = (V m c main_v8 : S12x1x1.Idx → EReal) (ix3 o 0 0) := read2 (V m c main_v8) t o
theorem iblk4_apply (c : Dev nD) (t : Fin cfg0.N) (o : Fin 12) :
    iblk m c 4 t (ix3 o 0 0) = (V m c main_v10 : S12x1x1.Idx → EReal) (ix3 o 0 0) := read4 (V m c main_v10) t o
theorem iblk6_apply (c : Dev nD) (t : Fin cfg0.N) (o : Fin 12) :
    iblk m c 6 t (ix3 o 0 0) = (V m c main_v12 : S12x1x1.Idx → EReal) (ix3 o 0 0) := read6 (V m c main_v12) t o

/-- Map 0 of the blocks at point `t` is map 0 of image `t` of the padded image. -/
theorem linB_blk0 (c : Dev nD) (t : Fin cfg0.N) (gh gw : Fin 258) (o : Fin 12) :
    linB (iblk m c 0 t) (iblk m c 1 t) (iblk m c 2 t) gh gw o = lin (ypadK (X0 m c)) (W0 m c) (B0 m c) 0 (img t) gh gw o := by
  unfold linB lin
  refine congrArg₂ (fun a b : EReal => a + b) (Finset.sum_congr rfl fun k _ => ?_) ?_
  · rw [iblk0_apply, V_x, iblk1_apply, V_wq]
  · rw [iblk2_apply, V_bq]

/-- Map 1 of the blocks at point `t` is map 1 of image `t` of the padded image. -/
theorem linB_blk1 (c : Dev nD) (t : Fin cfg0.N) (gh gw : Fin 258) (o : Fin 12) :
    linB (iblk m c 0 t) (iblk m c 3 t) (iblk m c 4 t) gh gw o = lin (ypadK (X0 m c)) (W0 m c) (B0 m c) 1 (img t) gh gw o := by
  unfold linB lin
  refine congrArg₂ (fun a b : EReal => a + b) (Finset.sum_congr rfl fun k _ => ?_) ?_
  · rw [iblk0_apply, V_x, iblk3_apply, V_wk]
  · rw [iblk4_apply, V_bk]

/-- Map 2 of the blocks at point `t` is map 2 of image `t` of the padded image. -/
theorem linB_blk2 (c : Dev nD) (t : Fin cfg0.N) (gh gw : Fin 258) (o : Fin 12) :
    linB (iblk m c 0 t) (iblk m c 5 t) (iblk m c 6 t) gh gw o = lin (ypadK (X0 m c)) (W0 m c) (B0 m c) 2 (img t) gh gw o := by
  unfold linB lin
  refine congrArg₂ (fun a b : EReal => a + b) (Finset.sum_congr rfl fun k _ => ?_) ?_
  · rw [iblk0_apply, V_x, iblk5_apply, V_wv]
  · rw [iblk6_apply, V_bv]

/-- WHAT POINT `t` WRITES BACK is block `t` of the output function of the argument arrays. -/
theorem flushed8_eq (c : Dev nD) (t : Fin cfg0.N) :
    (dats m 0 c).flushed 8 t = ((cfg0.win 8).blk t).view.read (Elt Ideal) (G8 (ypadK (X0 m c)) (W0 m c) (B0 m c)) := by
  show (cfg0.win 8).cut (grid0.coords t) ((dats m 0 c).after 8 t) = _
  rw [after0_8]
  obtain ⟨-, -, -, -, -, -, -, -, ⟨e0, e1, e2, e3⟩⟩ := idx_facts t
  funext y
  show out0_8 (iblk m c 0 t) (iblk m c 1 t) (iblk m c 2 t) (iblk m c 3 t) (iblk m c 4 t) (iblk m c 5 t) (iblk m c 6 t) (iblk m c 7 t) y
    = G8 (ypadK (X0 m c)) (W0 m c) (B0 m c) (((cfg0.win 8).blk t).view.emb y)
  refine (out0_8_apply (iblk m c 0 t) (iblk m c 1 t) (iblk m c 2 t) (iblk m c 3 t) (iblk m c 4 t) (iblk m c 5 t) (iblk m c 6 t) (iblk m c 7 t) y).trans ?_
  have h0 : ((((cfg0.win 8).blk t).view.emb y) 0 : Fin 4) = img t := Fin.ext (by
    show win0_8.index t (0 : Fin 4) * 1 + 1 * (y 0).val = t.val
    have hy : (y 0).val < 1 := (y 0).isLt
    omega)
  have h1 : ((((cfg0.win 8).blk t).view.emb y) 1 : Fin 12) = y 1 := Fin.ext (by
    show win0_8.index t (1 : Fin 4) * 12 + 1 * (y 1).val = (y 1).val; omega)
  have h2 : ((((cfg0.win 8).blk t).view.emb y) 2 : Fin 256) = y 2 := Fin.ext (by
    show win0_8.index t (2 : Fin 4) * 256 + 1 * (y 2).val = (y 2).val; omega)
  have h3 : ((((cfg0.win 8).blk t).view.emb y) 3 : Fin 256) = y 3 := Fin.ext (by
    show win0_8.index t (3 : Fin 4) * 256 + 1 * (y 3).val = (y 3).val; omega)
  unfold G8
  rw [h0, h1, h2, h3]
  unfold bodyS att
  refine congrArg _ (Finset.sum_congr rfl fun p _ => ?_)
  unfold bodyT
  exact congrArg₂ (fun a b : EReal => a * b)
    (congrArg₂ (fun a b : EReal => a * b)
      (congrArg₂ (fun a b : EReal => a * b)
        (congrArg (fun a : EReal => a * Ideal.ofBits .f32 0x3F800000#32) (linB_blk0 m c t _ _ _))
        (linB_blk1 m c t _ _ _))
      ((iblk7_apply m c t p _).trans (V_bias m c p _)))
    (linB_blk2 m c t _ _ _)

/-- An index of the output array is in point `t`'s block iff each coordinate is in the block's range on its axis. -/
theorem mem_blk8 (t : Fin cfg0.N) (i : S4x12x256x256.Idx) :
    i ∈ ((cfg0.win 8).blk t).view.set ↔ ∀ a : Fin 4, win0_8.index t a * S1x12x256x256.size a ≤ (i a).val ∧ (i a).val < win0_8.index t a * S1x12x256x256.size a + S1x12x256x256.size a := by
  show i ∈ ((View.whole main_v13).slice (win0_8.rect t)).set ↔ _
  rw [View.set_slice_whole, Rect.mem_set_unit]
  exact Iff.rfl

/-- Every index of the output array is in the block of the point with its image number. -/
theorem cover8 (i : S4x12x256x256.Idx) : ∃ t : Fin cfg0.N, (cfg0.win 8).flush t = true ∧ i ∈ ((cfg0.win 8).blk t).view.set := by
  have hi1 : (i 1).val < 12 := (i 1).isLt
  have hi2 : (i 2).val < 256 := (i 2).isLt
  have hi3 : (i 3).val < 256 := (i 3).isLt
  obtain ⟨t, ht⟩ : ∃ t : Fin cfg0.N, t.val = (i 0).val := ⟨Fin.cast (show cfg0.N = 4 from N_0).symm (i 0), rfl⟩
  obtain ⟨-, -, -, -, -, -, -, -, ⟨e0, e1, e2, e3⟩⟩ := idx_facts t
  refine ⟨t, flush0_8 t, ?_⟩
  rw [mem_blk8]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 12 ≤ (i 1).val ∧ (i 1).val < win0_8.index t (1 : Fin 4) * 12 + 12; omega
  | ⟨2, _⟩ => show win0_8.index t (2 : Fin 4) * 256 ≤ (i 2).val ∧ (i 2).val < win0_8.index t (2 : Fin 4) * 256 + 256; omega
  | ⟨3, _⟩ => show win0_8.index t (3 : Fin 4) * 256 ≤ (i 3).val ∧ (i 3).val < win0_8.index t (3 : Fin 4) * 256 + 256; omega

/-- THE OUTPUT ARRAY after the region. -/
theorem final8 (c : Dev nD) : (dats m 0 c).arrAt 8 cfg0.N = G8 (ypadK (X0 m c)) (W0 m c) (B0 m c) :=
  (dats m 0 c).arrAt_eq_of_cover 8 (G8 (ypadK (X0 m c)) (W0 m c) (B0 m c)) (fun t _ => flushed8_eq m c t) cover8

end Cert.KernelIdeal.KValue

end
-- ==== Proof.KTail.lean ====
/-
  The host operations after the region, read as one term: the output array of the region, with its twelve folded
  channels unfolded into (channel, row in the patch, column in the patch), laid back out as an image, and added to
  the image the program was launched with. And that layout read at an index: entry (image, channel, patch row, row in
  the patch, patch column, column in the patch) is the region's output at (image, folded channel, patch row, patch
  column).
-/
import proofs.«114282_j52390011076755_2_alg».proof.Proof.Gen.KernelIdeal.Frame
import proofs.«114282_j52390011076755_2_alg».proof.Proof.Spec
import Idealize.ShloMosaic.Lib.ValueIdx
import Idealize.ShloMosaic.Lib.ValueIdxRank6
import Idealize.ShloMosaic.Lib.Pipeline.Value
import Idealize.ShloMosaic.Lib.Pipeline.FrameSuffix
import Idealize.ShloMosaic.Lib.StableHlo.Run

noncomputable section

namespace Cert.KernelIdeal.KTail

open Cert.KernelIdeal Cert.KernelIdeal.Gen Cert.Attn Idealize.ShloMosaic Idealize.ShloMosaic.ValueIdx Idealize.SL.Sem

variable (m : (ℓ : Loc nD τ sig) → Buf (Elt Ideal) ℓ) (c : Dev nD)

/-- The unfolded and permuted output read at an index: the folded channel is channel · 4 + row · 2 + column. -/
theorem fold_apply (A : S4x12x256x256.Idx → EReal) (b : Fin 4) (ch : Fin 3) (h : Fin 256) (i : Fin 2) (w : Fin 256) (j : Fin 2) :
    (transpose S4x3x256x2x256x2 [0, 1, 4, 2, 5, 3] (shapeCast S4x3x2x2x256x256 A shapeCasts_S4x12x256x256_S4x3x2x2x256x256)
        transposes_S4x3x2x2x256x256_S4x3x256x2x256x2_0_1_4_2_5_3 : S4x3x256x2x256x2.Idx → EReal) (ix6 b ch h i w j)
      = A (ix4 b (chan ch i j) h w) := by
  refine (transpose_apply _ _ _ (ix6 b ch h i w j) (ix6 b ch i j h w) ?_).trans ?_
  · intro a
    match a with
    | ⟨0, _⟩ => rfl | ⟨1, _⟩ => rfl | ⟨2, _⟩ => rfl | ⟨3, _⟩ => rfl | ⟨4, _⟩ => rfl | ⟨5, _⟩ => rfl
  · refine shapeCast_apply _ _ (ix6 b ch i j h w) (ix4 b (chan ch i j) h w) ?_
    rw [Shape.rowMajor_val_four, Shape.rowMajor_val_six]
    show ((b.val * 12 + (ch.val * 4 + i.val * 2 + j.val)) * 256 + h.val) * 256 + w.val
      = ((((b.val * 3 + ch.val) * 2 + i.val) * 2 + j.val) * 256 + h.val) * 256 + w.val
    omega

/-- What the result buffer holds after the host operations that follow the region. -/
theorem tail_eq :
    Pipeline.afterTail₀ cfgs (dats m) 0 (V0 m) [hostOps1] c main_v17
      = addf (F := Ideal) (s := S4x3x512x512) (φ := .f32) (m ((c.tc : Thread nD τ).loc main_arg0)) (shapeCast S4x3x512x512 (transpose S4x3x256x2x256x2 [0, 1, 4, 2, 5, 3]
          (shapeCast S4x3x2x2x256x256 ((dats m 0 c).arrAt 8 cfg0.N) shapeCasts_S4x12x256x256_S4x3x2x2x256x256)
          transposes_S4x3x2x2x256x256_S4x3x256x2x256x2_0_1_4_2_5_3) shapeCasts_S4x3x256x2x256x2_S4x3x512x512) := by
  unfold Pipeline.afterTail₀
  show StableHlo.after hostOps1 _ (Proc.devRef .tc main_v17) = _
  after_results
  rw [Pipeline.withArrays_arr spec0 launch0.win.arr_inj c _ _ 8,
    Pipeline.withArrays_of_ne _ c (V0 m c) _ main_arg0 (by exact (by decide : ∀ w, Pipeline.arrRef spec0 w ≠ main_arg0))]
  rw [show V0 m c (Proc.devRef .tc main_arg0) = m ((c.tc : Thread nD τ).loc main_arg0) from V_main_arg0 m c]
  rfl

end Cert.KernelIdeal.KTail

end
-- ==== Proof.KRun.lean ====
/-
  The kernel program's run at the ideal instance, read back: after every weakly fair execution the result buffer holds
  the launched image plus the specification's windowed product sum of the padded image, laid back out as an image, and
  the three argument buffers are as launched. The region's output array is the product sum at (image, folded channel,
  patch row, patch column); the host operations after the region unfold the channel and permute the axes, which is the
  specification's own layout.
-/
import proofs.«114282_j52390011076755_2_alg».proof.Proof.KFlush
import proofs.«114282_j52390011076755_2_alg».proof.Proof.KTail
import proofs.«114282_j52390011076755_2_alg».proof.Proof.KHost
import proofs.«114282_j52390011076755_2_alg».proof.Proof.Spec

noncomputable section

namespace Cert.KernelIdeal.KValue

open Cert.KernelIdeal Cert.KernelIdeal.Gen Cert.KernelIdeal.KHost Cert.Attn Idealize.ShloMosaic Idealize.ShloMosaic.ValueIdx
open Idealize.SL.Sem

variable (m : (ℓ : Loc nD τ sig) → Buf (Elt Ideal) ℓ) (ρ : Dev nD → PrngReg)

/-- The region's output with its folded channel unfolded and its axes permuted is the specification's layout of the
    windowed product sum. -/
theorem unfold_eq (Y : Cert.Attn.SY.Idx → EReal) (W : Cert.Attn.SW.Idx → EReal) (B : Cert.Attn.SB.Idx → EReal) :
    (transpose S4x3x256x2x256x2 [0, 1, 4, 2, 5, 3] (shapeCast S4x3x2x2x256x256 (G8 Y W B) shapeCasts_S4x12x256x256_S4x3x2x2x256x256)
        transposes_S4x3x2x2x256x256_S4x3x256x2x256x2_0_1_4_2_5_3 : S4x3x256x2x256x2.Idx → EReal) = Cert.Attn.out6 Y W B := by
  funext j
  obtain ⟨b, ch, h, i, w, jj, rfl⟩ : ∃ (b : Fin 4) (ch : Fin 3) (h : Fin 256) (i : Fin 2) (w : Fin 256) (jj : Fin 2),
      j = ix6 b ch h i w jj := ⟨_, _, _, _, _, _, eq_ix6 j⟩
  rw [KTail.fold_apply, Cert.Attn.out6_apply]
  rfl

/-- Every weakly fair execution of the program terminates with the result buffer at the image plus the laid-out
    windowed product sum, and the argument buffers as launched. -/
theorem run : θ_run defs (onTc (τ := τ) (main (F := Ideal))) ⟨m, fun _ => 0, ρ⟩ fun r => ∀ c : Dev nD,
      r.2.mem ((c.tc : Thread nD τ).loc main_v17)
        = addf (F := Ideal) (s := S4x3x512x512) (φ := .f32) (X0 m c) (shapeCast S4x3x512x512 (Cert.Attn.out6 (ypadK (X0 m c)) (W0 m c) (B0 m c)) shapeCasts_S4x3x256x2x256x2_S4x3x512x512)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v17 (Pipeline.mem_restRefs_of main_v17 (by decide) (by decide))).trans
        ((KTail.tail_eq m c).trans (by rw [final8, unfold_eq])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RefTerm.lean ====
/-
  The reference's result as one pure term of its three argument arrays: its host operations composed in program order
  (the padded image cut into patches; the nine shifted views of the patch grid stacked; the stacked affine map; its three
  parts; the centre query; the products with the weights and the values; the sum over the nine neighbours; the layout
  back to an image; the residual sum).
-/
import proofs.«114282_j52390011076755_2_alg».proof.ReferenceIdeal

noncomputable section

namespace Cert.ReferenceIdeal.RefValue

open Cert.ReferenceIdeal Cert.ReferenceIdeal.Facts₀ Idealize.ShloMosaic

variable {F : FTy → Type} [FloatOps F] [Facts]

/-- The zero-padded image in patch coordinates. -/
def ypad (x : FVec F S4x3x512x512 .f32) : FVec F S4x3x258x2x258x2 .f32 :=
  shapeCast S4x3x258x2x258x2
    (pad S4x3x516x516 ![0, 0, 2, 2] ![0, 0, 2, 2] ![0, 0, 0, 0] x (sitofp (F := F) .f32 (constantI S_ 32 0#32))
      pads_S4x3x512x512_S4x3x516x516_000_000_220_220 h_S_)
    shapeCasts_S4x3x516x516_S4x3x258x2x258x2

/-- The patch grid: (image, patch row, patch column, channel, row in the patch, column in the patch). -/
def patches (Y : FVec F S4x3x258x2x258x2 .f32) : FVec F S4x258x258x3x2x2 .f32 :=
  transpose S4x258x258x3x2x2 [0, 2, 4, 1, 3, 5] Y transposes_S4x3x258x2x258x2_S4x258x258x3x2x2_0_2_4_1_3_5

/-- One shifted view of the patch grid, with a neighbour axis of extent one. -/
def view (P : FVec F S4x258x258x3x2x2 .f32) (off : Fin 6 → Nat) (h : S4x258x258x3x2x2.Slices off S4x256x256x3x2x2) :
    FVec F S4x256x256x1x3x2x2 .f32 :=
  broadcastInDim S4x256x256x1x3x2x2 ![0, 1, 2, 4, 5, 6] bcast_S4x256x256x3x2x2_S4x256x256x1x3x2x2_0_1_2_4_5_6
    (extractStridedSlice S4x256x256x3x2x2 off P h)

/-- The nine views stacked along the neighbour axis. -/
def nbrs (P : FVec F S4x258x258x3x2x2 .f32) : FVec F S4x256x256x9x3x2x2 .f32 :=
  concatenate S4x256x256x9x3x2x2 3
    [⟨S4x256x256x1x3x2x2, view P ![0, 0, 0, 0, 0, 0] slices_S4x258x258x3x2x2_S4x256x256x3x2x2_0_0_0_0_0_0⟩,
     ⟨S4x256x256x1x3x2x2, view P ![0, 0, 1, 0, 0, 0] slices_S4x258x258x3x2x2_S4x256x256x3x2x2_0_0_1_0_0_0⟩,
     ⟨S4x256x256x1x3x2x2, view P ![0, 0, 2, 0, 0, 0] slices_S4x258x258x3x2x2_S4x256x256x3x2x2_0_0_2_0_0_0⟩,
     ⟨S4x256x256x1x3x2x2, view P ![0, 1, 0, 0, 0, 0] slices_S4x258x258x3x2x2_S4x256x256x3x2x2_0_1_0_0_0_0⟩,
     ⟨S4x256x256x1x3x2x2, view P ![0, 1, 1, 0, 0, 0] slices_S4x258x258x3x2x2_S4x256x256x3x2x2_0_1_1_0_0_0⟩,
     ⟨S4x256x256x1x3x2x2, view P ![0, 1, 2, 0, 0, 0] slices_S4x258x258x3x2x2_S4x256x256x3x2x2_0_1_2_0_0_0⟩,
     ⟨S4x256x256x1x3x2x2, view P ![0, 2, 0, 0, 0, 0] slices_S4x258x258x3x2x2_S4x256x256x3x2x2_0_2_0_0_0_0⟩,
     ⟨S4x256x256x1x3x2x2, view P ![0, 2, 1, 0, 0, 0] slices_S4x258x258x3x2x2_S4x256x256x3x2x2_0_2_1_0_0_0⟩,
     ⟨S4x256x256x1x3x2x2, view P ![0, 2, 2, 0, 0, 0] slices_S4x258x258x3x2x2_S4x256x256x3x2x2_0_2_2_0_0_0⟩]
    concatenates_S4x256x256x1x3x2x2_S4x256x256x1x3x2x2_S4x256x256x1x3x2x2_S4x256x256x1x3x2x2_S4x256x256x1x3x2x2_S4x256x256x1x3x2x2_S4x256x256x1x3x2x2_S4x256x256x1x3x2x2_S4x256x256x1x3x2x2_S4x256x256x9x3x2x2_d3

/-- The stacked affine map of every neighbour's twelve entries, as (…, neighbour, map, channel, row, column). -/
def qkv (N : FVec F S4x256x256x9x3x2x2 .f32) (W : FVec F S36x12 .f32) (B : FVec F S36 .f32) : FVec F S4x256x256x9x3x3x2x2 .f32 :=
  shapeCast S4x256x256x9x3x3x2x2
    (addf
      (Host.dotGeneral dot_S4x256x256x9x12_S36x12_S4x256x256x9x36_4_1_0123_0_n_n none
        (shapeCast S4x256x256x9x12 N shapeCasts_S4x256x256x9x3x2x2_S4x256x256x9x12) W)
      (broadcastInDim S4x256x256x9x36 ![0, 1, 2, 3, 4] bcast_S1x1x1x1x36_S4x256x256x9x36_0_1_2_3_4
        (broadcastInDim S1x1x1x1x36 ![4] bcast_S36_S1x1x1x1x36_4 B)))
    shapeCasts_S4x256x256x9x36_S4x256x256x9x3x3x2x2

/-- One of the three maps' values. -/
def part (A : FVec F S4x256x256x9x3x3x2x2 .f32) (off : Fin 8 → Nat) (h : S4x256x256x9x3x3x2x2.Slices off S4x256x256x9x1x3x2x2) :
    FVec F S4x256x256x9x3x2x2 .f32 :=
  shapeCast S4x256x256x9x3x2x2 (extractStridedSlice S4x256x256x9x1x3x2x2 off A h) shapeCasts_S4x256x256x9x1x3x2x2_S4x256x256x9x3x2x2

/-- The centre neighbour's query, times the unit scale. -/
def coreQ (Qs : FVec F S4x256x256x9x3x2x2 .f32) : FVec F S4x256x256x3x2x2 .f32 :=
  mulf
    (shapeCast S4x256x256x3x2x2
      (extractStridedSlice S4x256x256x1x3x2x2 ![0, 0, 0, 4, 0, 0, 0] Qs slices_S4x256x256x9x3x2x2_S4x256x256x1x3x2x2_0_0_0_4_0_0_0)
      shapeCasts_S4x256x256x1x3x2x2_S4x256x256x3x2x2)
    (broadcastInDim S4x256x256x3x2x2 ![] bcast_S_S4x256x256x3x2x2 (constant (F := F) S_ .f32 0x3F800000#32))

/-- The nine weights at the four places of a patch. -/
def weights : FVec F S9x2x2 .f32 := fun i => FloatOps.ofBits .f32 (lit0 (S9x2x2.rowMajor i))

/-- Query · key · weight · value, neighbour by neighbour. -/
def prods (A : FVec F S4x256x256x9x3x3x2x2 .f32) : FVec F S4x256x256x9x3x2x2 .f32 :=
  mulf
    (mulf
      (mulf
        (broadcastInDim S4x256x256x9x3x2x2 ![0, 1, 2, 3, 4, 5, 6] bcast_S4x256x256x1x3x2x2_S4x256x256x9x3x2x2_0_1_2_3_4_5_6
          (broadcastInDim S4x256x256x1x3x2x2 ![0, 1, 2, 4, 5, 6] bcast_S4x256x256x3x2x2_S4x256x256x1x3x2x2_0_1_2_4_5_6
            (coreQ (part A ![0, 0, 0, 0, 0, 0, 0, 0] slices_S4x256x256x9x3x3x2x2_S4x256x256x9x1x3x2x2_0_0_0_0_0_0_0_0))))
        (part A ![0, 0, 0, 0, 1, 0, 0, 0] slices_S4x256x256x9x3x3x2x2_S4x256x256x9x1x3x2x2_0_0_0_0_1_0_0_0))
      (broadcastInDim S4x256x256x9x3x2x2 ![0, 1, 2, 3, 4, 5, 6] bcast_S1x1x1x9x1x2x2_S4x256x256x9x3x2x2_0_1_2_3_4_5_6
        (broadcastInDim S1x1x1x9x1x2x2 ![3, 4, 5, 6] bcast_S9x1x2x2_S1x1x1x9x1x2x2_3_4_5_6
          (broadcastInDim S9x1x2x2 ![0, 2, 3] bcast_S9x2x2_S9x1x2x2_0_2_3 (weights (F := F))))))
    (part A ![0, 0, 0, 0, 2, 0, 0, 0] slices_S4x256x256x9x3x3x2x2_S4x256x256x9x1x3x2x2_0_0_0_0_2_0_0_0)

/-- The sum over the nine neighbours, laid out as (image, channel, patch row, row in the patch, patch column, column in the patch). -/
def summed (A : FVec F S4x256x256x9x3x3x2x2 .f32) : FVec F S4x3x256x2x256x2 .f32 :=
  transpose S4x3x256x2x256x2 [0, 3, 1, 4, 2, 5]
    (Host.reduceAdd (prods A) (constant (F := F) S_ .f32 0x00000000#32) reducesTo_S4x256x256x9x3x2x2_S4x256x256x3x2x2_d3 h_S_)
    transposes_S4x256x256x3x2x2_S4x3x256x2x256x2_0_3_1_4_2_5

/-- The reference's result. -/
def refOut (x : FVec F S4x3x512x512 .f32) (W : FVec F S36x12 .f32) (B : FVec F S36 .f32) : FVec F S4x3x512x512 .f32 :=
  addf x (shapeCast S4x3x512x512 (summed (qkv (nbrs (patches (ypad x))) W B)) shapeCasts_S4x3x256x2x256x2_S4x3x512x512)

end Cert.ReferenceIdeal.RefValue

end
-- ==== Proof.RefRun.lean ====
/-
  The reference program's run, read back. Its entry function is a straight line of host operations once the
  padding function it calls is unfolded at the call: that function's two operations (the integer zero converted to a
  float, the padding of the image with it) take their place in the line over the call's own buffers. From any
  memory with zero counters every weakly fair execution then terminates; the result buffer holds the
  operations' composition `refOut` of the three argument arrays, and the arguments are unchanged.
-/
import proofs.«114282_j52390011076755_2_alg».proof.Proof.RefTerm
import proofs.«114282_j52390011076755_2_alg».proof.Proof.Gen.ReferenceIdeal
import Idealize.ShloMosaic.Lib.StableHlo.Run

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable {F : FTy → Type} [FloatOps F]

/-- The entry function's operations in order, the call to the padding function replaced by that function's two
    operations over the call's buffers. -/
abbrev ops : List (HloOp τ sig (Elt F)) :=
  [ StableHlo.nullary main_cst (fun i => FloatOps.ofBits .f32 (lit0 (S9x2x2.rowMajor i))),
    StableHlo.nullary main_c (constantI S_ 32 0#32),
    StableHlo.TRef.unary (.of main_c : StableHlo.TRef sig ⟨S_, .i32⟩) main_call0.v0 (sitofp .f32),
    StableHlo.TRef.binary (.of main_arg0 : StableHlo.TRef sig ⟨S4x3x512x512, .f32⟩) main_call0.v0 main_call0.v1 (fun x v => pad S4x3x516x516 ![0, 0, 2, 2] ![0, 0, 2, 2] ![0, 0, 0, 0] x v pads_S4x3x512x512_S4x3x516x516_000_000_220_220 h_S_),
    StableHlo.reshape main_v0 main_v1 rfl shapeCasts_S4x3x516x516_S4x3x258x2x258x2,
    StableHlo.unary main_v1 main_v2 ((transpose S4x258x258x3x2x2 [0, 2, 4, 1, 3, 5] · transposes_S4x3x258x2x258x2_S4x258x258x3x2x2_0_2_4_1_3_5) : (⟨S4x3x258x2x258x2, .f32⟩ : BufTy).Contents (Elt F) → (⟨S4x258x258x3x2x2, .f32⟩ : BufTy).Contents (Elt F)),
    StableHlo.unary main_v2 main_v3 ((extractStridedSlice S4x256x256x3x2x2 ![0, 0, 0, 0, 0, 0] · slices_S4x258x258x3x2x2_S4x256x256x3x2x2_0_0_0_0_0_0) : (⟨S4x258x258x3x2x2, .f32⟩ : BufTy).Contents (Elt F) → (⟨S4x256x256x3x2x2, .f32⟩ : BufTy).Contents (Elt F)),
    StableHlo.unary main_v2 main_v4 ((extractStridedSlice S4x256x256x3x2x2 ![0, 0, 1, 0, 0, 0] · slices_S4x258x258x3x2x2_S4x256x256x3x2x2_0_0_1_0_0_0) : (⟨S4x258x258x3x2x2, .f32⟩ : BufTy).Contents (Elt F) → (⟨S4x256x256x3x2x2, .f32⟩ : BufTy).Contents (Elt F)),
    StableHlo.unary main_v2 main_v5 ((extractStridedSlice S4x256x256x3x2x2 ![0, 0, 2, 0, 0, 0] · slices_S4x258x258x3x2x2_S4x256x256x3x2x2_0_0_2_0_0_0) : (⟨S4x258x258x3x2x2, .f32⟩ : BufTy).Contents (Elt F) → (⟨S4x256x256x3x2x2, .f32⟩ : BufTy).Contents (Elt F)),
    StableHlo.unary main_v2 main_v6 ((extractStridedSlice S4x256x256x3x2x2 ![0, 1, 0, 0, 0, 0] · slices_S4x258x258x3x2x2_S4x256x256x3x2x2_0_1_0_0_0_0) : (⟨S4x258x258x3x2x2, .f32⟩ : BufTy).Contents (Elt F) → (⟨S4x256x256x3x2x2, .f32⟩ : BufTy).Contents (Elt F)),
    StableHlo.unary main_v2 main_v7 ((extractStridedSlice S4x256x256x3x2x2 ![0, 1, 1, 0, 0, 0] · slices_S4x258x258x3x2x2_S4x256x256x3x2x2_0_1_1_0_0_0) : (⟨S4x258x258x3x2x2, .f32⟩ : BufTy).Contents (Elt F) → (⟨S4x256x256x3x2x2, .f32⟩ : BufTy).Contents (Elt F)),
    StableHlo.unary main_v2 main_v8 ((extractStridedSlice S4x256x256x3x2x2 ![0, 1, 2, 0, 0, 0] · slices_S4x258x258x3x2x2_S4x256x256x3x2x2_0_1_2_0_0_0) : (⟨S4x258x258x3x2x2, .f32⟩ : BufTy).Contents (Elt F) → (⟨S4x256x256x3x2x2, .f32⟩ : BufTy).Contents (Elt F)),
    StableHlo.unary main_v2 main_v9 ((extractStridedSlice S4x256x256x3x2x2 ![0, 2, 0, 0, 0, 0] · slices_S4x258x258x3x2x2_S4x256x256x3x2x2_0_2_0_0_0_0) : (⟨S4x258x258x3x2x2, .f32⟩ : BufTy).Contents (Elt F) → (⟨S4x256x256x3x2x2, .f32⟩ : BufTy).Contents (Elt F)),
    StableHlo.unary main_v2 main_v10 ((extractStridedSlice S4x256x256x3x2x2 ![0, 2, 1, 0, 0, 0] · slices_S4x258x258x3x2x2_S4x256x256x3x2x2_0_2_1_0_0_0) : (⟨S4x258x258x3x2x2, .f32⟩ : BufTy).Contents (Elt F) → (⟨S4x256x256x3x2x2, .f32⟩ : BufTy).Contents (Elt F)),
    StableHlo.unary main_v2 main_v11 ((extractStridedSlice S4x256x256x3x2x2 ![0, 2, 2, 0, 0, 0] · slices_S4x258x258x3x2x2_S4x256x256x3x2x2_0_2_2_0_0_0) : (⟨S4x258x258x3x2x2, .f32⟩ : BufTy).Contents (Elt F) → (⟨S4x256x256x3x2x2, .f32⟩ : BufTy).Contents (Elt F)),
    StableHlo.unary main_v3 main_v12 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v4 main_v13 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v5 main_v14 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v6 main_v15 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v7 main_v16 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v8 main_v17 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v9 main_v18 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v10 main_v19 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v11 main_v20 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.nary ![main_v12, main_v13, main_v14, main_v15, main_v16, main_v17, main_v18, main_v19, main_v20] main_v21 (fun u => concatenate S4x256x256x9x3x2x2 3 [⟨S4x256x256x1x3x2x2, u 0⟩, ⟨S4x256x256x1x3x2x2, u 1⟩, ⟨S4x256x256x1x3x2x2, u 2⟩, ⟨S4x256x256x1x3x2x2, u 3⟩, ⟨S4x256x256x1x3x2x2, u 4⟩, ⟨S4x256x256x1x3x2x2, u 5⟩, ⟨S4x256x256x1x3x2x2, u 6⟩, ⟨S4x256x256x1x3x2x2, u 7⟩, ⟨S4x256x256x1x3x2x2, u 8⟩] concatenates_S4x256x256x1x3x2x2_S4x256x256x1x3x2x2_S4x256x256x1x3x2x2_S4x256x256x1x3x2x2_S4x256x256x1x3x2x2_S4x256x256x1x3x2x2_S4x256x256x1x3x2x2_S4x256x256x1x3x2x2_S4x256x256x1x3x2x2_S4x256x256x9x3x2x2_d3),
    StableHlo.reshape main_v21 main_v22 rfl shapeCasts_S4x256x256x9x3x2x2_S4x256x256x9x12,
    StableHlo.binary main_v22 main_arg1 main_v23 ((fun l r => Host.dotGeneral dot_S4x256x256x9x12_S36x12_S4x256x256x9x36_4_1_0123_0_n_n none l r) : (⟨S4x256x256x9x12, .f32⟩ : BufTy).Contents (Elt F) → (⟨S36x12, .f32⟩ : BufTy).Contents (Elt F) → (⟨S4x256x256x9x36, .f32⟩ : BufTy).Contents (Elt F)),
    StableHlo.unary main_arg2 main_v24 (broadcastInDim S1x1x1x1x36 ![4] bcast_S36_S1x1x1x1x36_4 : (⟨S36, .f32⟩ : BufTy).Contents (Elt F) → (⟨S1x1x1x1x36, .f32⟩ : BufTy).Contents (Elt F)),
    StableHlo.unary main_v24 main_v25 (broadcastInDim S4x256x256x9x36 ![0, 1, 2, 3, 4] bcast_S1x1x1x1x36_S4x256x256x9x36_0_1_2_3_4 : (⟨S1x1x1x1x36, .f32⟩ : BufTy).Contents (Elt F) → (⟨S4x256x256x9x36, .f32⟩ : BufTy).Contents (Elt F)),
    StableHlo.binary main_v23 main_v25 main_v26 (addf : (⟨S4x256x256x9x36, .f32⟩ : BufTy).Contents (Elt F) → (⟨S4x256x256x9x36, .f32⟩ : BufTy).Contents (Elt F) → (⟨S4x256x256x9x36, .f32⟩ : BufTy).Contents (Elt F)),
    StableHlo.reshape main_v26 main_v27 rfl shapeCasts_S4x256x256x9x36_S4x256x256x9x3x3x2x2,
    StableHlo.unary main_v27 main_v28 ((extractStridedSlice S4x256x256x9x1x3x2x2 ![0, 0, 0, 0, 0, 0, 0, 0] · slices_S4x256x256x9x3x3x2x2_S4x256x256x9x1x3x2x2_0_0_0_0_0_0_0_0) : (⟨S4x256x256x9x3x3x2x2, .f32⟩ : BufTy).Contents (Elt F) → (⟨S4x256x256x9x1x3x2x2, .f32⟩ : BufTy).Contents (Elt F)),
    StableHlo.reshape main_v28 main_v29 rfl shapeCasts_S4x256x256x9x1x3x2x2_S4x256x256x9x3x2x2,
    StableHlo.unary main_v27 main_v30 ((extractStridedSlice S4x256x256x9x1x3x2x2 ![0, 0, 0, 0, 1, 0, 0, 0] · slices_S4x256x256x9x3x3x2x2_S4x256x256x9x1x3x2x2_0_0_0_0_1_0_0_0) : (⟨S4x256x256x9x3x3x2x2, .f32⟩ : BufTy).Contents (Elt F) → (⟨S4x256x256x9x1x3x2x2, .f32⟩ : BufTy).Contents (Elt F)),
    StableHlo.reshape main_v30 main_v31 rfl shapeCasts_S4x256x256x9x1x3x2x2_S4x256x256x9x3x2x2,
    StableHlo.unary main_v27 main_v32 ((extractStridedSlice S4x256x256x9x1x3x2x2 ![0, 0, 0, 0, 2, 0, 0, 0] · slices_S4x256x256x9x3x3x2x2_S4x256x256x9x1x3x2x2_0_0_0_0_2_0_0_0) : (⟨S4x256x256x9x3x3x2x2, .f32⟩ : BufTy).Contents (Elt F) → (⟨S4x256x256x9x1x3x2x2, .f32⟩ : BufTy).Contents (Elt F)),
    StableHlo.reshape main_v32 main_v33 rfl shapeCasts_S4x256x256x9x1x3x2x2_S4x256x256x9x3x2x2,
    StableHlo.unary main_v29 main_v34 ((extractStridedSlice S4x256x256x1x3x2x2 ![0, 0, 0, 4, 0, 0, 0] · slices_S4x256x256x9x3x2x2_S4x256x256x1x3x2x2_0_0_0_4_0_0_0) : (⟨S4x256x256x9x3x2x2, .f32⟩ : BufTy).Contents (Elt F) → (⟨S4x256x256x1x3x2x2, .f32⟩ : BufTy).Contents (Elt F)),
    StableHlo.reshape main_v34 main_v35 rfl shapeCasts_S4x256x256x1x3x2x2_S4x256x256x3x2x2,
    StableHlo.nullary main_cst_0 (constant S_ .f32 0x3F800000#32),
    StableHlo.unary main_cst_0 main_v36 (broadcastInDim S4x256x256x3x2x2 ![] bcast_S_S4x256x256x3x2x2 : (⟨S_, .f32⟩ : BufTy).Contents (Elt F) → (⟨S4x256x256x3x2x2, .f32⟩ : BufTy).Contents (Elt F)),
    StableHlo.binary main_v35 main_v36 main_v37 (mulf : (⟨S4x256x256x3x2x2, .f32⟩ : BufTy).Contents (Elt F) → (⟨S4x256x256x3x2x2, .f32⟩ : BufTy).Contents (Elt F) → (⟨S4x256x256x3x2x2, .f32⟩ : BufTy).Contents (Elt F)),
    StableHlo.unary main_v37 main_v38 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v38 main_v39 (broadcastInDim S4x256x256x9x3x2x2 ![0, 1, 2, 3, 4, 5, 6] bcast_S4x256x256x1x3x2x2_S4x256x256x9x3x2x2_0_1_2_3_4_5_6 : (⟨S4x256x256x1x3x2x2, .f32⟩ : BufTy).Contents (Elt F) → (⟨S4x256x256x9x3x2x2, .f32⟩ : BufTy).Contents (Elt F)),
    StableHlo.binary main_v39 main_v31 main_v40 (mulf : (⟨S4x256x256x9x3x2x2, .f32⟩ : BufTy).Contents (Elt F) → (⟨S4x256x256x9x3x2x2, .f32⟩ : BufTy).Contents (Elt F) → (⟨S4x256x256x9x3x2x2, .f32⟩ : BufTy).Contents (Elt F)),
    StableHlo.unary main_cst main_v41 (broadcastInDim S9x1x2x2 ![0, 2, 3] bcast_S9x2x2_S9x1x2x2_0_2_3 : (⟨S9x2x2, .f32⟩ : BufTy).Contents (Elt F) → (⟨S9x1x2x2, .f32⟩ : BufTy).Contents (Elt F)),
    StableHlo.unary main_v41 main_v42 (broadcastInDim S1x1x1x9x1x2x2 ![3, 4, 5, 6] bcast_S9x1x2x2_S1x1x1x9x1x2x2_3_4_5_6 : (⟨S9x1x2x2, .f32⟩ : BufTy).Contents (Elt F) → (⟨S1x1x1x9x1x2x2, .f32⟩ : BufTy).Contents (Elt F)),
    StableHlo.unary main_v42 main_v43 (broadcastInDim S4x256x256x9x3x2x2 ![0, 1, 2, 3, 4, 5, 6] bcast_S1x1x1x9x1x2x2_S4x256x256x9x3x2x2_0_1_2_3_4_5_6 : (⟨S1x1x1x9x1x2x2, .f32⟩ : BufTy).Contents (Elt F) → (⟨S4x256x256x9x3x2x2, .f32⟩ : BufTy).Contents (Elt F)),
    StableHlo.binary main_v40 main_v43 main_v44 (mulf : (⟨S4x256x256x9x3x2x2, .f32⟩ : BufTy).Contents (Elt F) → (⟨S4x256x256x9x3x2x2, .f32⟩ : BufTy).Contents (Elt F) → (⟨S4x256x256x9x3x2x2, .f32⟩ : BufTy).Contents (Elt F)),
    StableHlo.binary main_v44 main_v33 main_v45 (mulf : (⟨S4x256x256x9x3x2x2, .f32⟩ : BufTy).Contents (Elt F) → (⟨S4x256x256x9x3x2x2, .f32⟩ : BufTy).Contents (Elt F) → (⟨S4x256x256x9x3x2x2, .f32⟩ : BufTy).Contents (Elt F)),
    StableHlo.nullary main_cst_1 (constant S_ .f32 0x00000000#32),
    StableHlo.binary main_v45 main_cst_1 main_v46 ((fun x v => Host.reduceAdd x v reducesTo_S4x256x256x9x3x2x2_S4x256x256x3x2x2_d3 h_S_) : (⟨S4x256x256x9x3x2x2, .f32⟩ : BufTy).Contents (Elt F) → (⟨S_, .f32⟩ : BufTy).Contents (Elt F) → (⟨S4x256x256x3x2x2, .f32⟩ : BufTy).Contents (Elt F)),
    StableHlo.unary main_v46 main_v47 ((transpose S4x3x256x2x256x2 [0, 3, 1, 4, 2, 5] · transposes_S4x256x256x3x2x2_S4x3x256x2x256x2_0_3_1_4_2_5) : (⟨S4x256x256x3x2x2, .f32⟩ : BufTy).Contents (Elt F) → (⟨S4x3x256x2x256x2, .f32⟩ : BufTy).Contents (Elt F)),
    StableHlo.reshape main_v47 main_v48 rfl shapeCasts_S4x3x256x2x256x2_S4x3x512x512,
    StableHlo.binary main_arg0 main_v48 main_v49 (addf : (⟨S4x3x512x512, .f32⟩ : BufTy).Contents (Elt F) → (⟨S4x3x512x512, .f32⟩ : BufTy).Contents (Elt F) → (⟨S4x3x512x512, .f32⟩ : BufTy).Contents (Elt F)) ]

set_option maxRecDepth 4096 in
/-- The entry function is that straight line: the called function's definition unfolded at its call, both sides are one chain
    of steps once sequencing is reassociated. -/
theorem main_eq (c : Dev nD) : main (F := F) c = seq ops := by
  simp only [main, fn_pad.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., nullary_bufs_sub .., unary_bufs_sub .., binary_bufs_sub .., reshape_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    nary_bufs_sub .., reshape_bufs_sub .., binary_bufs_sub .., unary_bufs_sub .., unary_bufs_sub .., binary_bufs_sub ..,
    reshape_bufs_sub .., unary_bufs_sub .., reshape_bufs_sub .., unary_bufs_sub .., reshape_bufs_sub .., unary_bufs_sub ..,
    reshape_bufs_sub .., unary_bufs_sub .., reshape_bufs_sub .., nullary_bufs_sub .., unary_bufs_sub .., binary_bufs_sub ..,
    unary_bufs_sub .., unary_bufs_sub .., binary_bufs_sub .., unary_bufs_sub .., unary_bufs_sub .., unary_bufs_sub ..,
    binary_bufs_sub .., binary_bufs_sub .., nullary_bufs_sub .., binary_bufs_sub .., unary_bufs_sub .., reshape_bufs_sub ..,
    binary_bufs_sub ..⟩

/-! ## The line in stretches

The stretches follow the stages of `refOut`: the two constants; the padded image cut into patches; the nine shifted
views, then their stacking; the stacked affine map; the three parts, the products and their sum; the layout back and
the residual sum. Each stretch is read back on its own, over any contents before it; the whole line's fold is the stretches' folds composed. -/

abbrev seg1 : List (HloOp τ sig (Elt F)) :=
  [ StableHlo.nullary main_cst (fun i => FloatOps.ofBits .f32 (lit0 (S9x2x2.rowMajor i))),
    StableHlo.nullary main_c (constantI S_ 32 0#32) ]

abbrev seg2 : List (HloOp τ sig (Elt F)) :=
  [ StableHlo.TRef.unary (.of main_c : StableHlo.TRef sig ⟨S_, .i32⟩) main_call0.v0 (sitofp .f32),
    StableHlo.TRef.binary (.of main_arg0 : StableHlo.TRef sig ⟨S4x3x512x512, .f32⟩) main_call0.v0 main_call0.v1 (fun x v => pad S4x3x516x516 ![0, 0, 2, 2] ![0, 0, 2, 2] ![0, 0, 0, 0] x v pads_S4x3x512x512_S4x3x516x516_000_000_220_220 h_S_),
    StableHlo.reshape main_v0 main_v1 rfl shapeCasts_S4x3x516x516_S4x3x258x2x258x2,
    StableHlo.unary main_v1 main_v2 ((transpose S4x258x258x3x2x2 [0, 2, 4, 1, 3, 5] · transposes_S4x3x258x2x258x2_S4x258x258x3x2x2_0_2_4_1_3_5) : (⟨S4x3x258x2x258x2, .f32⟩ : BufTy).Contents (Elt F) → (⟨S4x258x258x3x2x2, .f32⟩ : BufTy).Contents (Elt F)) ]

abbrev seg3a : List (HloOp τ sig (Elt F)) :=
  [ StableHlo.unary main_v2 main_v3 ((extractStridedSlice S4x256x256x3x2x2 ![0, 0, 0, 0, 0, 0] · slices_S4x258x258x3x2x2_S4x256x256x3x2x2_0_0_0_0_0_0) : (⟨S4x258x258x3x2x2, .f32⟩ : BufTy).Contents (Elt F) → (⟨S4x256x256x3x2x2, .f32⟩ : BufTy).Contents (Elt F)),
    StableHlo.unary main_v2 main_v4 ((extractStridedSlice S4x256x256x3x2x2 ![0, 0, 1, 0, 0, 0] · slices_S4x258x258x3x2x2_S4x256x256x3x2x2_0_0_1_0_0_0) : (⟨S4x258x258x3x2x2, .f32⟩ : BufTy).Contents (Elt F) → (⟨S4x256x256x3x2x2, .f32⟩ : BufTy).Contents (Elt F)),
    StableHlo.unary main_v2 main_v5 ((extractStridedSlice S4x256x256x3x2x2 ![0, 0, 2, 0, 0, 0] · slices_S4x258x258x3x2x2_S4x256x256x3x2x2_0_0_2_0_0_0) : (⟨S4x258x258x3x2x2, .f32⟩ : BufTy).Contents (Elt F) → (⟨S4x256x256x3x2x2, .f32⟩ : BufTy).Contents (Elt F)),
    StableHlo.unary main_v2 main_v6 ((extractStridedSlice S4x256x256x3x2x2 ![0, 1, 0, 0, 0, 0] · slices_S4x258x258x3x2x2_S4x256x256x3x2x2_0_1_0_0_0_0) : (⟨S4x258x258x3x2x2, .f32⟩ : BufTy).Contents (Elt F) → (⟨S4x256x256x3x2x2, .f32⟩ : BufTy).Contents (Elt F)),
    StableHlo.unary main_v2 main_v7 ((extractStridedSlice S4x256x256x3x2x2 ![0, 1, 1, 0, 0, 0] · slices_S4x258x258x3x2x2_S4x256x256x3x2x2_0_1_1_0_0_0) : (⟨S4x258x258x3x2x2, .f32⟩ : BufTy).Contents (Elt F) → (⟨S4x256x256x3x2x2, .f32⟩ : BufTy).Contents (Elt F)),
    StableHlo.unary main_v2 main_v8 ((extractStridedSlice S4x256x256x3x2x2 ![0, 1, 2, 0, 0, 0] · slices_S4x258x258x3x2x2_S4x256x256x3x2x2_0_1_2_0_0_0) : (⟨S4x258x258x3x2x2, .f32⟩ : BufTy).Contents (Elt F) → (⟨S4x256x256x3x2x2, .f32⟩ : BufTy).Contents (Elt F)),
    StableHlo.unary main_v2 main_v9 ((extractStridedSlice S4x256x256x3x2x2 ![0, 2, 0, 0, 0, 0] · slices_S4x258x258x3x2x2_S4x256x256x3x2x2_0_2_0_0_0_0) : (⟨S4x258x258x3x2x2, .f32⟩ : BufTy).Contents (Elt F) → (⟨S4x256x256x3x2x2, .f32⟩ : BufTy).Contents (Elt F)),
    StableHlo.unary main_v2 main_v10 ((extractStridedSlice S4x256x256x3x2x2 ![0, 2, 1, 0, 0, 0] · slices_S4x258x258x3x2x2_S4x256x256x3x2x2_0_2_1_0_0_0) : (⟨S4x258x258x3x2x2, .f32⟩ : BufTy).Contents (Elt F) → (⟨S4x256x256x3x2x2, .f32⟩ : BufTy).Contents (Elt F)),
    StableHlo.unary main_v2 main_v11 ((extractStridedSlice S4x256x256x3x2x2 ![0, 2, 2, 0, 0, 0] · slices_S4x258x258x3x2x2_S4x256x256x3x2x2_0_2_2_0_0_0) : (⟨S4x258x258x3x2x2, .f32⟩ : BufTy).Contents (Elt F) → (⟨S4x256x256x3x2x2, .f32⟩ : BufTy).Contents (Elt F)),
    StableHlo.unary main_v3 main_v12 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v4 main_v13 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v5 main_v14 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v6 main_v15 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v7 main_v16 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v8 main_v17 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v9 main_v18 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v10 main_v19 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v11 main_v20 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)) ]

abbrev seg3b : List (HloOp τ sig (Elt F)) :=
  [ StableHlo.nary ![main_v12, main_v13, main_v14, main_v15, main_v16, main_v17, main_v18, main_v19, main_v20] main_v21 (fun u => concatenate S4x256x256x9x3x2x2 3 [⟨S4x256x256x1x3x2x2, u 0⟩, ⟨S4x256x256x1x3x2x2, u 1⟩, ⟨S4x256x256x1x3x2x2, u 2⟩, ⟨S4x256x256x1x3x2x2, u 3⟩, ⟨S4x256x256x1x3x2x2, u 4⟩, ⟨S4x256x256x1x3x2x2, u 5⟩, ⟨S4x256x256x1x3x2x2, u 6⟩, ⟨S4x256x256x1x3x2x2, u 7⟩, ⟨S4x256x256x1x3x2x2, u 8⟩] concatenates_S4x256x256x1x3x2x2_S4x256x256x1x3x2x2_S4x256x256x1x3x2x2_S4x256x256x1x3x2x2_S4x256x256x1x3x2x2_S4x256x256x1x3x2x2_S4x256x256x1x3x2x2_S4x256x256x1x3x2x2_S4x256x256x1x3x2x2_S4x256x256x9x3x2x2_d3) ]

abbrev seg4 : List (HloOp τ sig (Elt F)) :=
  [ StableHlo.reshape main_v21 main_v22 rfl shapeCasts_S4x256x256x9x3x2x2_S4x256x256x9x12,
    StableHlo.binary main_v22 main_arg1 main_v23 ((fun l r => Host.dotGeneral dot_S4x256x256x9x12_S36x12_S4x256x256x9x36_4_1_0123_0_n_n none l r) : (⟨S4x256x256x9x12, .f32⟩ : BufTy).Contents (Elt F) → (⟨S36x12, .f32⟩ : BufTy).Contents (Elt F) → (⟨S4x256x256x9x36, .f32⟩ : BufTy).Contents (Elt F)),
    StableHlo.unary main_arg2 main_v24 (broadcastInDim S1x1x1x1x36 ![4] bcast_S36_S1x1x1x1x36_4 : (⟨S36, .f32⟩ : BufTy).Contents (Elt F) → (⟨S1x1x1x1x36, .f32⟩ : BufTy).Contents (Elt F)),
    StableHlo.unary main_v24 main_v25 (broadcastInDim S4x256x256x9x36 ![0, 1, 2, 3, 4] bcast_S1x1x1x1x36_S4x256x256x9x36_0_1_2_3_4 : (⟨S1x1x1x1x36, .f32⟩ : BufTy).Contents (Elt F) → (⟨S4x256x256x9x36, .f32⟩ : BufTy).Contents (Elt F)),
    StableHlo.binary main_v23 main_v25 main_v26 (addf : (⟨S4x256x256x9x36, .f32⟩ : BufTy).Contents (Elt F) → (⟨S4x256x256x9x36, .f32⟩ : BufTy).Contents (Elt F) → (⟨S4x256x256x9x36, .f32⟩ : BufTy).Contents (Elt F)),
    StableHlo.reshape main_v26 main_v27 rfl shapeCasts_S4x256x256x9x36_S4x256x256x9x3x3x2x2 ]

abbrev seg5 : List (HloOp τ sig (Elt F)) :=
  [ StableHlo.unary main_v27 main_v28 ((extractStridedSlice S4x256x256x9x1x3x2x2 ![0, 0, 0, 0, 0, 0, 0, 0] · slices_S4x256x256x9x3x3x2x2_S4x256x256x9x1x3x2x2_0_0_0_0_0_0_0_0) : (⟨S4x256x256x9x3x3x2x2, .f32⟩ : BufTy).Contents (Elt F) → (⟨S4x256x256x9x1x3x2x2, .f32⟩ : BufTy).Contents (Elt F)),
    StableHlo.reshape main_v28 main_v29 rfl shapeCasts_S4x256x256x9x1x3x2x2_S4x256x256x9x3x2x2,
    StableHlo.unary main_v27 main_v30 ((extractStridedSlice S4x256x256x9x1x3x2x2 ![0, 0, 0, 0, 1, 0, 0, 0] · slices_S4x256x256x9x3x3x2x2_S4x256x256x9x1x3x2x2_0_0_0_0_1_0_0_0) : (⟨S4x256x256x9x3x3x2x2, .f32⟩ : BufTy).Contents (Elt F) → (⟨S4x256x256x9x1x3x2x2, .f32⟩ : BufTy).Contents (Elt F)),
    StableHlo.reshape main_v30 main_v31 rfl shapeCasts_S4x256x256x9x1x3x2x2_S4x256x256x9x3x2x2,
    StableHlo.unary main_v27 main_v32 ((extractStridedSlice S4x256x256x9x1x3x2x2 ![0, 0, 0, 0, 2, 0, 0, 0] · slices_S4x256x256x9x3x3x2x2_S4x256x256x9x1x3x2x2_0_0_0_0_2_0_0_0) : (⟨S4x256x256x9x3x3x2x2, .f32⟩ : BufTy).Contents (Elt F) → (⟨S4x256x256x9x1x3x2x2, .f32⟩ : BufTy).Contents (Elt F)),
    StableHlo.reshape main_v32 main_v33 rfl shapeCasts_S4x256x256x9x1x3x2x2_S4x256x256x9x3x2x2,
    StableHlo.unary main_v29 main_v34 ((extractStridedSlice S4x256x256x1x3x2x2 ![0, 0, 0, 4, 0, 0, 0] · slices_S4x256x256x9x3x2x2_S4x256x256x1x3x2x2_0_0_0_4_0_0_0) : (⟨S4x256x256x9x3x2x2, .f32⟩ : BufTy).Contents (Elt F) → (⟨S4x256x256x1x3x2x2, .f32⟩ : BufTy).Contents (Elt F)),
    StableHlo.reshape main_v34 main_v35 rfl shapeCasts_S4x256x256x1x3x2x2_S4x256x256x3x2x2,
    StableHlo.nullary main_cst_0 (constant S_ .f32 0x3F800000#32),
    StableHlo.unary main_cst_0 main_v36 (broadcastInDim S4x256x256x3x2x2 ![] bcast_S_S4x256x256x3x2x2 : (⟨S_, .f32⟩ : BufTy).Contents (Elt F) → (⟨S4x256x256x3x2x2, .f32⟩ : BufTy).Contents (Elt F)),
    StableHlo.binary main_v35 main_v36 main_v37 (mulf : (⟨S4x256x256x3x2x2, .f32⟩ : BufTy).Contents (Elt F) → (⟨S4x256x256x3x2x2, .f32⟩ : BufTy).Contents (Elt F) → (⟨S4x256x256x3x2x2, .f32⟩ : BufTy).Contents (Elt F)),
    StableHlo.unary main_v37 main_v38 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v38 main_v39 (broadcastInDim S4x256x256x9x3x2x2 ![0, 1, 2, 3, 4, 5, 6] bcast_S4x256x256x1x3x2x2_S4x256x256x9x3x2x2_0_1_2_3_4_5_6 : (⟨S4x256x256x1x3x2x2, .f32⟩ : BufTy).Contents (Elt F) → (⟨S4x256x256x9x3x2x2, .f32⟩ : BufTy).Contents (Elt F)),
    StableHlo.binary main_v39 main_v31 main_v40 (mulf : (⟨S4x256x256x9x3x2x2, .f32⟩ : BufTy).Contents (Elt F) → (⟨S4x256x256x9x3x2x2, .f32⟩ : BufTy).Contents (Elt F) → (⟨S4x256x256x9x3x2x2, .f32⟩ : BufTy).Contents (Elt F)),
    StableHlo.unary main_cst main_v41 (broadcastInDim S9x1x2x2 ![0, 2, 3] bcast_S9x2x2_S9x1x2x2_0_2_3 : (⟨S9x2x2, .f32⟩ : BufTy).Contents (Elt F) → (⟨S9x1x2x2, .f32⟩ : BufTy).Contents (Elt F)),
    StableHlo.unary main_v41 main_v42 (broadcastInDim S1x1x1x9x1x2x2 ![3, 4, 5, 6] bcast_S9x1x2x2_S1x1x1x9x1x2x2_3_4_5_6 : (⟨S9x1x2x2, .f32⟩ : BufTy).Contents (Elt F) → (⟨S1x1x1x9x1x2x2, .f32⟩ : BufTy).Contents (Elt F)),
    StableHlo.unary main_v42 main_v43 (broadcastInDim S4x256x256x9x3x2x2 ![0, 1, 2, 3, 4, 5, 6] bcast_S1x1x1x9x1x2x2_S4x256x256x9x3x2x2_0_1_2_3_4_5_6 : (⟨S1x1x1x9x1x2x2, .f32⟩ : BufTy).Contents (Elt F) → (⟨S4x256x256x9x3x2x2, .f32⟩ : BufTy).Contents (Elt F)),
    StableHlo.binary main_v40 main_v43 main_v44 (mulf : (⟨S4x256x256x9x3x2x2, .f32⟩ : BufTy).Contents (Elt F) → (⟨S4x256x256x9x3x2x2, .f32⟩ : BufTy).Contents (Elt F) → (⟨S4x256x256x9x3x2x2, .f32⟩ : BufTy).Contents (Elt F)),
    StableHlo.binary main_v44 main_v33 main_v45 (mulf : (⟨S4x256x256x9x3x2x2, .f32⟩ : BufTy).Contents (Elt F) → (⟨S4x256x256x9x3x2x2, .f32⟩ : BufTy).Contents (Elt F) → (⟨S4x256x256x9x3x2x2, .f32⟩ : BufTy).Contents (Elt F)),
    StableHlo.nullary main_cst_1 (constant S_ .f32 0x00000000#32),
    StableHlo.binary main_v45 main_cst_1 main_v46 ((fun x v => Host.reduceAdd x v reducesTo_S4x256x256x9x3x2x2_S4x256x256x3x2x2_d3 h_S_) : (⟨S4x256x256x9x3x2x2, .f32⟩ : BufTy).Contents (Elt F) → (⟨S_, .f32⟩ : BufTy).Contents (Elt F) → (⟨S4x256x256x3x2x2, .f32⟩ : BufTy).Contents (Elt F)),
    StableHlo.unary main_v46 main_v47 ((transpose S4x3x256x2x256x2 [0, 3, 1, 4, 2, 5] · transposes_S4x256x256x3x2x2_S4x3x256x2x256x2_0_3_1_4_2_5) : (⟨S4x256x256x3x2x2, .f32⟩ : BufTy).Contents (Elt F) → (⟨S4x3x256x2x256x2, .f32⟩ : BufTy).Contents (Elt F)) ]

abbrev seg6 : List (HloOp τ sig (Elt F)) :=
  [ StableHlo.reshape main_v47 main_v48 rfl shapeCasts_S4x3x256x2x256x2_S4x3x512x512,
    StableHlo.binary main_arg0 main_v48 main_v49 (addf : (⟨S4x3x512x512, .f32⟩ : BufTy).Contents (Elt F) → (⟨S4x3x512x512, .f32⟩ : BufTy).Contents (Elt F) → (⟨S4x3x512x512, .f32⟩ : BufTy).Contents (Elt F)) ]

theorem ops_eq : (ops : List (HloOp τ sig (Elt F))) = seg1 ++ (seg2 ++ (seg3a ++ (seg3b ++ (seg4 ++ (seg5 ++ (seg6)))))) := rfl

/-- The fold over two stretches is the fold over the second from the fold over the first. -/
theorem after_append (l₁ l₂ : List (HloOp τ sig (Elt F))) (W : Valuation τ sig (Elt F)) :
    after (l₁ ++ l₂) W = after l₂ (after l₁ W) := by
  induction l₁ generalizing W with
  | nil => rfl
  | cons op l ih => simp only [List.cons_append, after_cons, ih]

/-- A transport along an equation of indices commutes with abstraction. -/
theorem rec_fun_eta {α : Type} {β : α → Type} {ι : Type} {a b : α} (h : a = b) (f : ι → β a) :
    (fun i => (h ▸ f i : β b)) = (h ▸ f : ι → β b) := by subst h; rfl

/-- A reshape's result as one function: the operand's contents recast, not a function written out index by index. -/
theorem reshape_result_eta (x y : Ref sig .tc) (he : x.ty.elt = y.ty.elt) (hn : x.ty.shape.ShapeCasts y.ty.shape)
    (hx : x.space ≠ .host ∧ (x : DevRef τ sig).isScoped = false) (hy : y.space ≠ .host ∧ (y : DevRef τ sig).isScoped = false)
    (W : Valuation τ sig (Elt F)) :
    (reshape x y he hn hx hy : HloOp τ sig (Elt F)).result W y
      = (he ▸ (shapeCast y.ty.shape (W x) hn : y.ty.shape.Idx → Elt F x.ty.elt) : y.ty.shape.Idx → Elt F y.ty.elt) :=
  (reshape_result x y he hn hx hy W).trans (rec_fun_eta (β := fun e => Elt F e) he _)

/-- Reads a short stretch's fold at one reference: each operation's result at its own result buffer is its function's
    value, at any other reference what was there. -/
local macro "seg_rw" : tactic =>
  `(tactic| (repeat (first
               | rw [nullary_result] | rw [unary_result] | rw [binary_result] | rw [reshape_result_eta]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))
local macro "seg_results" : tactic => `(tactic| (simp only [after_cons, after_nil]; seg_rw))

/-! ### The constants -/

theorem seg1_cst (W : Valuation τ sig (Elt F)) : after seg1 W (main_cst : DevRef τ sig) = weights := by
  seg_results
  rfl
theorem seg1_c (W : Valuation τ sig (Elt F)) : after seg1 W (main_c : DevRef τ sig) = constantI S_ 32 0#32 := by
  seg_results
theorem seg1_arg0 (W : Valuation τ sig (Elt F)) : after seg1 W (main_arg0 : DevRef τ sig) = W (main_arg0 : DevRef τ sig) := by
  seg_results
theorem seg1_arg1 (W : Valuation τ sig (Elt F)) : after seg1 W (main_arg1 : DevRef τ sig) = W (main_arg1 : DevRef τ sig) := by
  seg_results
theorem seg1_arg2 (W : Valuation τ sig (Elt F)) : after seg1 W (main_arg2 : DevRef τ sig) = W (main_arg2 : DevRef τ sig) := by
  seg_results

/-! ### The padded image cut into patches -/

attribute [local irreducible] pad in
theorem seg2_v2 (W : Valuation τ sig (Elt F)) (hc : W (main_c : DevRef τ sig) = constantI S_ 32 0#32) :
    after seg2 W (main_v2 : DevRef τ sig) = patches (ypad (W (main_arg0 : DevRef τ sig))) := by
  seg_results
  rw [hc]
  rfl
theorem seg2_arg0 (W : Valuation τ sig (Elt F)) : after seg2 W (main_arg0 : DevRef τ sig) = W (main_arg0 : DevRef τ sig) := by
  seg_results
theorem seg2_arg1 (W : Valuation τ sig (Elt F)) : after seg2 W (main_arg1 : DevRef τ sig) = W (main_arg1 : DevRef τ sig) := by
  seg_results
theorem seg2_arg2 (W : Valuation τ sig (Elt F)) : after seg2 W (main_arg2 : DevRef τ sig) = W (main_arg2 : DevRef τ sig) := by
  seg_results
theorem seg2_cst (W : Valuation τ sig (Elt F)) : after seg2 W (main_cst : DevRef τ sig) = W (main_cst : DevRef τ sig) := by
  seg_results

/-! ### The nine shifted views, stacked -/

theorem seg3a_v12 (W : Valuation τ sig (Elt F)) :
    after seg3a W (main_v12 : DevRef τ sig) = view (W (main_v2 : DevRef τ sig)) ![0, 0, 0, 0, 0, 0] slices_S4x258x258x3x2x2_S4x256x256x3x2x2_0_0_0_0_0_0 := by
  seg_results
  rfl
theorem seg3a_v13 (W : Valuation τ sig (Elt F)) :
    after seg3a W (main_v13 : DevRef τ sig) = view (W (main_v2 : DevRef τ sig)) ![0, 0, 1, 0, 0, 0] slices_S4x258x258x3x2x2_S4x256x256x3x2x2_0_0_1_0_0_0 := by
  seg_results
  rfl
theorem seg3a_v14 (W : Valuation τ sig (Elt F)) :
    after seg3a W (main_v14 : DevRef τ sig) = view (W (main_v2 : DevRef τ sig)) ![0, 0, 2, 0, 0, 0] slices_S4x258x258x3x2x2_S4x256x256x3x2x2_0_0_2_0_0_0 := by
  seg_results
  rfl
theorem seg3a_v15 (W : Valuation τ sig (Elt F)) :
    after seg3a W (main_v15 : DevRef τ sig) = view (W (main_v2 : DevRef τ sig)) ![0, 1, 0, 0, 0, 0] slices_S4x258x258x3x2x2_S4x256x256x3x2x2_0_1_0_0_0_0 := by
  seg_results
  rfl
theorem seg3a_v16 (W : Valuation τ sig (Elt F)) :
    after seg3a W (main_v16 : DevRef τ sig) = view (W (main_v2 : DevRef τ sig)) ![0, 1, 1, 0, 0, 0] slices_S4x258x258x3x2x2_S4x256x256x3x2x2_0_1_1_0_0_0 := by
  seg_results
  rfl
theorem seg3a_v17 (W : Valuation τ sig (Elt F)) :
    after seg3a W (main_v17 : DevRef τ sig) = view (W (main_v2 : DevRef τ sig)) ![0, 1, 2, 0, 0, 0] slices_S4x258x258x3x2x2_S4x256x256x3x2x2_0_1_2_0_0_0 := by
  seg_results
  rfl
theorem seg3a_v18 (W : Valuation τ sig (Elt F)) :
    after seg3a W (main_v18 : DevRef τ sig) = view (W (main_v2 : DevRef τ sig)) ![0, 2, 0, 0, 0, 0] slices_S4x258x258x3x2x2_S4x256x256x3x2x2_0_2_0_0_0_0 := by
  seg_results
  rfl
theorem seg3a_v19 (W : Valuation τ sig (Elt F)) :
    after seg3a W (main_v19 : DevRef τ sig) = view (W (main_v2 : DevRef τ sig)) ![0, 2, 1, 0, 0, 0] slices_S4x258x258x3x2x2_S4x256x256x3x2x2_0_2_1_0_0_0 := by
  seg_results
  rfl
theorem seg3a_v20 (W : Valuation τ sig (Elt F)) :
    after seg3a W (main_v20 : DevRef τ sig) = view (W (main_v2 : DevRef τ sig)) ![0, 2, 2, 0, 0, 0] slices_S4x258x258x3x2x2_S4x256x256x3x2x2_0_2_2_0_0_0 := by
  seg_results
  rfl
theorem seg3a_arg0 (W : Valuation τ sig (Elt F)) : after seg3a W (main_arg0 : DevRef τ sig) = W (main_arg0 : DevRef τ sig) := by
  seg_results
theorem seg3a_arg1 (W : Valuation τ sig (Elt F)) : after seg3a W (main_arg1 : DevRef τ sig) = W (main_arg1 : DevRef τ sig) := by
  seg_results
theorem seg3a_arg2 (W : Valuation τ sig (Elt F)) : after seg3a W (main_arg2 : DevRef τ sig) = W (main_arg2 : DevRef τ sig) := by
  seg_results
theorem seg3a_cst (W : Valuation τ sig (Elt F)) : after seg3a W (main_cst : DevRef τ sig) = W (main_cst : DevRef τ sig) := by
  seg_results

attribute [local irreducible] concatenate in
theorem seg3b_v21 (W : Valuation τ sig (Elt F)) :
    after seg3b W (main_v21 : DevRef τ sig)
      = concatenate S4x256x256x9x3x2x2 3
          [⟨S4x256x256x1x3x2x2, W (main_v12 : DevRef τ sig)⟩,
       ⟨S4x256x256x1x3x2x2, W (main_v13 : DevRef τ sig)⟩,
       ⟨S4x256x256x1x3x2x2, W (main_v14 : DevRef τ sig)⟩,
       ⟨S4x256x256x1x3x2x2, W (main_v15 : DevRef τ sig)⟩,
       ⟨S4x256x256x1x3x2x2, W (main_v16 : DevRef τ sig)⟩,
       ⟨S4x256x256x1x3x2x2, W (main_v17 : DevRef τ sig)⟩,
       ⟨S4x256x256x1x3x2x2, W (main_v18 : DevRef τ sig)⟩,
       ⟨S4x256x256x1x3x2x2, W (main_v19 : DevRef τ sig)⟩,
       ⟨S4x256x256x1x3x2x2, W (main_v20 : DevRef τ sig)⟩]
          concatenates_S4x256x256x1x3x2x2_S4x256x256x1x3x2x2_S4x256x256x1x3x2x2_S4x256x256x1x3x2x2_S4x256x256x1x3x2x2_S4x256x256x1x3x2x2_S4x256x256x1x3x2x2_S4x256x256x1x3x2x2_S4x256x256x1x3x2x2_S4x256x256x9x3x2x2_d3 := by
  simp only [after_cons, after_nil]
  rw [nary_result]
  rfl
theorem seg3b_arg0 (W : Valuation τ sig (Elt F)) : after seg3b W (main_arg0 : DevRef τ sig) = W (main_arg0 : DevRef τ sig) := by
  seg_results
theorem seg3b_arg1 (W : Valuation τ sig (Elt F)) : after seg3b W (main_arg1 : DevRef τ sig) = W (main_arg1 : DevRef τ sig) := by
  seg_results
theorem seg3b_arg2 (W : Valuation τ sig (Elt F)) : after seg3b W (main_arg2 : DevRef τ sig) = W (main_arg2 : DevRef τ sig) := by
  seg_results
theorem seg3b_cst (W : Valuation τ sig (Elt F)) : after seg3b W (main_cst : DevRef τ sig) = W (main_cst : DevRef τ sig) := by
  seg_results

theorem seg3_v21 (W : Valuation τ sig (Elt F)) :
    after seg3b (after seg3a W) (main_v21 : DevRef τ sig) = nbrs (W (main_v2 : DevRef τ sig)) := by
  rw [seg3b_v21, seg3a_v12, seg3a_v13, seg3a_v14, seg3a_v15, seg3a_v16, seg3a_v17, seg3a_v18, seg3a_v19, seg3a_v20]
  rfl

/-! ### The stacked affine map -/

theorem seg4_v27 (W : Valuation τ sig (Elt F)) :
    after seg4 W (main_v27 : DevRef τ sig) = qkv (W (main_v21 : DevRef τ sig)) (W (main_arg1 : DevRef τ sig)) (W (main_arg2 : DevRef τ sig)) := by
  seg_results
  rfl
theorem seg4_arg0 (W : Valuation τ sig (Elt F)) : after seg4 W (main_arg0 : DevRef τ sig) = W (main_arg0 : DevRef τ sig) := by
  seg_results
theorem seg4_arg1 (W : Valuation τ sig (Elt F)) : after seg4 W (main_arg1 : DevRef τ sig) = W (main_arg1 : DevRef τ sig) := by
  seg_results
theorem seg4_arg2 (W : Valuation τ sig (Elt F)) : after seg4 W (main_arg2 : DevRef τ sig) = W (main_arg2 : DevRef τ sig) := by
  seg_results
theorem seg4_cst (W : Valuation τ sig (Elt F)) : after seg4 W (main_cst : DevRef τ sig) = W (main_cst : DevRef τ sig) := by
  seg_results

/-! ### The parts, the products, their sum -/

theorem seg5_v47 (W : Valuation τ sig (Elt F)) (hw : W (main_cst : DevRef τ sig) = weights) :
    after seg5 W (main_v47 : DevRef τ sig) = summed (W (main_v27 : DevRef τ sig)) := by
  seg_results
  rw [hw]
  rfl
theorem seg5_arg0 (W : Valuation τ sig (Elt F)) : after seg5 W (main_arg0 : DevRef τ sig) = W (main_arg0 : DevRef τ sig) := by
  seg_results
theorem seg5_arg1 (W : Valuation τ sig (Elt F)) : after seg5 W (main_arg1 : DevRef τ sig) = W (main_arg1 : DevRef τ sig) := by
  seg_results
theorem seg5_arg2 (W : Valuation τ sig (Elt F)) : after seg5 W (main_arg2 : DevRef τ sig) = W (main_arg2 : DevRef τ sig) := by
  seg_results

/-! ### The layout back, the residual sum -/

theorem seg6_v49 (W : Valuation τ sig (Elt F)) :
    after seg6 W (main_v49 : DevRef τ sig)
      = addf (W (main_arg0 : DevRef τ sig)) (shapeCast S4x3x512x512 (W (main_v47 : DevRef τ sig)) shapeCasts_S4x3x256x2x256x2_S4x3x512x512) := by
  seg_results
  rfl
theorem seg6_arg0 (W : Valuation τ sig (Elt F)) : after seg6 W (main_arg0 : DevRef τ sig) = W (main_arg0 : DevRef τ sig) := by
  seg_results
theorem seg6_arg1 (W : Valuation τ sig (Elt F)) : after seg6 W (main_arg1 : DevRef τ sig) = W (main_arg1 : DevRef τ sig) := by
  seg_results
theorem seg6_arg2 (W : Valuation τ sig (Elt F)) : after seg6 W (main_arg2 : DevRef τ sig) = W (main_arg2 : DevRef τ sig) := by
  seg_results

/-! ## The whole line -/

/-- The fold of the operations' results at the result buffer is `refOut` of the arguments' contents: the stretches'
    read-backs chained, each stage's input the stage before's output and the arguments carried through unchanged. -/
theorem out_eq (V : Valuation τ sig (Elt F)) :
    after ops V (main_v49 : DevRef τ sig)
      = refOut (V (main_arg0 : DevRef τ sig)) (V (main_arg1 : DevRef τ sig)) (V (main_arg2 : DevRef τ sig)) := by
  rw [ops_eq]
  simp only [after_append]
  have hcst : after seg4 (after seg3b (after seg3a (after seg2 (after seg1 V)))) (main_cst : DevRef τ sig) = weights := by
    rw [seg4_cst, seg3b_cst, seg3a_cst, seg2_cst, seg1_cst]
  rw [seg6_v49, seg5_v47 _ hcst, seg4_v27, seg3_v21, seg2_v2 _ (seg1_c V),
    seg5_arg0, seg4_arg0, seg3b_arg0, seg3a_arg0, seg2_arg0, seg1_arg0,
    seg3b_arg1, seg3a_arg1, seg2_arg1, seg1_arg1, seg3b_arg2, seg3a_arg2, seg2_arg2, seg1_arg2]
  rfl

/-- No operation writes an argument's buffer. -/
theorem arg0_eq (V : Valuation τ sig (Elt F)) :
    after ops V (main_arg0 : DevRef τ sig) = V (main_arg0 : DevRef τ sig) := by
  rw [ops_eq]
  simp only [after_append]
  rw [seg6_arg0, seg5_arg0, seg4_arg0, seg3b_arg0, seg3a_arg0, seg2_arg0, seg1_arg0]

theorem arg1_eq (V : Valuation τ sig (Elt F)) :
    after ops V (main_arg1 : DevRef τ sig) = V (main_arg1 : DevRef τ sig) := by
  rw [ops_eq]
  simp only [after_append]
  rw [seg6_arg1, seg5_arg1, seg4_arg1, seg3b_arg1, seg3a_arg1, seg2_arg1, seg1_arg1]

theorem arg2_eq (V : Valuation τ sig (Elt F)) :
    after ops V (main_arg2 : DevRef τ sig) = V (main_arg2 : DevRef τ sig) := by
  rw [ops_eq]
  simp only [after_append]
  rw [seg6_arg2, seg5_arg2, seg4_arg2, seg3b_arg2, seg3a_arg2, seg2_arg2, seg1_arg2]

/-- From any memory with zero counters every weakly fair execution of the entry function on the TensorCores
    terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The same with the fold read back: the result buffer holds `refOut` of the arguments' launch contents, and the
    arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49) = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v49).trans (out_eq (launchContents m c)),
      (h c main_arg0).trans (arg0_eq (launchContents m c)),
      (h c main_arg1).trans (arg1_eq (launchContents m c)),
      (h c main_arg2).trans (arg2_eq (launchContents m c))⟩)
    (run_main m ρ)

end Cert.ReferenceIdeal.RefValue

end
-- ==== Proof.LibRank78.lean ====
/-
  Indices of rank 7 and 8 by coordinates: `ix7` / `ix8` build an index from its coordinates, `eq_ix7` / `eq_ix8` say
  every index of that rank is of that form, and `Shape.rowMajor_val_seven` / `Shape.rowMajor_val_eight` spell its
  row-major position as one sum of products (a form `omega` can use). General facts about shapes; nothing here
  depends on a particular program.
-/
import Idealize.ShloMosaic.Lib.ValueIdx
import Idealize.ShloMosaic.Lib.ValueIdxRank6

namespace Idealize.ShloMosaic

/-- Rank 7: the row-major position as one sum of products. -/
theorem Shape.rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6
        + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- Rank 8: the row-major position as one sum of products. -/
theorem Shape.rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6
        + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

namespace ValueIdx

/-- A rank-7 index from its coordinates. -/
abbrev ix7 {n0 n1 n2 n3 n4 n5 n6 : Nat} (a : Fin n0) (b : Fin n1) (c : Fin n2) (d : Fin n3) (e : Fin n4) (f : Fin n5)
    (g : Fin n6) : (⟨7, ![n0, n1, n2, n3, n4, n5, n6]⟩ : Shape).Idx :=
  fun x => match x with | ⟨0, _⟩ => a | ⟨1, _⟩ => b | ⟨2, _⟩ => c | ⟨3, _⟩ => d | ⟨4, _⟩ => e | ⟨5, _⟩ => f | ⟨6, _⟩ => g
/-- Every rank-7 index is `ix7` of its coordinates. -/
theorem eq_ix7 {n0 n1 n2 n3 n4 n5 n6 : Nat} (j : (⟨7, ![n0, n1, n2, n3, n4, n5, n6]⟩ : Shape).Idx) :
    j = ix7 (j 0) (j 1) (j 2) (j 3) (j 4) (j 5) (j 6) := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl

/-- A rank-8 index from its coordinates. -/
abbrev ix8 {n0 n1 n2 n3 n4 n5 n6 n7 : Nat} (a : Fin n0) (b : Fin n1) (c : Fin n2) (d : Fin n3) (e : Fin n4) (f : Fin n5)
    (g : Fin n6) (h : Fin n7) : (⟨8, ![n0, n1, n2, n3, n4, n5, n6, n7]⟩ : Shape).Idx :=
  fun x => match x with
    | ⟨0, _⟩ => a | ⟨1, _⟩ => b | ⟨2, _⟩ => c | ⟨3, _⟩ => d | ⟨4, _⟩ => e | ⟨5, _⟩ => f | ⟨6, _⟩ => g | ⟨7, _⟩ => h
/-- Every rank-8 index is `ix8` of its coordinates. -/
theorem eq_ix8 {n0 n1 n2 n3 n4 n5 n6 n7 : Nat} (j : (⟨8, ![n0, n1, n2, n3, n4, n5, n6, n7]⟩ : Shape).Idx) :
    j = ix8 (j 0) (j 1) (j 2) (j 3) (j 4) (j 5) (j 6) (j 7) := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl
  | ⟨7, _⟩ => rfl

end ValueIdx

end Idealize.ShloMosaic
-- ==== Proof.RefIdxSum.lean ====
/-
  The last stage of the reference read at an index: the transposed sum over the nine neighbours at
  (image, channel, patch row, row in the patch, patch column, column in the patch) is the zero word plus the sum over
  the neighbours of the products at (image, patch row, patch column, neighbour, channel, row, column).
-/
import proofs.«114282_j52390011076755_2_alg».proof.Proof.RefTerm
import proofs.«114282_j52390011076755_2_alg».proof.Proof.LibRank78
import Idealize.ShloMosaic.PureOps.Ideal.Laws
import Idealize.ShloMosaic.Lib.IdealHost
import Idealize.ShloMosaic.Lib.Pipeline.Value

noncomputable section

namespace Cert.ReferenceIdeal.RefValue

open Cert.ReferenceIdeal Cert.ReferenceIdeal.Facts₀ Idealize.ShloMosaic Idealize.ShloMosaic.ValueIdx

variable [Facts]

/-- The sum over the neighbour axis, laid out as an image in patch coordinates, read at an index. -/
theorem summed_apply (A : FVec Ideal S4x256x256x9x3x3x2x2 .f32) (b : Fin 4) (c : Fin 3) (h : Fin 256) (i : Fin 2)
    (w : Fin 256) (jj : Fin 2) :
    summed (F := Ideal) A (ix6 b c h i w jj)
      = Ideal.ofBits .f32 0x00000000#32 + ∑ p : Fin 9, prods (F := Ideal) A (ix7 b h w p c i jj) := by
  unfold summed
  generalize prods (F := Ideal) A = Pr
  refine (transpose_apply _ _ _ (ix6 b c h i w jj) (ix6 b h w c i jj) ?_).trans ?_
  · intro a
    match a with
    | ⟨0, _⟩ => rfl | ⟨1, _⟩ => rfl | ⟨2, _⟩ => rfl | ⟨3, _⟩ => rfl | ⟨4, _⟩ => rfl | ⟨5, _⟩ => rfl
  · rw [hostReduceAdd_apply, Ideal.hostReduceAdd_single reducesTo_S4x256x256x9x3x2x2_S4x256x256x3x2x2_d3 (by decide)]
    refine congrArg (_ + ·) (Finset.sum_congr rfl fun k _ => ?_)
    exact congrArg Pr (funext fun a => Fin.ext (by
      match a with
      | ⟨0, _⟩ => rfl | ⟨1, _⟩ => rfl | ⟨2, _⟩ => rfl | ⟨3, _⟩ => rfl | ⟨4, _⟩ => rfl | ⟨5, _⟩ => rfl | ⟨6, _⟩ => rfl))

end Cert.ReferenceIdeal.RefValue

end
-- ==== Proof.RefIdxProds.lean ====
/-
  The products of the reference read at an index: query(centre) · one · key(neighbour) · weight(neighbour, place) ·
  value(neighbour), each factor an entry of the stacked affine map's array or a literal word.
-/
import proofs.«114282_j52390011076755_2_alg».proof.Proof.RefTerm
import proofs.«114282_j52390011076755_2_alg».proof.Proof.LibRank78
import Idealize.ShloMosaic.Lib.IdealHost
import Idealize.ShloMosaic.Lib.Pipeline.Value

noncomputable section

namespace Cert.ReferenceIdeal.RefValue

open Cert.ReferenceIdeal Cert.ReferenceIdeal.Facts₀ Idealize.ShloMosaic Idealize.ShloMosaic.ValueIdx

variable [Facts]

/-- One of the three maps' values read at an index: the map axis is cut at `s` and dropped. -/
theorem part_apply (A : FVec Ideal S4x256x256x9x3x3x2x2 .f32) (off : Fin 8 → Nat)
    (hs : S4x256x256x9x3x3x2x2.Slices off S4x256x256x9x1x3x2x2) (s : Fin 3)
    (hoff : off = ![0, 0, 0, 0, s.val, 0, 0, 0]) (b : Fin 4) (h w : Fin 256) (p : Fin 9) (c : Fin 3) (i jj : Fin 2) :
    part (F := Ideal) A off hs (ix7 b h w p c i jj) = A (ix8 b h w p s c i jj) := by
  subst hoff
  unfold part
  refine (shapeCast_apply _ _ (ix7 b h w p c i jj) (ix8 b h w p (0 : Fin 1) c i jj) ?_).trans ?_
  · rw [Shape.rowMajor_val_eight, Shape.rowMajor_val_seven]
    show ((((((b.val * 256 + h.val) * 256 + w.val) * 9 + p.val) * 1 + 0) * 3 + c.val) * 2 + i.val) * 2 + jj.val = (((((b.val * 256 + h.val) * 256 + w.val) * 9 + p.val) * 3 + c.val) * 2 + i.val) * 2 + jj.val
    omega
  · refine extractStridedSlice_apply _ A hs _ (ix8 b h w p s c i jj) ?_
    intro a
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm
    | ⟨4, _⟩ => exact (Nat.add_zero _).symm
    | ⟨5, _⟩ => exact (Nat.zero_add _).symm
    | ⟨6, _⟩ => exact (Nat.zero_add _).symm
    | ⟨7, _⟩ => exact (Nat.zero_add _).symm

/-- The centre neighbour's query times the unit word, read at an index. -/
theorem coreQ_apply (Qs : FVec Ideal S4x256x256x9x3x2x2 .f32) (b : Fin 4) (h w : Fin 256) (c : Fin 3) (i jj : Fin 2) :
    coreQ (F := Ideal) Qs (ix6 b h w c i jj)
      = Qs (ix7 b h w (4 : Fin 9) c i jj) * Ideal.ofBits .f32 0x3F800000#32 := by
  unfold coreQ
  rw [mulf_apply]
  congr 1
  · refine (shapeCast_apply _ _ (ix6 b h w c i jj) (ix7 b h w (0 : Fin 1) c i jj) ?_).trans ?_
    · rw [Shape.rowMajor_val_seven, Shape.rowMajor_val_six]
      show (((((b.val * 256 + h.val) * 256 + w.val) * 1 + 0) * 3 + c.val) * 2 + i.val) * 2 + jj.val = ((((b.val * 256 + h.val) * 256 + w.val) * 3 + c.val) * 2 + i.val) * 2 + jj.val
      omega
    · refine extractStridedSlice_apply _ Qs _ _ (ix7 b h w (4 : Fin 9) c i jj) ?_
      intro a
      match a with
      | ⟨0, _⟩ => exact (Nat.zero_add _).symm
      | ⟨1, _⟩ => exact (Nat.zero_add _).symm
      | ⟨2, _⟩ => exact (Nat.zero_add _).symm
      | ⟨3, _⟩ => exact (Nat.add_zero _).symm
      | ⟨4, _⟩ => exact (Nat.zero_add _).symm
      | ⟨5, _⟩ => exact (Nat.zero_add _).symm
      | ⟨6, _⟩ => exact (Nat.zero_add _).symm

/-- The weights through their three broadcasts, read at an index: the literal word at row-major place
    (neighbour, row in the patch, column in the patch). -/
theorem weights_apply (b : Fin 4) (h w : Fin 256) (p : Fin 9) (c : Fin 3) (i jj : Fin 2) :
    broadcastInDim S4x256x256x9x3x2x2 ![0, 1, 2, 3, 4, 5, 6] bcast_S1x1x1x9x1x2x2_S4x256x256x9x3x2x2_0_1_2_3_4_5_6
        (broadcastInDim S1x1x1x9x1x2x2 ![3, 4, 5, 6] bcast_S9x1x2x2_S1x1x1x9x1x2x2_3_4_5_6
          (broadcastInDim S9x1x2x2 ![0, 2, 3] bcast_S9x2x2_S9x1x2x2_0_2_3 (weights (F := Ideal)))) (ix7 b h w p c i jj)
      = Ideal.ofBits .f32 (lit0 ⟨p.val * 4 + i.val * 2 + jj.val, by omega⟩) := by
  refine (broadcastInDim_apply _ _ _ (ix7 b h w p c i jj)
    (ix7 (0 : Fin 1) (0 : Fin 1) (0 : Fin 1) p (0 : Fin 1) i jj) ?_).trans ?_
  · intro a
    match a with
    | ⟨0, _⟩ => rfl | ⟨1, _⟩ => rfl | ⟨2, _⟩ => rfl | ⟨3, _⟩ => rfl | ⟨4, _⟩ => rfl | ⟨5, _⟩ => rfl | ⟨6, _⟩ => rfl
  refine (broadcastInDim_apply _ _ _ _ (ix4 p (0 : Fin 1) i jj) ?_).trans ?_
  · intro a
    match a with
    | ⟨0, _⟩ => rfl | ⟨1, _⟩ => rfl | ⟨2, _⟩ => rfl | ⟨3, _⟩ => rfl
  refine (broadcastInDim_apply _ _ _ _ (ix3 p i jj) ?_).trans ?_
  · intro a
    match a with
    | ⟨0, _⟩ => rfl | ⟨1, _⟩ => rfl | ⟨2, _⟩ => rfl
  unfold weights
  refine congrArg (fun k : Fin 36 => Ideal.ofBits .f32 (lit0 k)) (Fin.ext ?_)
  rw [Shape.rowMajor_val_three]
  show (p.val * 2 + i.val) * 2 + jj.val = p.val * 4 + i.val * 2 + jj.val
  omega

/-- Query · one · key · weight · value at (image, patch row, patch column, neighbour, channel, row, column). -/
theorem prods_apply (A : FVec Ideal S4x256x256x9x3x3x2x2 .f32) (b : Fin 4) (h w : Fin 256) (p : Fin 9) (c : Fin 3) (i jj : Fin 2) :
    prods (F := Ideal) A (ix7 b h w p c i jj)
      = (((A (ix8 b h w (4 : Fin 9) (0 : Fin 3) c i jj) * Ideal.ofBits .f32 0x3F800000#32)
            * A (ix8 b h w p (1 : Fin 3) c i jj))
          * Ideal.ofBits .f32 (lit0 ⟨p.val * 4 + i.val * 2 + jj.val, by omega⟩))
        * A (ix8 b h w p (2 : Fin 3) c i jj) := by
  unfold prods
  rw [mulf_apply, mulf_apply, mulf_apply]
  congr 1
  · congr 1
    · congr 1
      · refine (broadcastInDim_apply _ _ _ (ix7 b h w p c i jj) (ix7 b h w (0 : Fin 1) c i jj) ?_).trans ?_
        · intro a
          match a with
          | ⟨0, _⟩ => rfl | ⟨1, _⟩ => rfl | ⟨2, _⟩ => rfl | ⟨3, _⟩ => rfl | ⟨4, _⟩ => rfl | ⟨5, _⟩ => rfl | ⟨6, _⟩ => rfl
        refine (broadcastInDim_apply _ _ _ (ix7 b h w (0 : Fin 1) c i jj) (ix6 b h w c i jj) ?_).trans ?_
        · intro a
          match a with
          | ⟨0, _⟩ => rfl | ⟨1, _⟩ => rfl | ⟨2, _⟩ => rfl | ⟨3, _⟩ => rfl | ⟨4, _⟩ => rfl | ⟨5, _⟩ => rfl
        rw [coreQ_apply]
        exact congrArg (· * Ideal.ofBits .f32 0x3F800000#32)
          (part_apply A _ _ (0 : Fin 3) rfl b h w (4 : Fin 9) c i jj)
      · exact part_apply A _ _ (1 : Fin 3) rfl b h w p c i jj
    · exact weights_apply b h w p c i jj
  · exact part_apply A _ _ (2 : Fin 3) rfl b h w p c i jj

end Cert.ReferenceIdeal.RefValue

end
-- ==== Proof.RefIdxQkv.lean ====
/-
  The stacked affine map of the reference read at an index: at (image, patch row, patch column, neighbour, map,
  channel, row, column) it is the sum over the twelve folded channels of the neighbour's entry times the map's weight,
  plus the map's bias — the folded output channel being map · 12 + channel · 4 + row · 2 + column.
-/
import proofs.«114282_j52390011076755_2_alg».proof.Proof.RefTerm
import proofs.«114282_j52390011076755_2_alg».proof.Proof.Spec
import proofs.«114282_j52390011076755_2_alg».proof.Proof.LibRank78
import Idealize.ShloMosaic.PureOps.Ideal.Laws
import Idealize.ShloMosaic.Lib.Pipeline.Value

noncomputable section

namespace Cert.ReferenceIdeal.RefValue

open Cert.ReferenceIdeal Cert.ReferenceIdeal.Facts₀ Idealize.ShloMosaic Idealize.ShloMosaic.ValueIdx

variable [Facts]

open Cert.Attn (chan chanC chanI chanJ row)

/-! The operand indices of the contraction, coordinate by coordinate: the four leading axes of the left operand and the
row axis of the right operand follow the output index, the last axis of each is the contracted one. -/

theorem lhs_val_0 (j : S4x256x256x9x36.Idx) (q : dot_S4x256x256x9x12_S36x12_S4x256x256x9x36_4_1_0123_0_n_n.contr.Idx) :
    (dot_S4x256x256x9x12_S36x12_S4x256x256x9x36_4_1_0123_0_n_n.lhsIdx j q 0).val = (j 0).val := by
  unfold DotDims.lhsIdx
  rw [dif_neg (show ¬(0 : Fin S4x256x256x9x12.rank) ∈ dot_S4x256x256x9x12_S36x12_S4x256x256x9x36_4_1_0123_0_n_n.lhsBatch from List.not_mem_nil),
    dif_pos (show (0 : Fin S4x256x256x9x12.rank) ∈ dot_S4x256x256x9x12_S36x12_S4x256x256x9x36_4_1_0123_0_n_n.lhsNonContracting from List.Mem.head _)]
  rfl

theorem lhs_val_1 (j : S4x256x256x9x36.Idx) (q : dot_S4x256x256x9x12_S36x12_S4x256x256x9x36_4_1_0123_0_n_n.contr.Idx) :
    (dot_S4x256x256x9x12_S36x12_S4x256x256x9x36_4_1_0123_0_n_n.lhsIdx j q 1).val = (j 1).val := by
  unfold DotDims.lhsIdx
  rw [dif_neg (show ¬(1 : Fin S4x256x256x9x12.rank) ∈ dot_S4x256x256x9x12_S36x12_S4x256x256x9x36_4_1_0123_0_n_n.lhsBatch from List.not_mem_nil),
    dif_pos (show (1 : Fin S4x256x256x9x12.rank) ∈ dot_S4x256x256x9x12_S36x12_S4x256x256x9x36_4_1_0123_0_n_n.lhsNonContracting from List.Mem.tail _ (List.Mem.head _))]
  rfl

theorem lhs_val_2 (j : S4x256x256x9x36.Idx) (q : dot_S4x256x256x9x12_S36x12_S4x256x256x9x36_4_1_0123_0_n_n.contr.Idx) :
    (dot_S4x256x256x9x12_S36x12_S4x256x256x9x36_4_1_0123_0_n_n.lhsIdx j q 2).val = (j 2).val := by
  unfold DotDims.lhsIdx
  rw [dif_neg (show ¬(2 : Fin S4x256x256x9x12.rank) ∈ dot_S4x256x256x9x12_S36x12_S4x256x256x9x36_4_1_0123_0_n_n.lhsBatch from List.not_mem_nil),
    dif_pos (show (2 : Fin S4x256x256x9x12.rank) ∈ dot_S4x256x256x9x12_S36x12_S4x256x256x9x36_4_1_0123_0_n_n.lhsNonContracting from List.Mem.tail _ (List.Mem.tail _ (List.Mem.head _)))]
  rfl

theorem lhs_val_3 (j : S4x256x256x9x36.Idx) (q : dot_S4x256x256x9x12_S36x12_S4x256x256x9x36_4_1_0123_0_n_n.contr.Idx) :
    (dot_S4x256x256x9x12_S36x12_S4x256x256x9x36_4_1_0123_0_n_n.lhsIdx j q 3).val = (j 3).val := by
  unfold DotDims.lhsIdx
  rw [dif_neg (show ¬(3 : Fin S4x256x256x9x12.rank) ∈ dot_S4x256x256x9x12_S36x12_S4x256x256x9x36_4_1_0123_0_n_n.lhsBatch from List.not_mem_nil),
    dif_pos (show (3 : Fin S4x256x256x9x12.rank) ∈ dot_S4x256x256x9x12_S36x12_S4x256x256x9x36_4_1_0123_0_n_n.lhsNonContracting from List.Mem.tail _ (List.Mem.tail _ (List.Mem.tail _ (List.Mem.head _))))]
  rfl

theorem rhs_val_0 (j : S4x256x256x9x36.Idx) (q : dot_S4x256x256x9x12_S36x12_S4x256x256x9x36_4_1_0123_0_n_n.contr.Idx) :
    (dot_S4x256x256x9x12_S36x12_S4x256x256x9x36_4_1_0123_0_n_n.rhsIdx j q 0).val = (j 4).val := by
  unfold DotDims.rhsIdx
  rw [dif_neg (show ¬(0 : Fin S36x12.rank) ∈ dot_S4x256x256x9x12_S36x12_S4x256x256x9x36_4_1_0123_0_n_n.rhsBatch from List.not_mem_nil),
    dif_pos (show (0 : Fin S36x12.rank) ∈ dot_S4x256x256x9x12_S36x12_S4x256x256x9x36_4_1_0123_0_n_n.rhsNonContracting from List.Mem.head _)]
  rfl

/-- The contraction read at an index: the sum over the twelve folded channels. -/
theorem dot_apply (X : FVec Ideal S4x256x256x9x12 .f32) (W : FVec Ideal S36x12 .f32) (b : Fin 4) (h w : Fin 256)
    (p : Fin 9) (o : Fin 36) :
    Host.dotGeneral dot_S4x256x256x9x12_S36x12_S4x256x256x9x36_4_1_0123_0_n_n none X W (ix5 b h w p o) = ∑ k : Fin 12, X (ix5 b h w p k) * W (ix2 o k) := by
  show FloatOps.dotGeneral dot_S4x256x256x9x12_S36x12_S4x256x256x9x36_4_1_0123_0_n_n none .single X W (ix5 b h w p o) = _
  rw [Ideal.dotGeneral_apply, ← Equiv.sum_comp (contrEquiv1 dot_S4x256x256x9x12_S36x12_S4x256x256x9x36_4_1_0123_0_n_n 12 rfl rfl).symm]
  refine Finset.sum_congr rfl fun k _ => ?_
  have hk := contrEquiv1_symm_val dot_S4x256x256x9x12_S36x12_S4x256x256x9x36_4_1_0123_0_n_n 12 rfl rfl k
  have el : dot_S4x256x256x9x12_S36x12_S4x256x256x9x36_4_1_0123_0_n_n.lhsIdx (ix5 b h w p o) ((contrEquiv1 dot_S4x256x256x9x12_S36x12_S4x256x256x9x36_4_1_0123_0_n_n 12 rfl rfl).symm k) = ix5 b h w p k :=
    funext fun a => Fin.ext (by
      match a with
      | ⟨0, _⟩ => exact lhs_val_0 _ _
      | ⟨1, _⟩ => exact lhs_val_1 _ _
      | ⟨2, _⟩ => exact lhs_val_2 _ _
      | ⟨3, _⟩ => exact lhs_val_3 _ _
      | ⟨4, _⟩ => exact (dot_S4x256x256x9x12_S36x12_S4x256x256x9x36_4_1_0123_0_n_n.lhsIdx_val_of_single rfl _ _).trans hk)
  have er : dot_S4x256x256x9x12_S36x12_S4x256x256x9x36_4_1_0123_0_n_n.rhsIdx (ix5 b h w p o) ((contrEquiv1 dot_S4x256x256x9x12_S36x12_S4x256x256x9x36_4_1_0123_0_n_n 12 rfl rfl).symm k) = ix2 o k :=
    funext fun a => Fin.ext (by
      match a with
      | ⟨0, _⟩ => exact rhs_val_0 _ _
      | ⟨1, _⟩ => exact (dot_S4x256x256x9x12_S36x12_S4x256x256x9x36_4_1_0123_0_n_n.rhsIdx_val_of_single rfl _ _).trans hk)
  rw [el, er]

/-- The stacked affine map read at an index. -/
theorem qkv_apply (N : FVec Ideal S4x256x256x9x3x2x2 .f32) (W : FVec Ideal S36x12 .f32) (B : FVec Ideal S36 .f32)
    (b : Fin 4) (h w : Fin 256) (p : Fin 9) (s : Fin 3) (c : Fin 3) (i jj : Fin 2) :
    qkv (F := Ideal) N W B (ix8 b h w p s c i jj)
      = (∑ k : Fin 12, N (ix7 b h w p (chanC k) (chanI k) (chanJ k)) * W (ix2 (row s (chan c i jj)) k))
        + B (ix1 (row s (chan c i jj))) := by
  unfold qkv
  refine (shapeCast_apply _ _ (ix8 b h w p s c i jj) (ix5 b h w p (row s (chan c i jj))) ?_).trans ?_
  · rw [Shape.rowMajor_val_five, Shape.rowMajor_val_eight]
    show (((b.val * 256 + h.val) * 256 + w.val) * 9 + p.val) * 36 + (s.val * 12 + (c.val * 4 + i.val * 2 + jj.val))
      = ((((((b.val * 256 + h.val) * 256 + w.val) * 9 + p.val) * 3 + s.val) * 3 + c.val) * 2 + i.val) * 2 + jj.val
    omega
  rw [addf_apply]
  congr 1
  · rw [dot_apply]
    refine Finset.sum_congr rfl fun k _ => ?_
    congr 1
    refine shapeCast_apply _ _ (ix5 b h w p k) (ix7 b h w p (chanC k) (chanI k) (chanJ k)) ?_
    rw [Shape.rowMajor_val_seven, Shape.rowMajor_val_five]
    show (((((b.val * 256 + h.val) * 256 + w.val) * 9 + p.val) * 3 + k.val / 4) * 2 + k.val / 2 % 2) * 2 + k.val % 2
      = (((b.val * 256 + h.val) * 256 + w.val) * 9 + p.val) * 12 + k.val
    omega
  · refine (broadcastInDim_apply _ _ _ _
      (ix5 (0 : Fin 1) (0 : Fin 1) (0 : Fin 1) (0 : Fin 1) (row s (chan c i jj))) ?_).trans ?_
    · intro a
      match a with
      | ⟨0, _⟩ => rfl | ⟨1, _⟩ => rfl | ⟨2, _⟩ => rfl | ⟨3, _⟩ => rfl | ⟨4, _⟩ => rfl
    refine broadcastInDim_apply _ _ _ _ (ix1 (row s (chan c i jj))) ?_
    intro a
    match a with
    | ⟨0, _⟩ => rfl

end Cert.ReferenceIdeal.RefValue

end
-- ==== Proof.RefIdxNbrs.lean ====
/-
  The nine stacked views of the patch grid read at an index: neighbour `p` of inner patch (`h`, `w`) is the patch
  `p / 3` rows and `p % 3` columns from the window's corner, and the patch grid is the padded image in patch
  coordinates with its axes permuted.
-/
import proofs.«114282_j52390011076755_2_alg».proof.Proof.RefTerm
import proofs.«114282_j52390011076755_2_alg».proof.Proof.LibRank78
import Idealize.ShloMosaic.Lib.Pipeline.Value

noncomputable section

namespace Cert.ReferenceIdeal.RefValue

open Cert.ReferenceIdeal Cert.ReferenceIdeal.Facts₀ Idealize.ShloMosaic Idealize.ShloMosaic.ValueIdx

variable [Facts]

/-- The patch grid read at an index. -/
theorem patches_apply (Y : FVec Ideal S4x3x258x2x258x2 .f32) (b : Fin 4) (gh gw : Fin 258) (c : Fin 3) (i jj : Fin 2) :
    patches (F := Ideal) Y (ix6 b gh gw c i jj) = Y (ix6 b c gh i gw jj) := by
  unfold patches
  refine transpose_apply _ _ _ (ix6 b gh gw c i jj) (ix6 b c gh i gw jj) ?_
  intro a
  match a with
  | ⟨0, _⟩ => rfl | ⟨1, _⟩ => rfl | ⟨2, _⟩ => rfl | ⟨3, _⟩ => rfl | ⟨4, _⟩ => rfl | ⟨5, _⟩ => rfl

/-- One shifted view read at an index: the grid `di` rows and `dj` columns further. -/
theorem view_apply (P : FVec Ideal S4x258x258x3x2x2 .f32) (off : Fin 6 → Nat)
    (hs : S4x258x258x3x2x2.Slices off S4x256x256x3x2x2) (di dj : Nat) (hoff : off = ![0, di, dj, 0, 0, 0])
    (b : Fin 4) (h w : Fin 256) (c : Fin 3) (i jj : Fin 2) (hh : h.val + di < 258) (hw : w.val + dj < 258) :
    view (F := Ideal) P off hs (ix7 b h w (0 : Fin 1) c i jj) = P (ix6 b ⟨h.val + di, hh⟩ ⟨w.val + dj, hw⟩ c i jj) := by
  subst hoff
  unfold view
  refine (broadcastInDim_apply _ _ _ (ix7 b h w (0 : Fin 1) c i jj) (ix6 b h w c i jj) ?_).trans ?_
  · intro a
    match a with
    | ⟨0, _⟩ => rfl | ⟨1, _⟩ => rfl | ⟨2, _⟩ => rfl | ⟨3, _⟩ => rfl | ⟨4, _⟩ => rfl | ⟨5, _⟩ => rfl
  refine extractStridedSlice_apply _ P hs _ _ ?_
  intro a
  match a with
  | ⟨0, _⟩ => exact (Nat.zero_add _).symm
  | ⟨1, _⟩ => exact Nat.add_comm _ _
  | ⟨2, _⟩ => exact Nat.add_comm _ _
  | ⟨3, _⟩ => exact (Nat.zero_add _).symm
  | ⟨4, _⟩ => exact (Nat.zero_add _).symm
  | ⟨5, _⟩ => exact (Nat.zero_add _).symm

/-- Neighbour 0: the view at offset (0, 0). -/
theorem nbrs_at_0 (P : FVec Ideal S4x258x258x3x2x2 .f32) (b : Fin 4) (h w : Fin 256) (c : Fin 3) (i jj : Fin 2)
    (hk : 0 < 9) :
    nbrs (F := Ideal) P (ix7 b h w (⟨0, hk⟩ : Fin 9) c i jj)
      = P (ix6 b ⟨h.val + 0, by omega⟩ ⟨w.val + 0, by omega⟩ c i jj) := by
  unfold nbrs
  refine Eq.trans (concatenate_apply_piece (3 : Fin 7) _ _ (ix7 b h w (⟨0, hk⟩ : Fin 9) c i jj) 0 ?_
    S4x256x256x1x3x2x2
    (view P ![0, 0, 0, 0, 0, 0] slices_S4x258x258x3x2x2_S4x256x256x3x2x2_0_0_0_0_0_0) rfl rfl 0 rfl
    (ix7 b h w (0 : Fin 1) c i jj) ?_ rfl) ?_
  · show 0 < 9
    omega
  · intro a
    match a with
    | ⟨0, _⟩ => exact fun _ => rfl
    | ⟨1, _⟩ => exact fun _ => rfl
    | ⟨2, _⟩ => exact fun _ => rfl
    | ⟨3, _⟩ => exact fun hne => absurd rfl hne
    | ⟨4, _⟩ => exact fun _ => rfl
    | ⟨5, _⟩ => exact fun _ => rfl
    | ⟨6, _⟩ => exact fun _ => rfl
  · exact view_apply P _ _ 0 0 rfl b h w c i jj _ _

/-- Neighbour 1: the view at offset (0, 1). -/
theorem nbrs_at_1 (P : FVec Ideal S4x258x258x3x2x2 .f32) (b : Fin 4) (h w : Fin 256) (c : Fin 3) (i jj : Fin 2)
    (hk : 1 < 9) :
    nbrs (F := Ideal) P (ix7 b h w (⟨1, hk⟩ : Fin 9) c i jj)
      = P (ix6 b ⟨h.val + 0, by omega⟩ ⟨w.val + 1, by omega⟩ c i jj) := by
  unfold nbrs
  refine Eq.trans (concatenate_apply_piece (3 : Fin 7) _ _ (ix7 b h w (⟨1, hk⟩ : Fin 9) c i jj) 1 ?_
    S4x256x256x1x3x2x2
    (view P ![0, 0, 1, 0, 0, 0] slices_S4x258x258x3x2x2_S4x256x256x3x2x2_0_0_1_0_0_0) rfl rfl 1 rfl
    (ix7 b h w (0 : Fin 1) c i jj) ?_ rfl) ?_
  · show 1 < 9
    omega
  · intro a
    match a with
    | ⟨0, _⟩ => exact fun _ => rfl
    | ⟨1, _⟩ => exact fun _ => rfl
    | ⟨2, _⟩ => exact fun _ => rfl
    | ⟨3, _⟩ => exact fun hne => absurd rfl hne
    | ⟨4, _⟩ => exact fun _ => rfl
    | ⟨5, _⟩ => exact fun _ => rfl
    | ⟨6, _⟩ => exact fun _ => rfl
  · exact view_apply P _ _ 0 1 rfl b h w c i jj _ _

/-- Neighbour 2: the view at offset (0, 2). -/
theorem nbrs_at_2 (P : FVec Ideal S4x258x258x3x2x2 .f32) (b : Fin 4) (h w : Fin 256) (c : Fin 3) (i jj : Fin 2)
    (hk : 2 < 9) :
    nbrs (F := Ideal) P (ix7 b h w (⟨2, hk⟩ : Fin 9) c i jj)
      = P (ix6 b ⟨h.val + 0, by omega⟩ ⟨w.val + 2, by omega⟩ c i jj) := by
  unfold nbrs
  refine Eq.trans (concatenate_apply_piece (3 : Fin 7) _ _ (ix7 b h w (⟨2, hk⟩ : Fin 9) c i jj) 2 ?_
    S4x256x256x1x3x2x2
    (view P ![0, 0, 2, 0, 0, 0] slices_S4x258x258x3x2x2_S4x256x256x3x2x2_0_0_2_0_0_0) rfl rfl 2 rfl
    (ix7 b h w (0 : Fin 1) c i jj) ?_ rfl) ?_
  · show 2 < 9
    omega
  · intro a
    match a with
    | ⟨0, _⟩ => exact fun _ => rfl
    | ⟨1, _⟩ => exact fun _ => rfl
    | ⟨2, _⟩ => exact fun _ => rfl
    | ⟨3, _⟩ => exact fun hne => absurd rfl hne
    | ⟨4, _⟩ => exact fun _ => rfl
    | ⟨5, _⟩ => exact fun _ => rfl
    | ⟨6, _⟩ => exact fun _ => rfl
  · exact view_apply P _ _ 0 2 rfl b h w c i jj _ _

/-- Neighbour 3: the view at offset (1, 0). -/
theorem nbrs_at_3 (P : FVec Ideal S4x258x258x3x2x2 .f32) (b : Fin 4) (h w : Fin 256) (c : Fin 3) (i jj : Fin 2)
    (hk : 3 < 9) :
    nbrs (F := Ideal) P (ix7 b h w (⟨3, hk⟩ : Fin 9) c i jj)
      = P (ix6 b ⟨h.val + 1, by omega⟩ ⟨w.val + 0, by omega⟩ c i jj) := by
  unfold nbrs
  refine Eq.trans (concatenate_apply_piece (3 : Fin 7) _ _ (ix7 b h w (⟨3, hk⟩ : Fin 9) c i jj) 3 ?_
    S4x256x256x1x3x2x2
    (view P ![0, 1, 0, 0, 0, 0] slices_S4x258x258x3x2x2_S4x256x256x3x2x2_0_1_0_0_0_0) rfl rfl 3 rfl
    (ix7 b h w (0 : Fin 1) c i jj) ?_ rfl) ?_
  · show 3 < 9
    omega
  · intro a
    match a with
    | ⟨0, _⟩ => exact fun _ => rfl
    | ⟨1, _⟩ => exact fun _ => rfl
    | ⟨2, _⟩ => exact fun _ => rfl
    | ⟨3, _⟩ => exact fun hne => absurd rfl hne
    | ⟨4, _⟩ => exact fun _ => rfl
    | ⟨5, _⟩ => exact fun _ => rfl
    | ⟨6, _⟩ => exact fun _ => rfl
  · exact view_apply P _ _ 1 0 rfl b h w c i jj _ _

/-- Neighbour 4: the view at offset (1, 1). -/
theorem nbrs_at_4 (P : FVec Ideal S4x258x258x3x2x2 .f32) (b : Fin 4) (h w : Fin 256) (c : Fin 3) (i jj : Fin 2)
    (hk : 4 < 9) :
    nbrs (F := Ideal) P (ix7 b h w (⟨4, hk⟩ : Fin 9) c i jj)
      = P (ix6 b ⟨h.val + 1, by omega⟩ ⟨w.val + 1, by omega⟩ c i jj) := by
  unfold nbrs
  refine Eq.trans (concatenate_apply_piece (3 : Fin 7) _ _ (ix7 b h w (⟨4, hk⟩ : Fin 9) c i jj) 4 ?_
    S4x256x256x1x3x2x2
    (view P ![0, 1, 1, 0, 0, 0] slices_S4x258x258x3x2x2_S4x256x256x3x2x2_0_1_1_0_0_0) rfl rfl 4 rfl
    (ix7 b h w (0 : Fin 1) c i jj) ?_ rfl) ?_
  · show 4 < 9
    omega
  · intro a
    match a with
    | ⟨0, _⟩ => exact fun _ => rfl
    | ⟨1, _⟩ => exact fun _ => rfl
    | ⟨2, _⟩ => exact fun _ => rfl
    | ⟨3, _⟩ => exact fun hne => absurd rfl hne
    | ⟨4, _⟩ => exact fun _ => rfl
    | ⟨5, _⟩ => exact fun _ => rfl
    | ⟨6, _⟩ => exact fun _ => rfl
  · exact view_apply P _ _ 1 1 rfl b h w c i jj _ _

/-- Neighbour 5: the view at offset (1, 2). -/
theorem nbrs_at_5 (P : FVec Ideal S4x258x258x3x2x2 .f32) (b : Fin 4) (h w : Fin 256) (c : Fin 3) (i jj : Fin 2)
    (hk : 5 < 9) :
    nbrs (F := Ideal) P (ix7 b h w (⟨5, hk⟩ : Fin 9) c i jj)
      = P (ix6 b ⟨h.val + 1, by omega⟩ ⟨w.val + 2, by omega⟩ c i jj) := by
  unfold nbrs
  refine Eq.trans (concatenate_apply_piece (3 : Fin 7) _ _ (ix7 b h w (⟨5, hk⟩ : Fin 9) c i jj) 5 ?_
    S4x256x256x1x3x2x2
    (view P ![0, 1, 2, 0, 0, 0] slices_S4x258x258x3x2x2_S4x256x256x3x2x2_0_1_2_0_0_0) rfl rfl 5 rfl
    (ix7 b h w (0 : Fin 1) c i jj) ?_ rfl) ?_
  · show 5 < 9
    omega
  · intro a
    match a with
    | ⟨0, _⟩ => exact fun _ => rfl
    | ⟨1, _⟩ => exact fun _ => rfl
    | ⟨2, _⟩ => exact fun _ => rfl
    | ⟨3, _⟩ => exact fun hne => absurd rfl hne
    | ⟨4, _⟩ => exact fun _ => rfl
    | ⟨5, _⟩ => exact fun _ => rfl
    | ⟨6, _⟩ => exact fun _ => rfl
  · exact view_apply P _ _ 1 2 rfl b h w c i jj _ _

/-- Neighbour 6: the view at offset (2, 0). -/
theorem nbrs_at_6 (P : FVec Ideal S4x258x258x3x2x2 .f32) (b : Fin 4) (h w : Fin 256) (c : Fin 3) (i jj : Fin 2)
    (hk : 6 < 9) :
    nbrs (F := Ideal) P (ix7 b h w (⟨6, hk⟩ : Fin 9) c i jj)
      = P (ix6 b ⟨h.val + 2, by omega⟩ ⟨w.val + 0, by omega⟩ c i jj) := by
  unfold nbrs
  refine Eq.trans (concatenate_apply_piece (3 : Fin 7) _ _ (ix7 b h w (⟨6, hk⟩ : Fin 9) c i jj) 6 ?_
    S4x256x256x1x3x2x2
    (view P ![0, 2, 0, 0, 0, 0] slices_S4x258x258x3x2x2_S4x256x256x3x2x2_0_2_0_0_0_0) rfl rfl 6 rfl
    (ix7 b h w (0 : Fin 1) c i jj) ?_ rfl) ?_
  · show 6 < 9
    omega
  · intro a
    match a with
    | ⟨0, _⟩ => exact fun _ => rfl
    | ⟨1, _⟩ => exact fun _ => rfl
    | ⟨2, _⟩ => exact fun _ => rfl
    | ⟨3, _⟩ => exact fun hne => absurd rfl hne
    | ⟨4, _⟩ => exact fun _ => rfl
    | ⟨5, _⟩ => exact fun _ => rfl
    | ⟨6, _⟩ => exact fun _ => rfl
  · exact view_apply P _ _ 2 0 rfl b h w c i jj _ _

/-- Neighbour 7: the view at offset (2, 1). -/
theorem nbrs_at_7 (P : FVec Ideal S4x258x258x3x2x2 .f32) (b : Fin 4) (h w : Fin 256) (c : Fin 3) (i jj : Fin 2)
    (hk : 7 < 9) :
    nbrs (F := Ideal) P (ix7 b h w (⟨7, hk⟩ : Fin 9) c i jj)
      = P (ix6 b ⟨h.val + 2, by omega⟩ ⟨w.val + 1, by omega⟩ c i jj) := by
  unfold nbrs
  refine Eq.trans (concatenate_apply_piece (3 : Fin 7) _ _ (ix7 b h w (⟨7, hk⟩ : Fin 9) c i jj) 7 ?_
    S4x256x256x1x3x2x2
    (view P ![0, 2, 1, 0, 0, 0] slices_S4x258x258x3x2x2_S4x256x256x3x2x2_0_2_1_0_0_0) rfl rfl 7 rfl
    (ix7 b h w (0 : Fin 1) c i jj) ?_ rfl) ?_
  · show 7 < 9
    omega
  · intro a
    match a with
    | ⟨0, _⟩ => exact fun _ => rfl
    | ⟨1, _⟩ => exact fun _ => rfl
    | ⟨2, _⟩ => exact fun _ => rfl
    | ⟨3, _⟩ => exact fun hne => absurd rfl hne
    | ⟨4, _⟩ => exact fun _ => rfl
    | ⟨5, _⟩ => exact fun _ => rfl
    | ⟨6, _⟩ => exact fun _ => rfl
  · exact view_apply P _ _ 2 1 rfl b h w c i jj _ _

/-- Neighbour 8: the view at offset (2, 2). -/
theorem nbrs_at_8 (P : FVec Ideal S4x258x258x3x2x2 .f32) (b : Fin 4) (h w : Fin 256) (c : Fin 3) (i jj : Fin 2)
    (hk : 8 < 9) :
    nbrs (F := Ideal) P (ix7 b h w (⟨8, hk⟩ : Fin 9) c i jj)
      = P (ix6 b ⟨h.val + 2, by omega⟩ ⟨w.val + 2, by omega⟩ c i jj) := by
  unfold nbrs
  refine Eq.trans (concatenate_apply_piece (3 : Fin 7) _ _ (ix7 b h w (⟨8, hk⟩ : Fin 9) c i jj) 8 ?_
    S4x256x256x1x3x2x2
    (view P ![0, 2, 2, 0, 0, 0] slices_S4x258x258x3x2x2_S4x256x256x3x2x2_0_2_2_0_0_0) rfl rfl 8 rfl
    (ix7 b h w (0 : Fin 1) c i jj) ?_ rfl) ?_
  · show 8 < 9
    omega
  · intro a
    match a with
    | ⟨0, _⟩ => exact fun _ => rfl
    | ⟨1, _⟩ => exact fun _ => rfl
    | ⟨2, _⟩ => exact fun _ => rfl
    | ⟨3, _⟩ => exact fun hne => absurd rfl hne
    | ⟨4, _⟩ => exact fun _ => rfl
    | ⟨5, _⟩ => exact fun _ => rfl
    | ⟨6, _⟩ => exact fun _ => rfl
  · exact view_apply P _ _ 2 2 rfl b h w c i jj _ _

/-- Two reads of the patch grid at equal patch rows and columns agree. -/
theorem grid_congr (P : FVec Ideal S4x258x258x3x2x2 .f32) (b : Fin 4) (x x' y y' : Fin 258) (c : Fin 3) (i jj : Fin 2)
    (hx : x.val = x'.val) (hy : y.val = y'.val) : P (ix6 b x y c i jj) = P (ix6 b x' y' c i jj) := by
  obtain rfl := Fin.ext hx
  obtain rfl := Fin.ext hy
  rfl

/-- The stacked views read at an index: neighbour `p` is the view at offset (`p / 3`, `p % 3`). -/
theorem nbrs_apply (P : FVec Ideal S4x258x258x3x2x2 .f32) (b : Fin 4) (h w : Fin 256) (p : Fin 9) (c : Fin 3) (i jj : Fin 2) :
    nbrs (F := Ideal) P (ix7 b h w p c i jj)
      = P (ix6 b ⟨h.val + p.val / 3, by omega⟩ ⟨w.val + p.val % 3, by omega⟩ c i jj) := by
  obtain ⟨pv, hp⟩ := p
  interval_cases pv
  · exact (nbrs_at_0 P b h w c i jj hp).trans (grid_congr P b _ _ _ _ c i jj (by simp) (by simp))
  · exact (nbrs_at_1 P b h w c i jj hp).trans (grid_congr P b _ _ _ _ c i jj (by simp) (by simp))
  · exact (nbrs_at_2 P b h w c i jj hp).trans (grid_congr P b _ _ _ _ c i jj (by simp) (by simp))
  · exact (nbrs_at_3 P b h w c i jj hp).trans (grid_congr P b _ _ _ _ c i jj (by simp) (by simp))
  · exact (nbrs_at_4 P b h w c i jj hp).trans (grid_congr P b _ _ _ _ c i jj (by simp) (by simp))
  · exact (nbrs_at_5 P b h w c i jj hp).trans (grid_congr P b _ _ _ _ c i jj (by simp) (by simp))
  · exact (nbrs_at_6 P b h w c i jj hp).trans (grid_congr P b _ _ _ _ c i jj (by simp) (by simp))
  · exact (nbrs_at_7 P b h w c i jj hp).trans (grid_congr P b _ _ _ _ c i jj (by simp) (by simp))
  · exact (nbrs_at_8 P b h w c i jj hp).trans (grid_congr P b _ _ _ _ c i jj (by simp) (by simp))

/-- The stacked views of the patch grid of the padded image, read at an index. -/
theorem nbrs_patches_apply (Y : FVec Ideal S4x3x258x2x258x2 .f32) (b : Fin 4) (h w : Fin 256) (p : Fin 9) (c : Fin 3) (i jj : Fin 2) :
    nbrs (F := Ideal) (patches Y) (ix7 b h w p c i jj)
      = Y (ix6 b c ⟨h.val + p.val / 3, by omega⟩ i ⟨w.val + p.val % 3, by omega⟩ jj) := by
  rw [nbrs_apply, patches_apply]

/-- The centre neighbour is the patch one row and one column from the window's corner. -/
theorem nbrs_patches_centre (Y : FVec Ideal S4x3x258x2x258x2 .f32) (b : Fin 4) (h w : Fin 256) (c : Fin 3) (i jj : Fin 2) :
    nbrs (F := Ideal) (patches Y) (ix7 b h w (4 : Fin 9) c i jj)
      = Y (ix6 b c ⟨h.val + 1, by omega⟩ i ⟨w.val + 1, by omega⟩ jj) := by
  exact (nbrs_at_4 (patches Y) b h w c i jj (by omega)).trans (patches_apply Y b _ _ c i jj)

end Cert.ReferenceIdeal.RefValue

end
-- ==== Proof.RefValue.lean ====
/-
  The reference's value: its result term is the specification, index by index, over the extended reals. The sum over
  the nine neighbours is opened stage by stage — the transposed sum, the products, the stacked affine map, the stacked
  views of the patch grid — each read at one index, and what remains is the windowed product sum of the specification,
  factor by factor. The padding, the last reshape and the residual sum are carried as they are.
-/
import proofs.«114282_j52390011076755_2_alg».proof.Proof.RefTerm
import proofs.«114282_j52390011076755_2_alg».proof.Proof.Spec
import proofs.«114282_j52390011076755_2_alg».proof.Proof.Gen.ReferenceIdeal
import proofs.«114282_j52390011076755_2_alg».proof.Proof.LibRank78
import proofs.«114282_j52390011076755_2_alg».proof.Proof.RefIdxSum
import proofs.«114282_j52390011076755_2_alg».proof.Proof.RefIdxProds
import proofs.«114282_j52390011076755_2_alg».proof.Proof.RefIdxQkv
import proofs.«114282_j52390011076755_2_alg».proof.Proof.RefIdxNbrs

noncomputable section

namespace Cert.ReferenceIdeal.RefValue

open Cert.ReferenceIdeal Cert.ReferenceIdeal.Facts₀ Idealize.ShloMosaic Idealize.ShloMosaic.ValueIdx
open Cert.Attn (chan chanC chanI chanJ row)

/-- The program's table of weights is the specification's, word by word. -/
theorem lit0_eq_biasLit : ∀ k : Fin 36, lit0 k = Cert.Attn.biasLit k := by decide

/-- The weight of neighbour `p` at place (`i`, `jj`) of a patch is the specification's weight on the folded channel:
    the place is the channel modulo four. -/
theorem lit0_eq_bias (p : Fin 9) (c : Fin 3) (i jj : Fin 2) :
    Ideal.ofBits .f32 (lit0 ⟨p.val * 4 + i.val * 2 + jj.val, by omega⟩) = Cert.Attn.bias p (chan c i jj) := by
  unfold Cert.Attn.bias
  rw [lit0_eq_biasLit]
  refine congrArg (fun k : Fin 36 => Ideal.ofBits .f32 (Cert.Attn.biasLit k)) (Fin.ext ?_)
  show p.val * 4 + i.val * 2 + jj.val = p.val * 4 + (c.val * 4 + i.val * 2 + jj.val) % 4
  omega

/-- The sum over the nine neighbours of the reference is the specification's windowed product sum. -/
theorem summed_eq (Y : FVec Ideal S4x3x258x2x258x2 .f32) (W : FVec Ideal S36x12 .f32) (B : FVec Ideal S36 .f32) :
    summed (F := Ideal) (qkv (nbrs (patches Y)) W B) = Cert.Attn.out6 Y W B := by
  funext j
  obtain ⟨b, c, h, i, w, jj, rfl⟩ : ∃ (b : Fin 4) (c : Fin 3) (h : Fin 256) (i : Fin 2) (w : Fin 256) (jj : Fin 2),
      j = ix6 b c h i w jj := ⟨_, _, _, _, _, _, eq_ix6 j⟩
  rw [Cert.Attn.out6_apply, summed_apply]
  unfold Cert.Attn.att
  refine congrArg (_ + ·) (Finset.sum_congr rfl fun p _ => ?_)
  rw [prods_apply, lit0_eq_bias p c i jj]
  simp only [qkv_apply]
  simp only [nbrs_patches_centre]
  simp only [nbrs_patches_apply]
  rfl

/-- The reference's result is the image plus the specification's windowed product sum of the padded image, laid back
    out as an image. -/
theorem refOut_eq (x : FVec Ideal S4x3x512x512 .f32) (W : FVec Ideal S36x12 .f32) (B : FVec Ideal S36 .f32) :
    refOut (F := Ideal) x W B
      = addf x (shapeCast S4x3x512x512 (Cert.Attn.out6 (ypad (F := Ideal) x) W B) shapeCasts_S4x3x256x2x256x2_S4x3x512x512) := by
  unfold refOut
  rw [summed_eq]

end Cert.ReferenceIdeal.RefValue

end
-- ==== Proof.lean ====
/-
  The certificate. Kernel: a 2 × 2-patch, 3 × 3-window attention without softmax — per patch an affine query, key and
  value of its twelve entries; per inner patch the sum over its nine neighbours of query · key · weight · value; laid back
  out as an image and added to the input. The kernel program folds the padded image into twelve channel planes, runs one
  region over the four images (each in four row chunks, the affine maps as twelve fused multiply-adds, the window as nine
  shifted slices), and unfolds the result; the reference stacks the nine shifted patch grids and takes one matrix product.
  Over the extended reals the two are the same function of the arguments, index by index: they differ only in the order of
  additions and of the two factors of a product, and + and · are commutative and associative there (no distributivity is
  used, so the precondition is never opened). Both programs pad, cut into patches and add the residual by the same
  operations, which are carried unopened.

  The three frames: the kernel programs' are their generated frame runs; the reference's is its run with the result dropped.
  The idealization rewrote nothing. The value claim joins the kernel program's run (its region's output array as one
  function, then its host tail) and the reference's run (its composed term read index by index) at the specification.
-/
import proofs.«114282_j52390011076755_2_alg».proof.Defs
import proofs.«114282_j52390011076755_2_alg».proof.Proof.Gen.Kernel
import proofs.«114282_j52390011076755_2_alg».proof.Proof.Gen.Kernel.Frame
import proofs.«114282_j52390011076755_2_alg».proof.Proof.Gen.KernelIdeal
import proofs.«114282_j52390011076755_2_alg».proof.Proof.Gen.KernelIdeal.Frame
import proofs.«114282_j52390011076755_2_alg».proof.Proof.Gen.ReferenceIdeal
import proofs.«114282_j52390011076755_2_alg».proof.Proof.Gen.Pre_finite_inputs
import proofs.«114282_j52390011076755_2_alg».proof.Proof.KRun
import proofs.«114282_j52390011076755_2_alg».proof.Proof.RefRun
import proofs.«114282_j52390011076755_2_alg».proof.Proof.RefValue
import Idealize.ShloMosaic.Adequacy
import Idealize.ShloMosaic.Init

noncomputable section

namespace Cert.Proof

open Idealize.ShloMosaic Idealize.SL.Sem

/-- Both programs cut the same zero-padded image into patches by the same two operations. -/
theorem ypad_eq (x : Cert.Attn.SX.Idx → EReal) :
    Cert.ReferenceIdeal.RefValue.ypad (F := Ideal) x = Cert.KernelIdeal.KHost.ypadK x := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Both runs end with the result array at the specification's image of arguments that agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run (F := Ideal) m' ρ')
  rw [Cert.ReferenceIdeal.RefValue.refOut_eq, ypad_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
